-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x256 .f32) (main_arg1 : FVec F S4096x256 .f32) (main_arg2 : FVec F S256x256 .f32) (main_arg3 : FVec F S256 .f32) (main_arg4 : FVec F S256x128 .f32) (main_arg5 : FVec F S128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4096x256 : Shape := ⟨2, ![4096, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S8192x256 : Shape := ⟨2, ![8192, 256]⟩
abbrev S8192x128 : Shape := ⟨2, ![8192, 128]⟩
abbrev S512x256 : Shape := ⟨2, ![512, 256]⟩
abbrev S512x128 : Shape := ⟨2, ![512, 128]⟩
abbrev S1x256 : Shape := ⟨2, ![1, 256]⟩
abbrev S1x128 : Shape := ⟨2, ![1, 128]⟩
abbrev S512 : Shape := ⟨1, ![512]⟩
abbrev S512x1 : Shape := ⟨2, ![512, 1]⟩
abbrev S8192x1 : Shape := ⟨2, ![8192, 1]⟩
abbrev S1024x128 : Shape := ⟨2, ![1024, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩
abbrev S_ : Shape := ⟨0, ![]⟩

abbrev nBuf : Space → Nat
  | .hbm => 14
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S8192x256, .f32⟩
  | .hbm, ⟨7, _⟩ => ⟨S8192x128, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S256, .f32⟩
  | .local _ .vmem, ⟨4, _⟩ => ⟨S256x128, .f32⟩
  | .local _ .vmem, ⟨5, _⟩ => ⟨S128, .f32⟩
  | .local _ .vmem, ⟨6, _⟩ => ⟨S512x128, .f32⟩
  | .local _ .vmem, ⟨7, _⟩ => ⟨S512x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def k1_cond3 (i : grid1.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_18 : BitVec 32 := 0#32
  let v40 : BitVec 1 := Scalar.cmpi .ne v39 c0_i32_18
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  concatenates_S4096x256_S4096x256_S8192x256_d0 : Shape.Concatenates [S4096x256, S4096x256] S8192x256 0
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  reduces_S512x128_S512 : S512x128.Reduces [1] S512
  shapeCasts_S512_S512x1 : S512.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  reduces_S1024x1024_S1024 : S1024x1024.Reduces [1] S1024
  shapeCasts_S1024_S1024x1 : S1024.ShapeCasts S1024x1
  broadcasts_S1024x1_S1024x1024 : S1024x1.Broadcasts S1024x1024
  iota_S1024x1024_d0_w32 : S1024x1024.Iotas .tc 32 [0]
  iota_S1024x1024_d1_w32 : S1024x1024.Iotas .tc 32 [1]
  reducesTo_S8192x1_S_d0_1 : S8192x1.ReducesTo [0, 1] S_
  h_S_ : 0 < S_.numel
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S8192x128.size a
  hwx0_5 : ∀ i : grid0.Coords, EltTy.bits .f32 = 32 ∨ (Rect.block (s := S8192x128) S512x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S_ : Shape := ⟨0, ![]⟩
abbrev S4096x128 : Shape := ⟨2, ![4096, 128]⟩
abbrev S1x128 : Shape := ⟨2, ![1, 128]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩

abbrev nBuf : Space → Nat
  | .hbm => 97
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S4096x256, .f32⟩
  | .hbm, ⟨7, _⟩ => ⟨S1x256, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S4096x256, .f32⟩
  | .hbm, ⟨12, _⟩ => ⟨S4096x256, .f32⟩
  | .hbm, ⟨13, _⟩ => ⟨S4096x128, .f32⟩
  | .hbm, ⟨14, _⟩ => ⟨S1x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x128, .f32⟩
  | .hbm, ⟨26, _⟩ => ⟨S4096x128, .f32⟩
  | .hbm, ⟨27, _⟩ => ⟨S4096x256, .f32⟩
  | .hbm, ⟨28, _⟩ => ⟨S1x256, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S4096x128, .f32⟩
  | .hbm, ⟨35, _⟩ => ⟨S1x128, .f32⟩
  | .hbm, ⟨36, _⟩ => ⟨S4096x128, .f32⟩
  | .hbm, ⟨37, _⟩ => ⟨S4096x128, .f32⟩
  | .hbm, ⟨38, _⟩ => ⟨S4096x128, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x128, .f32⟩
  | .hbm, ⟨47, _⟩ => ⟨S4096x128, .f32⟩
  | .hbm, ⟨48, _⟩ => ⟨S8192x128, .f32⟩
  | .hbm, ⟨49, _⟩ => ⟨S128x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1, .f32⟩
  | .hbm, ⟨67, _⟩ => ⟨S8192x8192, .f32⟩
  | .hbm, ⟨68, _⟩ => ⟨S8192x8192, .f32⟩
  | .hbm, ⟨69, _⟩ => ⟨S4096, .i32⟩
  | .hbm, ⟨70, _⟩ => ⟨S4096, .i32⟩
  | .hbm, ⟨71, _⟩ => ⟨S8192, .i32⟩
  | .hbm, ⟨72, _⟩ => ⟨S1x8192, .i32⟩
  | .hbm, ⟨73, _⟩ => ⟨S8192x1, .i32⟩
  | .hbm, ⟨74, _⟩ => ⟨S8192x8192, .i32⟩
  | .hbm, ⟨75, _⟩ => ⟨S8192x8192, .i32⟩
  | .hbm, ⟨76, _⟩ => ⟨S8192x8192, .i1⟩
  | .hbm, ⟨77, _⟩ => ⟨S8192x8192, .i32⟩
  | .hbm, ⟨78, _⟩ => ⟨S8192x8192, .i32⟩
  | .hbm, ⟨79, _⟩ => ⟨S_, .i32⟩
  | .hbm, ⟨80, _⟩ => ⟨S8192x8192, .i32⟩
  | .hbm, ⟨81, _⟩ => ⟨S8192x8192, .i32⟩
  | .hbm, ⟨82, _⟩ => ⟨S8192x8192, .i1⟩
  | .hbm, ⟨83, _⟩ => ⟨S8192x8192, .i1⟩
  | .hbm, ⟨84, _⟩ => ⟨S8192x8192, .i1⟩
  | .hbm, ⟨85, _⟩ => ⟨S8192x8192, .f32⟩
  | .hbm, ⟨86, _⟩ => ⟨S8192x8192, .f32⟩
  | .hbm, ⟨87, _⟩ => ⟨S_, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_cst : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_call2_cst : Ref sig .tc := ⟨.hbm, 54, rfl⟩
abbrev main_call2_v0 : Ref sig .tc := ⟨.hbm, 55, rfl⟩
abbrev main_call2_cst_0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_cst_1 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_4 : Ref sig .tc := ⟨.hbm, 87, rfl⟩
abbrev main_v57 : Ref sig .tc := ⟨.hbm, 88, rfl⟩
abbrev main_cst_5 : Ref sig .tc := ⟨.hbm, 89, rfl⟩
abbrev main_v58 : Ref sig .tc := ⟨.hbm, 90, rfl⟩
abbrev main_v59 : Ref sig .tc := ⟨.hbm, 91, rfl⟩
abbrev main_cst_6 : Ref sig .tc := ⟨.hbm, 92, rfl⟩
abbrev main_v60 : Ref sig .tc := ⟨.hbm, 93, rfl⟩
abbrev main_cst_7 : Ref sig .tc := ⟨.hbm, 94, rfl⟩
abbrev main_v61 : Ref sig .tc := ⟨.hbm, 95, rfl⟩
abbrev main_v62 : Ref sig .tc := ⟨.hbm, 96, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  concatenates_S4096_S4096_S8192_d0 : Shape.Concatenates [S4096, S4096] S8192 0
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192_S_d0 : S8192.ReducesTo [0] S_
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  dot_S8192x128_S128x8192_S8192x8192_1_0_0_1_n_n_wf : DotDims.WF S8192x128 S128x8192 S8192x8192 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KRegion0.lean ====
/-
  Region 0 of the kernel (the projection: two dense layers with a rectification between them, then each row
  divided by its Euclidean norm floored at a small constant), at the contents `V` the region finds in the arrays:
  each window's block at a grid point, what the body leaves in the output window's buffer as a function of the five
  input blocks, the body's triple, the pipeline's proof data and the body obligation at every point.
  A row block of 512 rows of the 8192 x 256 input against the whole weight matrices and bias vectors gives the
  matching 512 rows of the 8192 x 128 output; no point reads what another wrote.
-/
import proofs.«132639_j29025388987032_1_alg».proof.Proof.Gen.Kernel.Launch
import proofs.«132639_j29025388987032_1_alg».proof.Proof.Gen.Kernel.Skeleton
import proofs.«132639_j29025388987032_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not fetched
    the block index has not moved, so the block already there is this point's. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not fetched
    the block index has not moved, so the block already there is this point's. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not fetched
    the block index has not moved, so the block already there is this point's. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not fetched
    the block index has not moved, so the block already there is this point's. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not fetched
    the block index has not moved, so the block already there is this point's. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S512x256 := Rect.unit (s := S512x256) ![0, 0] S512x256.size inb_S512x256_S512x256_0_0
abbrev rW1 : Rect S256x256 := Rect.unit (s := S256x256) ![0, 0] S256x256.size inb_S256x256_S256x256_0_0
abbrev rB1 : Rect S256 := Rect.unit (s := S256) ![0] S256.size inb_S256_S256_0
abbrev rW2 : Rect S256x128 := Rect.unit (s := S256x128) ![0, 0] S256x128.size inb_S256x128_S256x128_0_0
abbrev rB2 : Rect S128 := Rect.unit (s := S128) ![0] S128.size inb_S128_S128_0
abbrev rOut : Rect S512x128 := Rect.unit (s := S512x128) ![0, 0] S512x128.size inb_S512x128_S512x128_0_0

/-- What the body leaves in the output window's buffer, from the five input blocks: its one store, of the normalised
    projection of the row block. -/
def out5 (x0 : Vec F S512x256 .f32) (x1 : Vec F S256x256 .f32) (x2 : Vec F S256 .f32) (x3 : Vec F S256x128 .f32) (x4 : Vec F S128 .f32) :
    Vec F S512x128 .f32 :=
  View.canon [⟨rOut, k0_pay1 (View.ld x0 rX) (View.ld x1 rW1) (View.ld x2 rB1) (View.ld x3 rW2) (View.ld x4 rB2)⟩]

/-- The one store covers the buffer. -/
theorem cover5 (p0 : Vec F S512x128 .f32) (y : S512x128.Idx) :
    ∃ pc ∈ ([⟨rOut, p0⟩] : List (View.Piece (Elt F) S512x128 .f32)), y ∈ pc.1.set :=
  View.cover_of_tiled [⟨rOut, p0⟩] S512x128.size (by rfl) y

set_option maxHeartbeats 4000000 in
/-- The body on whole staging memrefs, the inputs' at read contents and the output's at anything, runs to the
    continuation holding the inputs' as they were and the output's at `out5` of the inputs'. -/
theorem sound_kernel (c : Dev nD) (E : Set ℕ) (i : grid0.Coords)
    (arg1 : Memref sig .tc .vmem S512x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x128 .f32) (harg4 : arg4.IsWhole)
    (arg5 : Memref sig .tc .vmem S128 .f32) (harg5 : arg5.IsWhole) (arg6 : Memref sig .tc .vmem S512x128 .f32) (harg6 : arg6.IsWhole)
    (x0 : Vec F S512x256 .f32) (x1 : Vec F S256x256 .f32) (x2 : Vec F S256 .f32) (x3 : Vec F S256x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of region 0 on core `c`: the arrays as the region finds them; after the body at point `t` each
    input's buffer still at its block and the output's at `out5` of the five input blocks; the invariant is the scoped
    rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) :
    (dat V c).after 5 t = out5 (iblk V c 0 t) (iblk V c 1 t) (iblk V c 2 t) (iblk V c 3 t) (iblk V c 4 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Region0

end
-- ==== Proof.KRun.lean ====
/-
  The whole run of the kernel's @main, from the launch to the return, with every unscoped buffer's final
  contents named: the host's concatenation of the two inputs, region 0 (the projection, a row block per grid point),
  region 1 (the loss rows, a row tile against every column tile), and the host's mean and negation.
  The buffer contents at each boundary are a fold from the launch memory: a host stretch applies its operations; a
  region leaves its output array at what its write-backs make of it and every other buffer as it was. Region 1 reads
  the feature array through two windows (the row tile and the column tile): its full share is dealt in two halves at
  the region's entry and joined again at its exit, the array unchanged.
-/
import proofs.«132639_j29025388987032_1_alg».proof.Proof.KRegion0
import proofs.«132639_j29025388987032_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the concatenation (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (Region0.dat (V1 m ρ) c).arrAt w cfg0.N
theorem W2_arr (c : Dev nD) (w : Fin cfg0.W) :
    W2 m ρ c (Proc.devRef .tc (Pipeline.arrRef spec0 w)) = (Region0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Region0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-! ## Region 1's proof data: a parameter of this module (its module instantiates it) -/

variable (dat1 : (c : Dev nD) → Dat τ (Elt F) Unit ℕ (UR sig nD τ) ℕ cfg1 c)

/-- At region 1's exit: the loss rows' array at what the write-backs leave, every other buffer as entered. -/
def W3 (c : Dev nD) : Valuation τ sig (Elt F) :=
  Function.update (W2 m ρ c) (Proc.devRef .tc main_v2) ((dat1 c).arrAt 2 cfg1.N)
theorem W3_out (c : Dev nD) : W3 m ρ dat1 c (Proc.devRef .tc main_v2) = (dat1 c).arrAt 2 cfg1.N := by
  unfold W3; exact Function.update_self ..
theorem W3_of_ne (c : Dev nD) (b : Ref sig .tc) (hb : b ≠ main_v2) :
    W3 m ρ dat1 c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ dat1 c b
/-- After the mean and the negation (the return). -/
abbrev W4 : Dev nD → Valuation τ sig (Elt F) := fun c => StableHlo.after hostOps2 (W3 m ρ dat1 c)

/-! ## One array behind two windows -/

/-- The arrays behind region 1's windows: the feature array (twice) and the loss rows' array. -/
theorem image1 : Finset.univ.image (Pipeline.arrRef spec1) = ({main_v1, main_v2} : Finset (Ref sig .tc)) := by decide

/-- The buffers behind region 1's windows, each whole at the full share. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v2) ↦{fullShare} V main_v2)) := by
  unfold Pipeline.arrBufs
  rw [image1, BI.bigSep_insert (by decide), BI.bigSep_singleton]
  rfl

/-- The shares the two windows on the feature array hold of it: the two halves of the full share. -/
theorem share1_0 (c : Dev nD) (hq0 : (dat1 c).q 0 = fullShare.left) : (dat1 c).share 0 = fullShare.left := by
  unfold Dat.share; rw [if_neg (by decide)]; exact hq0
theorem share1_1 (c : Dev nD) (hq1 : (dat1 c).q 1 = fullShare.right) : (dat1 c).share 1 = fullShare.right := by
  unfold Dat.share; rw [if_neg (by decide)]; exact hq1
theorem share1_2 (c : Dev nD) : (dat1 c).share 2 = fullShare := by
  unfold Dat.share; rw [if_pos (by decide)]

/-- Region 1's arrays at contents `G`: the feature array at the two half shares, the loss rows' array at the full share. -/
theorem arrays1_eq (c : Dev nD) (hq0 : (dat1 c).q 0 = fullShare.left) (hq1 : (dat1 c).q 1 = fullShare.right)
    (G : (w : Fin cfg1.W) → Buf (Elt F) ((cfg1.win w).arr.view.loc (c : Thread nD τ))) :
    ((dat1 c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W1, share1_0 dat1 c hq0, share1_1 dat1 c hq1, share1_2 dat1 c,
    (arr_whole1 0).set_eq_univ, (arr_whole1 2).set_eq_univ]

/-- ENTRY of region 1: every unscoped buffer at region 0's exit contents is region 1's arrays at its entry contents —
    the feature array's full share dealt in two halves to the two windows reading it — beside the unscoped rest. -/
theorem entry1 (c : Dev nD) (hq0 : (dat1 c).q 0 = fullShare.left) (hq1 : (dat1 c).q 1 = fullShare.right)
    (hA1 : ∀ w, (dat1 c).A w = V2 m ρ c (Pipeline.arrRef spec1 w)) :
    (StableHlo.held (c : Thread nD τ) (Pipeline.ucRefs τ sig) (W2 m ρ c) : sProp 𝕄)
      ⊢ iprop((dat1 c).arrays ((dat1 c).arrAt · 0)
          ∗ Pipeline.unscopedRest (Ix := Unit) (Name := ℕ) (U := UR sig nD τ) (Lvl := ℕ) spec1 c (V2 m ρ c)) := by
  rw [← Pipeline.unscopedBufs_held (Ix := Unit) (Name := ℕ) (U := UR sig nD τ) (Lvl := ℕ) c (W2 m ρ c),
    (show (unscopedBufs (Ix := Unit) (Name := ℕ) (U := UR sig nD τ) (Lvl := ℕ) c (V2 m ρ c) : sProp 𝕄) = iprop(Pipeline.arrBufs (Ix := Unit) (Name := ℕ) (U := UR sig nD τ) (Lvl := ℕ) spec1 c (V2 m ρ c) ∗ Pipeline.unscopedRest (Ix := Unit) (Name := ℕ) (U := UR sig nD τ) (Lvl := ℕ) spec1 c (V2 m ρ c)) from Pipeline.unscopedBufs_split₀ cfgs 1 winFacts₀1.arr_unscoped c (V2 m ρ c)), arrBufs1_eq, arrays1_eq dat1 c hq0 hq1,
    show (dat1 c).arrAt 0 0 = V2 m ρ c main_v1 from hA1 0, show (dat1 c).arrAt 1 0 = V2 m ρ c main_v1 from hA1 1,
    show (dat1 c).arrAt 2 0 = V2 m ρ c main_v2 from hA1 2]
  have hs : ((((c : Thread nD τ).loc main_v1) ↦{fullShare} V2 m ρ c main_v1) : sProp 𝕄)
      ⊢ iprop((((c : Thread nD τ).loc main_v1) ↦{fullShare.left} V2 m ρ c main_v1) ∗ (((c : Thread nD τ).loc main_v1) ↦{fullShare.right} V2 m ρ c main_v1)) :=
    (pointsTo_share (PosShare.mem_left_op_right fullShare)).1
  iintro ⟨⟨H1, H2⟩, Hr⟩
  ihave H1' := hs $$ H1
  icases H1' with ⟨Ha, Hb⟩
  isplitl [Ha Hb H2]
  · isplitl [Ha]; · iexact Ha
    isplitl [Hb]; · iexact Hb
    iexact H2
  iexact Hr

/-- EXIT of region 1: its arrays after the last write-back — the feature array unchanged behind both windows, its two
    half shares joined again — and the unscoped rest are every unscoped buffer at the exit contents. -/
theorem exit1 (c : Dev nD) (hq0 : (dat1 c).q 0 = fullShare.left) (hq1 : (dat1 c).q 1 = fullShare.right)
    (hA1 : ∀ w, (dat1 c).A w = V2 m ρ c (Pipeline.arrRef spec1 w)) :
    iprop((dat1 c).arrays ((dat1 c).arrAt · cfg1.N)
          ∗ Pipeline.unscopedRest (Ix := Unit) (Name := ℕ) (U := UR sig nD τ) (Lvl := ℕ) spec1 c (V2 m ρ c))
      ⊢ (StableHlo.held (c : Thread nD τ) (Pipeline.ucRefs τ sig) (W3 m ρ dat1 c) : sProp 𝕄) := by
  rw [← Pipeline.unscopedBufs_held (Ix := Unit) (Name := ℕ) (U := UR sig nD τ) (Lvl := ℕ) c (W3 m ρ dat1 c),
    (show (unscopedBufs (Ix := Unit) (Name := ℕ) (U := UR sig nD τ) (Lvl := ℕ) c (V3 m ρ dat1 c) : sProp 𝕄) = iprop(Pipeline.arrBufs (Ix := Unit) (Name := ℕ) (U := UR sig nD τ) (Lvl := ℕ) spec1 c (V3 m ρ dat1 c) ∗ Pipeline.unscopedRest (Ix := Unit) (Name := ℕ) (U := UR sig nD τ) (Lvl := ℕ) spec1 c (V3 m ρ dat1 c)) from Pipeline.unscopedBufs_split₀ cfgs 1 winFacts₀1.arr_unscoped c (V3 m ρ dat1 c)), arrBufs1_eq, arrays1_eq dat1 c hq0 hq1,
    show (dat1 c).arrAt 0 cfg1.N = V2 m ρ c main_v1 from ((dat1 c).arrAt_in 0 rfl _).trans (hA1 0),
    show (dat1 c).arrAt 1 cfg1.N = V2 m ρ c main_v1 from ((dat1 c).arrAt_in 1 rfl _).trans (hA1 1),
    show V3 m ρ dat1 c main_v1 = V2 m ρ c main_v1 from W3_of_ne m ρ dat1 c main_v1 (by decide),
    show V3 m ρ dat1 c main_v2 = (dat1 c).arrAt 2 cfg1.N from W3_out m ρ dat1 c,
    show Pipeline.unscopedRest (Ix := Unit) (Name := ℕ) (U := UR sig nD τ) (Lvl := ℕ) spec1 c (V3 m ρ dat1 c)
        = Pipeline.unscopedRest (Ix := Unit) (Name := ℕ) (U := UR sig nD τ) (Lvl := ℕ) spec1 c (V2 m ρ c) from by
      unfold Pipeline.unscopedRest
      exact BI.bigSep_congr fun b hb => by
        rw [show V3 m ρ dat1 c b = V2 m ρ c b from W3_of_ne m ρ dat1 c b fun e =>
          (Finset.mem_sdiff.mp hb).2 (e ▸ (by rw [image1]; decide))]]
  iintro ⟨⟨Ha, Hb, H2⟩, Hr⟩
  isplitl [Ha Hb H2]
  · isplitl [Ha Hb]
    · iapply (pointsTo_share (PosShare.mem_left_op_right fullShare)).2
      isplitl [Ha]; · iexact Ha
      iexact Hb
    iexact H2
  iexact Hr

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Region0.dat (V1 m ρ) c
  | ⟨1, _⟩ => fun c => dat1 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered from every unscoped buffer at `W1`, left at `W2`. Its six arrays are split
    out of the unscoped buffers and put back at the exit contents; the generator register goes into the invariant and
    comes out; nothing is owed; the kernel has no semaphore of its own. -/
def reg0 : Pipeline.RegionSeg (pcfgs (F := F)) adm (pdats m ρ dat1) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ dat1) launch0.win launch0.arr_whole c
      ((pdats m ρ dat1 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ dat1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ dat1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ dat1) ((pdats m ρ dat1 0 c).share_full fun _ => rfl)
      (V1 m ρ c) (V2 m ρ c) ((pdats m ρ dat1 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What this module asks of region 1's proof data: its arrays are the contents the region finds; the two windows on the
    feature array hold the two halves of its share; nothing is owed; the body obligation; the invariant before the first
    point is the scoped rest with the generator register, and after the last point gives them back. -/
structure Region1Facts : Prop where
  hA : ∀ c w, (dat1 c).A w = V2 m ρ c (Pipeline.arrRef spec1 w)
  hq0 : ∀ c, (dat1 c).q 0 = fullShare.left
  hq1 : ∀ c, (dat1 c).q 1 = fullShare.right
  howed : ∀ c t, (dat1 c).owed t = 0
  hrec : ∀ c t, (dat1 c).recorded t = Set.univ
  hbody : ∀ c, BodyObligation (dat1 c) (defs₀ (F := F)) Variants.none () Set.univ
  hin : ∀ c, (Pipeline.ΦA (U := UR sig nD τ) spec1 c : sProp 𝕄) ⊢ (dat1 c).Φ 0
  hout : ∀ c, (dat1 c).Φ (Fin.last cfg1.N) ⊢ (Pipeline.ΦA (U := UR sig nD τ) spec1 c : sProp 𝕄)

set_option backward.isDefEq.respectTransparency.types false in
/-- REGION 1 over the thread state: entered from every unscoped buffer at `W2`, left at `W3`. The feature array's share
    is dealt to the two windows reading it at the entry and joined at the exit. -/
def reg1 (h1 : Region1Facts m ρ dat1) : Pipeline.RegionSeg (pcfgs (F := F)) adm (pdats m ρ dat1) () defs₀ 𝒱₀ L lv 1 where
  win := winFacts₀1
  block_pos := block_pos1
  stage_whole := stage_whole1
  K := PEmpty
  osem k := k.elim
  ho := Pipeline.OwnSemFacts.none _
  hbody c := (h1.hbody c).loose
  hwaits := Pipeline.hwaits_of_owed_zero _ _ _ _ L lv 1 fun c t => h1.howed c t
  pre c := iprop(StableHlo.held (c : Thread nD τ) (Pipeline.ucRefs τ sig) (W2 m ρ c) ∗ R c)
  post c := iprop(StableHlo.held (c : Thread nD τ) (Pipeline.ucRefs τ sig) (W3 m ρ dat1 c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (StableHlo.held (c : Thread nD τ) (Pipeline.ucRefs τ sig) (W2 m ρ c) : sProp 𝕄)
        ⊢ iprop((pdats m ρ dat1 1 c).arrays ((pdats m ρ dat1 1 c).arrAt · 0)
            ∗ Pipeline.unscopedRest (Ix := Unit) (Name := ℕ) (U := UR sig nD τ) (Lvl := ℕ) spec1 c (V2 m ρ c)) :=
      entry1 m ρ dat1 c (h1.hq0 c) (h1.hq1 c) (h1.hA c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ dat1 1 c).owed 0 = 0 from h1.howed c 0]
      icases HO with ⟨%W, HO⟩; iexists W; isplitr
      · ipureintro; exact fun _ _ => Or.inl ((h1.hrec c 0).symm ▸ Set.mem_univ _)
      iexact HO
    isplitl [Hp]; · iexact Hp
    iexact Hrest
  hin c := by
    refine BIBase.Entails.trans ?_ (h1.hin c)
    unfold Pipeline.ΦA
    iintro ⟨Hp, -, Hr⟩
    isplitl [Hr]; · iexact Hr
    iexact Hp
  hout c := by
    rw [Pipeline.ownSems0_none]
    refine (h1.hout c).trans ?_
    unfold Pipeline.ΦA
    iintro ⟨Hr, Hp⟩
    isplitl [Hp]; · iexact Hp
    isplitr; · iempintro
    iexact Hr
  hexit c := by
    have hjoin : iprop((pdats m ρ dat1 1 c).arrays ((pdats m ρ dat1 1 c).arrAt · cfg1.N)
          ∗ Pipeline.unscopedRest (Ix := Unit) (Name := ℕ) (U := UR sig nD τ) (Lvl := ℕ) spec1 c (V2 m ρ c))
        ⊢ (StableHlo.held (c : Thread nD τ) (Pipeline.ucRefs τ sig) (W3 m ρ dat1 c) : sProp 𝕄) :=
      exit1 m ρ dat1 c (h1.hq0 c) (h1.hq1 c) (h1.hA c)
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    rw [show (pdats m ρ dat1 1 c).owed (Fin.last _) = 0 from h1.howed c _]
    icases HO with ⟨%W, -, HO⟩; iexists W; iexact HO

/-! ## @main as segments, and the launch -/

/-- @main's four segments in order. -/
abbrev segs (h1 : Region1Facts m ρ dat1) : List (Pipeline.Seg (pcfgs (F := F)) adm (pdats m ρ dat1) () defs₀ 𝒱₀ L lv) :=
  [ .host (hseg hostOps0 hostOps0_sub hostOps0_fresh (W0 m ρ)),
    .region (reg0 m ρ dat1),
    .region (reg1 m ρ dat1 h1),
    .host (hseg hostOps2 hostOps2_sub hostOps2_fresh (W3 m ρ dat1)) ]

theorem main_run (h1 : Region1Facts m ρ dat1) (c : Dev nD) : main (F := F) c = Pipeline.Seg.run (segs m ρ dat1 h1) := (main_chain c).trans (by chain_rfl)

set_option backward.isDefEq.respectTransparency.types false in
/-- THE RUN: from any memory with zero counters every weakly fair execution of @main terminates, nothing faulting, and
    every final state holds each unscoped buffer at the last boundary's contents `W4`. -/
theorem run_all (h1 : Region1Facts m ρ dat1) : θ_run defs (onTc (τ := τ) (main (F := F))) ⟨m, fun _ => 0, ρ⟩ (fun r => ∀ c : Dev nD,
      ∀ b ∈ Pipeline.ucRefs τ sig, r.2.mem (((c : Thread nD τ)).1, b) = W4 m ρ dat1 c b) :=
  Pipeline.θ_run_regions_kit (pcfgs (F := F)) adm (pdats m ρ dat1) () cellOf_inj emb₁ defs₀ 𝒱₀ L lv m ρ main (segs m ρ dat1 h1)
    (fun c Q => by rw [main_run m ρ dat1 h1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W4 m ρ dat1 c) ∗ ∃ r, prngReg c r))
    (hch := ⟨fun _ => .rfl, fun _ => .rfl, fun _ => .rfl, fun _ => .rfl, fun c => (show iprop(StableHlo.held (c : Thread nD τ) (Pipeline.ucRefs τ sig) (W4 m ρ dat1 c) ∗ R c)
        ⊢ (iprop(iprop(StableHlo.held (c : Thread nD τ) (Pipeline.ucRefs τ sig) (W4 m ρ dat1 c) ∗ ∃ r, prngReg c r)
            ∗ ∃ W, owes (c : Thread nD τ) (0 : CellTallies nD τ sig Unit) W) : sProp 𝕄) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ dat1 c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ dat1 c) s')
      isplitl [Hh] <;> iassumption)
    (hQ := fun s h c => h c)

end Cert.Kernel.Run

end
-- ==== Proof.KRunRead.lean ====
/-
  The run of the kernel's @main, read: each argument array ends as launched (no host operation writes one, and
  a region reads it through an input window or passes it by), and the result buffer ends at minus the mean of the loss
  rows' array as region 1 leaves it.
-/
import proofs.«132639_j29025388987032_1_alg».proof.Proof.KRun

set_option maxRecDepth 16384

noncomputable section

namespace Cert.Kernel.Run

open Cert.Kernel Cert.Kernel.Gen
open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)
variable (dat1 : (c : Dev nD) → Dat τ (Elt F) Unit ℕ (UR sig nD τ) ℕ cfg1 c)

/-- The host's tail writes only its own five buffers. -/
theorem W4_of_tail (c : Dev nD) (b : Ref sig .tc) (h : b ∉ hostOps2_W) :
    W4 m ρ dat1 c (Proc.devRef .tc b) = W3 m ρ dat1 c (Proc.devRef .tc b) :=
  StableHlo.after_of_writes_sub hostOps2 _ hostOps2_writes h
/-- The concatenation writes only its result. -/
theorem W1_of (c : Dev nD) (b : Ref sig .tc) (h : b ∉ hostOps0_W) :
    W1 m ρ c (Proc.devRef .tc b) = W0 m ρ c (Proc.devRef .tc b) :=
  StableHlo.after_of_writes_sub hostOps0 _ hostOps0_writes h

theorem W4_main_arg0 (c : Dev nD) : W4 m ρ dat1 c (Proc.devRef .tc main_arg0) = m ((c : Thread nD τ).loc main_arg0) :=
  (W4_of_tail m ρ dat1 c main_arg0 (by decide)).trans <| (W3_of_ne m ρ dat1 c main_arg0 (by decide)).trans <|
    (W2_of_ne m ρ c main_arg0 (by decide)).trans <| (W1_of m ρ c main_arg0 (by decide)).trans rfl
theorem W4_main_arg1 (c : Dev nD) : W4 m ρ dat1 c (Proc.devRef .tc main_arg1) = m ((c : Thread nD τ).loc main_arg1) :=
  (W4_of_tail m ρ dat1 c main_arg1 (by decide)).trans <| (W3_of_ne m ρ dat1 c main_arg1 (by decide)).trans <|
    (W2_of_ne m ρ c main_arg1 (by decide)).trans <| (W1_of m ρ c main_arg1 (by decide)).trans rfl
theorem W4_main_arg2 (c : Dev nD) : W4 m ρ dat1 c (Proc.devRef .tc main_arg2) = m ((c : Thread nD τ).loc main_arg2) :=
  (W4_of_tail m ρ dat1 c main_arg2 (by decide)).trans <| (W3_of_ne m ρ dat1 c main_arg2 (by decide)).trans <|
    ((W2_arr m ρ c 1).trans (((Region0.dat (V1 m ρ) c).arrAt_in 1 rfl _).trans (Region0.A_eq (V1 m ρ) c 1))).trans <|
    (W1_of m ρ c main_arg2 (by decide)).trans rfl
theorem W4_main_arg3 (c : Dev nD) : W4 m ρ dat1 c (Proc.devRef .tc main_arg3) = m ((c : Thread nD τ).loc main_arg3) :=
  (W4_of_tail m ρ dat1 c main_arg3 (by decide)).trans <| (W3_of_ne m ρ dat1 c main_arg3 (by decide)).trans <|
    ((W2_arr m ρ c 2).trans (((Region0.dat (V1 m ρ) c).arrAt_in 2 rfl _).trans (Region0.A_eq (V1 m ρ) c 2))).trans <|
    (W1_of m ρ c main_arg3 (by decide)).trans rfl
theorem W4_main_arg4 (c : Dev nD) : W4 m ρ dat1 c (Proc.devRef .tc main_arg4) = m ((c : Thread nD τ).loc main_arg4) :=
  (W4_of_tail m ρ dat1 c main_arg4 (by decide)).trans <| (W3_of_ne m ρ dat1 c main_arg4 (by decide)).trans <|
    ((W2_arr m ρ c 3).trans (((Region0.dat (V1 m ρ) c).arrAt_in 3 rfl _).trans (Region0.A_eq (V1 m ρ) c 3))).trans <|
    (W1_of m ρ c main_arg4 (by decide)).trans rfl
theorem W4_main_arg5 (c : Dev nD) : W4 m ρ dat1 c (Proc.devRef .tc main_arg5) = m ((c : Thread nD τ).loc main_arg5) :=
  (W4_of_tail m ρ dat1 c main_arg5 (by decide)).trans <| (W3_of_ne m ρ dat1 c main_arg5 (by decide)).trans <|
    ((W2_arr m ρ c 4).trans (((Region0.dat (V1 m ρ) c).arrAt_in 4 rfl _).trans (Region0.A_eq (V1 m ρ) c 4))).trans <|
    (W1_of m ρ c main_arg5 (by decide)).trans rfl

/-- The result buffer at the end: the host's sum of the loss rows' array from zero, divided by the row count, negated. -/
theorem W4_main_v5 (c : Dev nD) :
    (W4 m ρ dat1 c (Proc.devRef .tc main_v5) : S_.Idx → Elt F .f32)
      = Host.negf (Host.divf (Host.reduceAdd ((dat1 c).arrAt 2 cfg1.N) (constant (F := F) S_ .f32 0x00000000#32) reducesTo_S8192x1_S_d0_1 h_S_)
          (constant (F := F) S_ .f32 0x46000000#32)) := by
  rw [← W3_out m ρ dat1 c]
  show StableHlo.after hostOps2 (W3 m ρ dat1 c) (Proc.devRef .tc main_v5) = _
  after_results

/-- THE FRAME: every weakly fair execution of @main terminates, nothing faulting, each argument array as launched. -/
theorem frame (h1 : Region1Facts m ρ dat1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ dat1 c),
     (h c _ (mem_uc main_arg1 (by decide))).trans (W4_main_arg1 m ρ dat1 c),
     (h c _ (mem_uc main_arg2 (by decide))).trans (W4_main_arg2 m ρ dat1 c),
     (h c _ (mem_uc main_arg3 (by decide))).trans (W4_main_arg3 m ρ dat1 c),
     (h c _ (mem_uc main_arg4 (by decide))).trans (W4_main_arg4 m ρ dat1 c),
     (h c _ (mem_uc main_arg5 (by decide))).trans (W4_main_arg5 m ρ dat1 c)⟩)
    (run_all m ρ dat1 h1)

/-- THE VALUE RUN: the same, with the result buffer at the host's tail of region 1's array. -/
theorem run_value (h1 : Region1Facts m ρ dat1) :
    θ_run defs (onTc (τ := τ) (main (F := F))) ⟨m, fun _ => 0, ρ⟩ (fun r => ∀ c : Dev nD,
      r.2.mem ((c.tc : Thread nD τ).loc main_v5) = W4 m ρ dat1 c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v5 (by decide)),
     (h c _ (mem_uc main_arg0 (by decide))).trans (W4_main_arg0 m ρ dat1 c),
     (h c _ (mem_uc main_arg1 (by decide))).trans (W4_main_arg1 m ρ dat1 c),
     (h c _ (mem_uc main_arg2 (by decide))).trans (W4_main_arg2 m ρ dat1 c),
     (h c _ (mem_uc main_arg3 (by decide))).trans (W4_main_arg3 m ρ dat1 c),
     (h c _ (mem_uc main_arg4 (by decide))).trans (W4_main_arg4 m ρ dat1 c),
     (h c _ (mem_uc main_arg5 (by decide))).trans (W4_main_arg5 m ρ dat1 c)⟩)
    (run_all m ρ dat1 h1)

end Cert.Kernel.Run

end
-- ==== Proof.KRegion1Base.lean ====
/-
  Region 1 of the kernel (the contrastive loss over an 8 x 8 grid of 1024 x 1024 tiles of the similarity
  matrix, one row tile after another, an online log-sum-exp along each row tile): what the case runs of its body share.
  The body's three conditions on the grid point in closed form, where the output window is idle, the staging and
  scratch memrefs the body is called on, the region invariant spelt over the three scratch buffers, each input
  window's block, and the two facts about whole-buffer accesses the runs rewrite with.
-/
import proofs.«132639_j29025388987032_1_alg».proof.Proof.Gen.Kernel.Launch
import proofs.«132639_j29025388987032_1_alg».proof.Proof.Gen.Kernel.Skeleton
import proofs.«132639_j29025388987032_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions, in closed form over the 64 points -/

/-- First condition: the column tile is 0 (the row tile's first point: the running maximum, sum and positive logit are reset). -/
abbrev cond0 (i : grid1.Coords) : Prop :=
  (Scalar.cmpi .ne (Scalar.extui (Scalar.cmpi .eq (BitVec.ofNat 32 (i 1).val) 0#32)) 0#32) = 1#1
/-- Second condition: the column tile is the row tile's partner, four tiles away cyclically (the tile that holds the positive logits). -/
abbrev cond1 (i : grid1.Coords) : Prop :=
  (Scalar.cmpi .ne (Scalar.extui (Scalar.cmpi .eq (BitVec.ofNat 32 (i 1).val)
    (Scalar.select (Scalar.cmpi .slt (BitVec.ofNat 32 (i 0).val) 4#32) (Scalar.addi (BitVec.ofNat 32 (i 0).val) 4#32) (Scalar.subi (BitVec.ofNat 32 (i 0).val) 4#32)))) 0#32) = 1#1
/-- Third condition: the column tile is 7 (the row tile's last point: the loss of its rows is written). -/
abbrev cond2 (i : grid1.Coords) : Prop := k1_cond3 i = 1#1

theorem hcond0 : ∀ t : Fin cfg1.N, cond0 (grid1.coords t) ↔ t.val % 8 = 0 :=
  (by decide +kernel : ∀ t : Fin grid1.N, cond0 (grid1.coords t) ↔ t.val % 8 = 0)
theorem hcond1 : ∀ t : Fin cfg1.N, cond1 (grid1.coords t) ↔ t.val % 8 = (t.val / 8 + 4) % 8 :=
  (by decide +kernel : ∀ t : Fin grid1.N, cond1 (grid1.coords t) ↔ t.val % 8 = (t.val / 8 + 4) % 8)
theorem hcond2 : ∀ t : Fin cfg1.N, cond2 (grid1.coords t) ↔ t.val % 8 = 7 :=
  (by decide +kernel : ∀ t : Fin grid1.N, cond2 (grid1.coords t) ↔ t.val % 8 = 7)

/-! ## Where the windows are idle -/

theorem liveAt0 : ∀ t : Fin cfg1.N, cfg1.idle 0 (grid1.coords t) = false := by decide +kernel
theorem liveAt1 : ∀ t : Fin cfg1.N, cfg1.idle 1 (grid1.coords t) = false := by decide +kernel
/-- Off the last column tile the output window is idle and not written back. -/
theorem idleAt2 : ∀ t : Fin cfg1.N, ¬cond2 (grid1.coords t) → cfg1.idle 2 (grid1.coords t) = true := by decide +kernel
theorem noFlush2 : ∀ t : Fin cfg1.N, ¬cond2 (grid1.coords t) → (cfg1.win 2).flush t = false := by decide +kernel
/-- At the last column tile it is live. -/
theorem liveAt2 : ∀ t : Fin cfg1.N, cond2 (grid1.coords t) → cfg1.idle 2 (grid1.coords t) = false := by decide +kernel

/-! ## The memrefs the body is called on -/

abbrev ms0 (t : Fin cfg1.N) : Memref sig .tc .vmem S1024x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)
/-- The three scratch operands: the running maximum, the running sum, the positive logit. -/
abbrev scM : Memref sig .tc .vmem S1024x1 .f32 := Memref.whole cc1_scratch0
abbrev scL : Memref sig .tc .vmem S1024x1 .f32 := Memref.whole cc1_scratch1
abbrev scP : Memref sig .tc .vmem S1024x1 .f32 := Memref.whole cc1_scratch2

/-- The core's scoped buffers that this pipeline does not stage through, other than the three scratch buffers: the other
    pallas_call's staging buffers, each at some contents, in front of `P`. The body never touches them. -/
def withRest (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ P)

/-- The class's invariant with the three scratch buffers as memrefs owned at some contents. -/
theorem PhiA_eq (c : Dev nD) :
    (Pipeline.ΦA spec1 c : sProp 𝕄)
      = iprop(withRest c iprop((∃ d, owns (c : Thread nD τ) scM fullShare d) ∗ (∃ d, owns (c : Thread nD τ) scL fullShare d) ∗ (∃ d, owns (c : Thread nD τ) scP fullShare d)) ∗ (∃ r, prngReg c r)) := by
  unfold Pipeline.ΦA withRest; rw [scopedRest1_eq]; simp only [scM, scL, scP, owns_whole]; try rfl

/-! ## The windows' blocks -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row window's current staging buffer holds its block at every point, fetched there or not: where it is not
    fetched the row tile has not moved. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column window's current staging buffer holds its block at every point. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## Whole-buffer accesses -/

/-- The body's one rectangle on a 1024 x 128 buffer and on a 1024 x 1 buffer: all of it. -/
abbrev rBig : Rect S1024x128 := Rect.unit (s := S1024x128) ![0, 0] S1024x128.size inb_S1024x128_S1024x128_0_0
abbrev rCol : Rect S1024x1 := Rect.unit (s := S1024x1) ![0, 0] S1024x1.size inb_S1024x1_S1024x1_0_0

theorem zBig : (![0, 0] : Fin S1024x128.rank → Nat) = fun _ => 0 := by
  funext a; match a with | ⟨0, _⟩ => rfl | ⟨1, _⟩ => rfl
theorem zCol : (![0, 0] : Fin S1024x1.rank → Nat) = fun _ => 0 := by
  funext a; match a with | ⟨0, _⟩ => rfl | ⟨1, _⟩ => rfl

/-- A load of a whole 1024 x 128 buffer reads its contents. -/
theorem ld_big (X : Vec F S1024x128 .f32) : View.ld X rBig = X := View.ld_unit_zero zBig _ X
/-- A load of a whole 1024 x 1 buffer reads its contents. -/
theorem ld_col (X : Vec F S1024x1 .f32) : View.ld X rCol = X := View.ld_unit_zero zCol _ X
/-- The same for the run's own spelling of a load from a buffer nothing was stored into. -/
theorem readAt_big {sg : RefSig} {κ : Kind} {sp : Space} (v : View sg κ sp S1024x128 .f32) (f : v.ty.Contents (Elt F)) :
    v.readAt (Elt F) rBig.toLoadRect f = v.read (Elt F) f := (View.readAt_eq_ld v f rBig).trans (ld_big _)
theorem readAt_col {sg : RefSig} {κ : Kind} {sp : Space} (v : View sg κ sp S1024x1 .f32) (f : v.ty.Contents (Elt F)) :
    v.readAt (Elt F) rCol.toLoadRect f = v.read (Elt F) f := (View.readAt_eq_ld v f rCol).trans (ld_col _)
/-- A whole-buffer store, last, leaves its payload whatever was stored before. -/
theorem canon_col (w : Vec F S1024x1 .f32) (L : List (View.Piece (Elt F) S1024x1 .f32)) :
    View.canon ((⟨rCol, w⟩ : View.Piece (Elt F) S1024x1 .f32) :: L) = w := View.canon_cons_unit_zero zCol _ w L
/-- A whole-buffer load after a whole-buffer store reads the store's payload. -/
theorem readCov_col {sg : RefSig} {κ : Kind} {sp : Space} (v : View sg κ sp S1024x1 .f32) (w : Vec F S1024x1 .f32) (L : List (View.Piece (Elt F) S1024x1 .f32)) :
    v.readCov ((⟨rCol, w⟩ : View.Piece (Elt F) S1024x1 .f32) :: L) rCol.toLoadRect = w := by
  rw [View.readCov_eq_canon_ld _ _ _ (fun y => ⟨_, List.mem_cons_self, View.mem_set_unit_zero zCol inb_S1024x1_S1024x1_0_0 y⟩), canon_col, ld_col]
/-- One whole-buffer store covers the buffer. -/
theorem cover_col (w : Vec F S1024x1 .f32) (L : List (View.Piece (Elt F) S1024x1 .f32)) (y : S1024x1.Idx) :
    ∃ pc ∈ ((⟨rCol, w⟩ : View.Piece (Elt F) S1024x1 .f32) :: L), y ∈ pc.1.set :=
  ⟨_, List.mem_cons_self, View.mem_set_unit_zero zCol inb_S1024x1_S1024x1_0_0 y⟩

end Cert.Kernel.Region1

end
-- ==== Proof.KRegion1Acc.lean ====
/-
  Region 1 of the kernel, the pure part: the values the three scratch buffers carry from one grid point to the
  next — the running row maximum, the running sum of exponentials rescaled to that maximum, the positive logit — as a
  recursion over the 64 points (point t is row tile t / 8 against column tile t % 8) in terms of the body's payloads and
  the two input blocks at the point: reset at a row tile's first point, then one step per column tile.
-/
import proofs.«132639_j29025388987032_1_alg».proof.Proof.KRegion1Base

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The carried values -/

/-- What the three scratch buffers hold: the running maximum `m`, the running sum `l`, the positive logit `p`. -/
structure St (F : FTy → Type) where
  m : Vec F S1024x1 .f32
  l : Vec F S1024x1 .f32
  p : Vec F S1024x1 .f32

/-- The reset at a row tile's first point: maximum −∞, sum 0, positive logit 0. -/
def reset : St F := ⟨k1_pay3 (F := F), k1_pay4 (F := F), k1_pay5 (F := F)⟩

/-- One point's step from the values `s` the body reads (after the reset, at a row tile's first point): with `q` the row block
    and `k` the column block, the sum is rescaled to the new maximum and extended by the tile's exponentials, the maximum is
    joined with the tile's row maxima, and at the partner column tile the positive logit becomes the tile's diagonal. -/
def stepAt (c : Dev nD) (t : Fin cfg1.N) (s : St F) : St F :=
  ⟨k1_pay9 (iblk V c 0 t) (iblk V c 1 t) s.m,
   k1_pay8 (iblk V c 0 t) (iblk V c 1 t) s.m s.l,
   if t.val % 8 = (t.val / 8 + 4) % 8 then k1_pay1 (k1_pay6 (iblk V c 0 t) (iblk V c 1 t)) else s.p⟩

theorem stepAt_m (c : Dev nD) (t : Fin cfg1.N) (s : St F) : (stepAt V c t s).m = k1_pay9 (iblk V c 0 t) (iblk V c 1 t) s.m := rfl
theorem stepAt_l (c : Dev nD) (t : Fin cfg1.N) (s : St F) : (stepAt V c t s).l = k1_pay8 (iblk V c 0 t) (iblk V c 1 t) s.m s.l := rfl
theorem stepAt_p_partner (c : Dev nD) (t : Fin cfg1.N) (s : St F) (h : t.val % 8 = (t.val / 8 + 4) % 8) :
    (stepAt V c t s).p = k1_pay1 (k1_pay6 (iblk V c 0 t) (iblk V c 1 t)) := if_pos h
theorem stepAt_p_other (c : Dev nD) (t : Fin cfg1.N) (s : St F) (h : ¬t.val % 8 = (t.val / 8 + 4) % 8) :
    (stepAt V c t s).p = s.p := if_neg h

/-- THE ACCUMULATION: the scratch contents after the body at position `n`: the step at `n` from the reset at a row tile's
    first point, from what position `n - 1` left elsewhere. -/
def acc (c : Dev nD) : (n : ℕ) → n < cfg1.N → St F
  | 0, hn => stepAt V c ⟨0, hn⟩ reset
  | n + 1, hn => stepAt V c ⟨n + 1, hn⟩ (if (n + 1) % 8 = 0 then reset else acc c n (Nat.lt_of_succ_lt hn))

/-- At a row tile's first point the step starts from the reset. -/
theorem acc_first (c : Dev nD) (t : Fin cfg1.N) (h : t.val % 8 = 0) : acc V c t.val t.isLt = stepAt V c t reset := by
  obtain ⟨n, hn⟩ := t
  cases n with
  | zero => rfl
  | succ n => exact congrArg (stepAt V c ⟨n + 1, hn⟩) (if_pos h)

/-- At its other points, from what the point before left. -/
theorem acc_next (c : Dev nD) (t : Fin cfg1.N) (h : ¬t.val % 8 = 0) :
    acc V c t.val t.isLt = stepAt V c t (acc V c (t.val - 1) (Nat.lt_of_le_of_lt (Nat.sub_le _ _) t.isLt)) := by
  obtain ⟨n, hn⟩ := t
  cases n with
  | zero => exact absurd (Nat.zero_mod _) h
  | succ n => exact congrArg (stepAt V c ⟨n + 1, hn⟩) (if_neg h)

/-- The four shapes of a point's step, the components spelt out. -/
theorem acc_A (c : Dev nD) (t : Fin cfg1.N) (h0 : t.val % 8 = 0) (h1 : ¬t.val % 8 = (t.val / 8 + 4) % 8) :
    acc V c t.val t.isLt = ⟨k1_pay9 (iblk V c 0 t) (iblk V c 1 t) k1_pay3, k1_pay8 (iblk V c 0 t) (iblk V c 1 t) k1_pay3 k1_pay4, k1_pay5⟩ := by
  rw [acc_first V c t h0]; unfold stepAt reset; rw [if_neg h1]
theorem acc_B (c : Dev nD) (t : Fin cfg1.N) (h0 : t.val % 8 = 0) (h1 : t.val % 8 = (t.val / 8 + 4) % 8) :
    acc V c t.val t.isLt = ⟨k1_pay9 (iblk V c 0 t) (iblk V c 1 t) k1_pay3, k1_pay8 (iblk V c 0 t) (iblk V c 1 t) k1_pay3 k1_pay4, k1_pay1 (k1_pay6 (iblk V c 0 t) (iblk V c 1 t))⟩ := by
  rw [acc_first V c t h0]; unfold stepAt reset; rw [if_pos h1]
theorem acc_C (c : Dev nD) (t : Fin cfg1.N) (h0 : ¬t.val % 8 = 0) (h1 : ¬t.val % 8 = (t.val / 8 + 4) % 8) :
    acc V c t.val t.isLt = ⟨k1_pay9 (iblk V c 0 t) (iblk V c 1 t) (acc V c (t.val - 1) (Nat.lt_of_le_of_lt (Nat.sub_le _ _) t.isLt)).m,
      k1_pay8 (iblk V c 0 t) (iblk V c 1 t) (acc V c (t.val - 1) (Nat.lt_of_le_of_lt (Nat.sub_le _ _) t.isLt)).m (acc V c (t.val - 1) (Nat.lt_of_le_of_lt (Nat.sub_le _ _) t.isLt)).l,
      (acc V c (t.val - 1) (Nat.lt_of_le_of_lt (Nat.sub_le _ _) t.isLt)).p⟩ := by
  rw [acc_next V c t h0]; unfold stepAt; rw [if_neg h1]
theorem acc_D (c : Dev nD) (t : Fin cfg1.N) (h0 : ¬t.val % 8 = 0) (h1 : t.val % 8 = (t.val / 8 + 4) % 8) :
    acc V c t.val t.isLt = ⟨k1_pay9 (iblk V c 0 t) (iblk V c 1 t) (acc V c (t.val - 1) (Nat.lt_of_le_of_lt (Nat.sub_le _ _) t.isLt)).m,
      k1_pay8 (iblk V c 0 t) (iblk V c 1 t) (acc V c (t.val - 1) (Nat.lt_of_le_of_lt (Nat.sub_le _ _) t.isLt)).m (acc V c (t.val - 1) (Nat.lt_of_le_of_lt (Nat.sub_le _ _) t.isLt)).l,
      k1_pay1 (k1_pay6 (iblk V c 0 t) (iblk V c 1 t))⟩ := by
  rw [acc_next V c t h0]; unfold stepAt; rw [if_pos h1]

end Cert.Kernel.Region1

end
-- ==== Proof.KRegion1RunA.lean ====
/-
  Region 1's body in the case where the column tile is 0 and neither the row tile's partner nor the last: on whole memrefs, the two input
  blocks at `q` (rows) and `k` (columns), the output buffer at `xo`, the three scratch buffers at `xm`, `xl`, `xp`, the body
  runs to the continuation holding the inputs as they were and each other buffer at what the case's stores leave, stated
  over the payloads: the running maximum, sum and positive logit are first reset; the sum and the maximum are advanced by the tile of logits of `q` against `k`; the output buffer is untouched.
  Every access is of a whole buffer, so a buffer's contents after a store are the store's payload and a load reads the
  contents (`readAt_big`, `readAt_col`, `readCov_col`, `canon_col`).
-/
import proofs.«132639_j29025388987032_1_alg».proof.Proof.KRegion1Base

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runA (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc0 : cond0 i) (hc1 : ¬cond1 i) (hc2 : ¬cond2 i)
    (q k : Vec F S1024x128 .f32) (xo xm xl xp : Vec F S1024x1 .f32) (E : Set ℕ) (K : PUnit → sProp 𝕄) :
    iprop(owns (c : Thread nD τ) arg2 fullShare (q) ∗ owns (c : Thread nD τ) arg3 fullShare (k) ∗ owns (c : Thread nD τ) arg4 fullShare (xo)
        ∗ owns (c : Thread nD τ) arg5 fullShare (xm) ∗ owns (c : Thread nD τ) arg6 fullShare (xl) ∗ owns (c : Thread nD τ) arg7 fullShare (xp)
        ∗ (iprop(owns (c : Thread nD τ) arg2 fullShare (q) ∗ owns (c : Thread nD τ) arg3 fullShare (k)
            ∗ owns (c : Thread nD τ) arg4 fullShare (xo)
            ∗ owns (c : Thread nD τ) arg5 fullShare (k1_pay9 q k k1_pay3)
            ∗ owns (c : Thread nD τ) arg6 fullShare (k1_pay8 q k k1_pay3 k1_pay4)
            ∗ owns (c : Thread nD τ) arg7 fullShare (k1_pay5)) -∗ K ⟨⟩))
      ⊢ wp frame (wpE (defs₀ (F := F)) Variants.none c none) E (cc1__nce_kernel i arg2 harg2 arg3 harg3 arg4 harg4 arg5 harg5 arg6 harg6 arg7 harg7) K := by
  simp only [cc1__nce_kernel_eq_skeleton]; unfold cc1__nce_kernel_skel
  simp only [k1_part1_eq_skeleton]; unfold k1_part1_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  subst hf0 hf1 hf4 hf5 hf6 hf7
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  isplitl [H5]
  · iexists _; isplitr
    swap; · iexact H5
    ipureintro
    exact (View.read_writes_eq_canon _ _ _ (cover_col _ _)).trans ((canon_col _ _).trans (congr (congr (congrArg k1_pay9 (readAt_big _ _)) (readAt_big _ _)) (readCov_col _ _ _)))
  isplitl [H6]
  · iexists _; isplitr
    swap; · iexact H6
    ipureintro
    exact (View.read_writes_eq_canon _ _ _ (cover_col _ _)).trans ((canon_col _ _).trans (congr (congr (congr (congrArg k1_pay8 (readAt_big _ _)) (readAt_big _ _)) (readCov_col _ _ _)) (readCov_col _ _ _)))
  iexists _; isplitr
  swap; · iexact H7
  ipureintro
  exact (View.read_writes_eq_canon _ _ _ (cover_col _ _)).trans ((canon_col _ _).trans rfl)

end Cert.Kernel.Region1

end
-- ==== Proof.KRegion1RunB.lean ====
/-
  Region 1's body in the case where the column tile is 0 and the row tile's partner (row tile 4), not the last: on whole memrefs, the two input
  blocks at `q` (rows) and `k` (columns), the output buffer at `xo`, the three scratch buffers at `xm`, `xl`, `xp`, the body
  runs to the continuation holding the inputs as they were and each other buffer at what the case's stores leave, stated
  over the payloads: the running maximum, sum and positive logit are first reset; the sum and the maximum are advanced by the tile of logits of `q` against `k`; the positive logit is the tile's diagonal; the output buffer is untouched.
  Every access is of a whole buffer, so a buffer's contents after a store are the store's payload and a load reads the
  contents (`readAt_big`, `readAt_col`, `readCov_col`, `canon_col`).
-/
import proofs.«132639_j29025388987032_1_alg».proof.Proof.KRegion1Base

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runB (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc0 : cond0 i) (hc1 : cond1 i) (hc2 : ¬cond2 i)
    (q k : Vec F S1024x128 .f32) (xo xm xl xp : Vec F S1024x1 .f32) (E : Set ℕ) (K : PUnit → sProp 𝕄) :
    iprop(owns (c : Thread nD τ) arg2 fullShare (q) ∗ owns (c : Thread nD τ) arg3 fullShare (k) ∗ owns (c : Thread nD τ) arg4 fullShare (xo)
        ∗ owns (c : Thread nD τ) arg5 fullShare (xm) ∗ owns (c : Thread nD τ) arg6 fullShare (xl) ∗ owns (c : Thread nD τ) arg7 fullShare (xp)
        ∗ (iprop(owns (c : Thread nD τ) arg2 fullShare (q) ∗ owns (c : Thread nD τ) arg3 fullShare (k)
            ∗ owns (c : Thread nD τ) arg4 fullShare (xo)
            ∗ owns (c : Thread nD τ) arg5 fullShare (k1_pay9 q k k1_pay3)
            ∗ owns (c : Thread nD τ) arg6 fullShare (k1_pay8 q k k1_pay3 k1_pay4)
            ∗ owns (c : Thread nD τ) arg7 fullShare (k1_pay1 (k1_pay6 q k))) -∗ K ⟨⟩))
      ⊢ wp frame (wpE (defs₀ (F := F)) Variants.none c none) E (cc1__nce_kernel i arg2 harg2 arg3 harg3 arg4 harg4 arg5 harg5 arg6 harg6 arg7 harg7) K := by
  simp only [cc1__nce_kernel_eq_skeleton]; unfold cc1__nce_kernel_skel
  simp only [k1_part1_eq_skeleton]; unfold k1_part1_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  subst hf0 hf1 hf4 hf5 hf6 hf7
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  isplitl [H5]
  · iexists _; isplitr
    swap; · iexact H5
    ipureintro
    exact (View.read_writes_eq_canon _ _ _ (cover_col _ _)).trans ((canon_col _ _).trans (congr (congr (congrArg k1_pay9 (readAt_big _ _)) (readAt_big _ _)) (readCov_col _ _ _)))
  isplitl [H6]
  · iexists _; isplitr
    swap; · iexact H6
    ipureintro
    exact (View.read_writes_eq_canon _ _ _ (cover_col _ _)).trans ((canon_col _ _).trans (congr (congr (congr (congrArg k1_pay8 (readAt_big _ _)) (readAt_big _ _)) (readCov_col _ _ _)) (readCov_col _ _ _)))
  iexists _; isplitr
  swap; · iexact H7
  ipureintro
  exact (View.read_writes_eq_canon _ _ _ (cover_col _ _)).trans ((canon_col _ _).trans (congrArg k1_pay1 (congr (congrArg k1_pay6 (readAt_big _ _)) (readAt_big _ _))))

end Cert.Kernel.Region1

end
-- ==== Proof.KRegion1RunC.lean ====
/-
  Region 1's body in the case where the column tile is neither 0, nor the row tile's partner, nor the last: on whole memrefs, the two input
  blocks at `q` (rows) and `k` (columns), the output buffer at `xo`, the three scratch buffers at `xm`, `xl`, `xp`, the body
  runs to the continuation holding the inputs as they were and each other buffer at what the case's stores leave, stated
  over the payloads: the sum and the maximum are advanced by the tile of logits of `q` against `k`; the output buffer is untouched.
  Every access is of a whole buffer, so a buffer's contents after a store are the store's payload and a load reads the
  contents (`readAt_big`, `readAt_col`, `readCov_col`, `canon_col`).
-/
import proofs.«132639_j29025388987032_1_alg».proof.Proof.KRegion1Base

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runC (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc0 : ¬cond0 i) (hc1 : ¬cond1 i) (hc2 : ¬cond2 i)
    (q k : Vec F S1024x128 .f32) (xo xm xl xp : Vec F S1024x1 .f32) (E : Set ℕ) (K : PUnit → sProp 𝕄) :
    iprop(owns (c : Thread nD τ) arg2 fullShare (q) ∗ owns (c : Thread nD τ) arg3 fullShare (k) ∗ owns (c : Thread nD τ) arg4 fullShare (xo)
        ∗ owns (c : Thread nD τ) arg5 fullShare (xm) ∗ owns (c : Thread nD τ) arg6 fullShare (xl) ∗ owns (c : Thread nD τ) arg7 fullShare (xp)
        ∗ (iprop(owns (c : Thread nD τ) arg2 fullShare (q) ∗ owns (c : Thread nD τ) arg3 fullShare (k)
            ∗ owns (c : Thread nD τ) arg4 fullShare (xo)
            ∗ owns (c : Thread nD τ) arg5 fullShare (k1_pay9 q k xm)
            ∗ owns (c : Thread nD τ) arg6 fullShare (k1_pay8 q k xm xl)
            ∗ owns (c : Thread nD τ) arg7 fullShare (xp)) -∗ K ⟨⟩))
      ⊢ wp frame (wpE (defs₀ (F := F)) Variants.none c none) E (cc1__nce_kernel i arg2 harg2 arg3 harg3 arg4 harg4 arg5 harg5 arg6 harg6 arg7 harg7) K := by
  simp only [cc1__nce_kernel_eq_skeleton]; unfold cc1__nce_kernel_skel
  simp only [k1_part1_eq_skeleton]; unfold k1_part1_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  subst hf0 hf1 hf4 hf5 hf6 hf7
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  isplitl [H5]
  · iexists _; isplitr
    swap; · iexact H5
    ipureintro
    exact (View.read_writes_eq_canon _ _ _ (cover_col _ _)).trans ((canon_col _ _).trans (congr (congr (congrArg k1_pay9 (readAt_big _ _)) (readAt_big _ _)) (readAt_col _ _)))
  isplitl [H6]
  · iexists _; isplitr
    swap; · iexact H6
    ipureintro
    exact (View.read_writes_eq_canon _ _ _ (cover_col _ _)).trans ((canon_col _ _).trans (congr (congr (congr (congrArg k1_pay8 (readAt_big _ _)) (readAt_big _ _)) (readAt_col _ _)) (readAt_col _ _)))
  iexists f7; isplitr; · ipureintro; rfl
  iexact H7

end Cert.Kernel.Region1

end
-- ==== Proof.KRegion1RunD.lean ====
/-
  Region 1's body in the case where the column tile is the row tile's partner, neither 0 nor the last: on whole memrefs, the two input
  blocks at `q` (rows) and `k` (columns), the output buffer at `xo`, the three scratch buffers at `xm`, `xl`, `xp`, the body
  runs to the continuation holding the inputs as they were and each other buffer at what the case's stores leave, stated
  over the payloads: the sum and the maximum are advanced by the tile of logits of `q` against `k`; the positive logit is the tile's diagonal; the output buffer is untouched.
  Every access is of a whole buffer, so a buffer's contents after a store are the store's payload and a load reads the
  contents (`readAt_big`, `readAt_col`, `readCov_col`, `canon_col`).
-/
import proofs.«132639_j29025388987032_1_alg».proof.Proof.KRegion1Base

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runD (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc0 : ¬cond0 i) (hc1 : cond1 i) (hc2 : ¬cond2 i)
    (q k : Vec F S1024x128 .f32) (xo xm xl xp : Vec F S1024x1 .f32) (E : Set ℕ) (K : PUnit → sProp 𝕄) :
    iprop(owns (c : Thread nD τ) arg2 fullShare (q) ∗ owns (c : Thread nD τ) arg3 fullShare (k) ∗ owns (c : Thread nD τ) arg4 fullShare (xo)
        ∗ owns (c : Thread nD τ) arg5 fullShare (xm) ∗ owns (c : Thread nD τ) arg6 fullShare (xl) ∗ owns (c : Thread nD τ) arg7 fullShare (xp)
        ∗ (iprop(owns (c : Thread nD τ) arg2 fullShare (q) ∗ owns (c : Thread nD τ) arg3 fullShare (k)
            ∗ owns (c : Thread nD τ) arg4 fullShare (xo)
            ∗ owns (c : Thread nD τ) arg5 fullShare (k1_pay9 q k xm)
            ∗ owns (c : Thread nD τ) arg6 fullShare (k1_pay8 q k xm xl)
            ∗ owns (c : Thread nD τ) arg7 fullShare (k1_pay1 (k1_pay6 q k))) -∗ K ⟨⟩))
      ⊢ wp frame (wpE (defs₀ (F := F)) Variants.none c none) E (cc1__nce_kernel i arg2 harg2 arg3 harg3 arg4 harg4 arg5 harg5 arg6 harg6 arg7 harg7) K := by
  simp only [cc1__nce_kernel_eq_skeleton]; unfold cc1__nce_kernel_skel
  simp only [k1_part1_eq_skeleton]; unfold k1_part1_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  subst hf0 hf1 hf4 hf5 hf6 hf7
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  isplitl [H5]
  · iexists _; isplitr
    swap; · iexact H5
    ipureintro
    exact (View.read_writes_eq_canon _ _ _ (cover_col _ _)).trans ((canon_col _ _).trans (congr (congr (congrArg k1_pay9 (readAt_big _ _)) (readAt_big _ _)) (readAt_col _ _)))
  isplitl [H6]
  · iexists _; isplitr
    swap; · iexact H6
    ipureintro
    exact (View.read_writes_eq_canon _ _ _ (cover_col _ _)).trans ((canon_col _ _).trans (congr (congr (congr (congrArg k1_pay8 (readAt_big _ _)) (readAt_big _ _)) (readAt_col _ _)) (readAt_col _ _)))
  iexists _; isplitr
  swap; · iexact H7
  ipureintro
  exact (View.read_writes_eq_canon _ _ _ (cover_col _ _)).trans ((canon_col _ _).trans (congrArg k1_pay1 (congr (congrArg k1_pay6 (readAt_big _ _)) (readAt_big _ _))))

end Cert.Kernel.Region1

end
-- ==== Proof.KRegion1RunE.lean ====
/-
  Region 1's body in the case where the column tile is 7, the last, and not the row tile's partner: on whole memrefs, the two input
  blocks at `q` (rows) and `k` (columns), the output buffer at `xo`, the three scratch buffers at `xm`, `xl`, `xp`, the body
  runs to the continuation holding the inputs as they were and each other buffer at what the case's stores leave, stated
  over the payloads: the sum and the maximum are advanced by the tile of logits of `q` against `k`; the output is the positive logit minus the log-sum-exp.
  Every access is of a whole buffer, so a buffer's contents after a store are the store's payload and a load reads the
  contents (`readAt_big`, `readAt_col`, `readCov_col`, `canon_col`).
-/
import proofs.«132639_j29025388987032_1_alg».proof.Proof.KRegion1Base

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runE (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc0 : ¬cond0 i) (hc1 : ¬cond1 i) (hc2 : cond2 i)
    (q k : Vec F S1024x128 .f32) (xo xm xl xp : Vec F S1024x1 .f32) (E : Set ℕ) (K : PUnit → sProp 𝕄) :
    iprop(owns (c : Thread nD τ) arg2 fullShare (q) ∗ owns (c : Thread nD τ) arg3 fullShare (k) ∗ owns (c : Thread nD τ) arg4 fullShare (xo)
        ∗ owns (c : Thread nD τ) arg5 fullShare (xm) ∗ owns (c : Thread nD τ) arg6 fullShare (xl) ∗ owns (c : Thread nD τ) arg7 fullShare (xp)
        ∗ (iprop(owns (c : Thread nD τ) arg2 fullShare (q) ∗ owns (c : Thread nD τ) arg3 fullShare (k)
            ∗ owns (c : Thread nD τ) arg4 fullShare (k1_pay2 (xp) (k1_pay9 q k xm) (k1_pay8 q k xm xl))
            ∗ owns (c : Thread nD τ) arg5 fullShare (k1_pay9 q k xm)
            ∗ owns (c : Thread nD τ) arg6 fullShare (k1_pay8 q k xm xl)
            ∗ owns (c : Thread nD τ) arg7 fullShare (xp)) -∗ K ⟨⟩))
      ⊢ wp frame (wpE (defs₀ (F := F)) Variants.none c none) E (cc1__nce_kernel i arg2 harg2 arg3 harg3 arg4 harg4 arg5 harg5 arg6 harg6 arg7 harg7) K := by
  simp only [cc1__nce_kernel_eq_skeleton]; unfold cc1__nce_kernel_skel
  simp only [k1_part1_eq_skeleton]; unfold k1_part1_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  subst hf0 hf1 hf4 hf5 hf6 hf7
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    exact (View.read_writes_eq_canon _ _ _ (cover_col _ _)).trans ((canon_col _ _).trans (congr (congr (congrArg k1_pay2 (readAt_col _ _)) ((readCov_col _ _ _).trans (congr (congr (congrArg k1_pay9 (readAt_big _ _)) (readAt_big _ _)) (readAt_col _ _)))) ((readCov_col _ _ _).trans (congr (congr (congr (congrArg k1_pay8 (readAt_big _ _)) (readAt_big _ _)) (readAt_col _ _)) (readAt_col _ _)))))
  isplitl [H5]
  · iexists _; isplitr
    swap; · iexact H5
    ipureintro
    exact (View.read_writes_eq_canon _ _ _ (cover_col _ _)).trans ((canon_col _ _).trans (congr (congr (congrArg k1_pay9 (readAt_big _ _)) (readAt_big _ _)) (readAt_col _ _)))
  isplitl [H6]
  · iexists _; isplitr
    swap; · iexact H6
    ipureintro
    exact (View.read_writes_eq_canon _ _ _ (cover_col _ _)).trans ((canon_col _ _).trans (congr (congr (congr (congrArg k1_pay8 (readAt_big _ _)) (readAt_big _ _)) (readAt_col _ _)) (readAt_col _ _)))
  iexists f7; isplitr; · ipureintro; rfl
  iexact H7

end Cert.Kernel.Region1

end
-- ==== Proof.KRegion1RunG.lean ====
/-
  Region 1's body in the case where the column tile is 7, the last, and the row tile's partner (row tile 3): on whole memrefs, the two input
  blocks at `q` (rows) and `k` (columns), the output buffer at `xo`, the three scratch buffers at `xm`, `xl`, `xp`, the body
  runs to the continuation holding the inputs as they were and each other buffer at what the case's stores leave, stated
  over the payloads: the sum and the maximum are advanced by the tile of logits of `q` against `k`; the positive logit is the tile's diagonal; the output is the positive logit minus the log-sum-exp.
  Every access is of a whole buffer, so a buffer's contents after a store are the store's payload and a load reads the
  contents (`readAt_big`, `readAt_col`, `readCov_col`, `canon_col`).
-/
import proofs.«132639_j29025388987032_1_alg».proof.Proof.KRegion1Base

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runG (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc0 : ¬cond0 i) (hc1 : cond1 i) (hc2 : cond2 i)
    (q k : Vec F S1024x128 .f32) (xo xm xl xp : Vec F S1024x1 .f32) (E : Set ℕ) (K : PUnit → sProp 𝕄) :
    iprop(owns (c : Thread nD τ) arg2 fullShare (q) ∗ owns (c : Thread nD τ) arg3 fullShare (k) ∗ owns (c : Thread nD τ) arg4 fullShare (xo)
        ∗ owns (c : Thread nD τ) arg5 fullShare (xm) ∗ owns (c : Thread nD τ) arg6 fullShare (xl) ∗ owns (c : Thread nD τ) arg7 fullShare (xp)
        ∗ (iprop(owns (c : Thread nD τ) arg2 fullShare (q) ∗ owns (c : Thread nD τ) arg3 fullShare (k)
            ∗ owns (c : Thread nD τ) arg4 fullShare (k1_pay2 (k1_pay1 (k1_pay6 q k)) (k1_pay9 q k xm) (k1_pay8 q k xm xl))
            ∗ owns (c : Thread nD τ) arg5 fullShare (k1_pay9 q k xm)
            ∗ owns (c : Thread nD τ) arg6 fullShare (k1_pay8 q k xm xl)
            ∗ owns (c : Thread nD τ) arg7 fullShare (k1_pay1 (k1_pay6 q k))) -∗ K ⟨⟩))
      ⊢ wp frame (wpE (defs₀ (F := F)) Variants.none c none) E (cc1__nce_kernel i arg2 harg2 arg3 harg3 arg4 harg4 arg5 harg5 arg6 harg6 arg7 harg7) K := by
  simp only [cc1__nce_kernel_eq_skeleton]; unfold cc1__nce_kernel_skel
  simp only [k1_part1_eq_skeleton]; unfold k1_part1_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  subst hf0 hf1 hf4 hf5 hf6 hf7
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    exact (View.read_writes_eq_canon _ _ _ (cover_col _ _)).trans ((canon_col _ _).trans (congr (congr (congrArg k1_pay2 ((readCov_col _ _ _).trans (congrArg k1_pay1 (congr (congrArg k1_pay6 (readAt_big _ _)) (readAt_big _ _))))) ((readCov_col _ _ _).trans (congr (congr (congrArg k1_pay9 (readAt_big _ _)) (readAt_big _ _)) (readAt_col _ _)))) ((readCov_col _ _ _).trans (congr (congr (congr (congrArg k1_pay8 (readAt_big _ _)) (readAt_big _ _)) (readAt_col _ _)) (readAt_col _ _)))))
  isplitl [H5]
  · iexists _; isplitr
    swap; · iexact H5
    ipureintro
    exact (View.read_writes_eq_canon _ _ _ (cover_col _ _)).trans ((canon_col _ _).trans (congr (congr (congrArg k1_pay9 (readAt_big _ _)) (readAt_big _ _)) (readAt_col _ _)))
  isplitl [H6]
  · iexists _; isplitr
    swap; · iexact H6
    ipureintro
    exact (View.read_writes_eq_canon _ _ _ (cover_col _ _)).trans ((canon_col _ _).trans (congr (congr (congr (congrArg k1_pay8 (readAt_big _ _)) (readAt_big _ _)) (readAt_col _ _)) (readAt_col _ _)))
  iexists _; isplitr
  swap; · iexact H7
  ipureintro
  exact (View.read_writes_eq_canon _ _ _ (cover_col _ _)).trans ((canon_col _ _).trans (congrArg k1_pay1 (congr (congrArg k1_pay6 (readAt_big _ _)) (readAt_big _ _))))

end Cert.Kernel.Region1

end
-- ==== Proof.KRegion1.lean ====
/-
  Region 1 of the kernel at the contents `V` the region finds in its arrays: point by point over the 8 x 8
  grid (point t is row tile t / 8 against column tile t % 8), what the three scratch buffers hold after each point — the
  running row maximum, the running sum of exponentials rescaled to that maximum, and the positive logit (the diagonal of
  the tile of the partner column tile) —, the loss block the output window's buffer holds after the last column tile of
  a row tile, the pipeline's proof data and the body obligation at every point.
  The values are carried from one point of a row tile to the next in the scratch buffers and reset at its first point,
  so the invariant before a point names the scratch contents the point before left; before the first point of all it is
  the class's (every scratch at anything), and the first point's reset overwrites them before any read.
-/
import proofs.«132639_j29025388987032_1_alg».proof.Proof.KRegion1Acc
import proofs.«132639_j29025388987032_1_alg».proof.Proof.KRegion1RunA
import proofs.«132639_j29025388987032_1_alg».proof.Proof.KRegion1RunB
import proofs.«132639_j29025388987032_1_alg».proof.Proof.KRegion1RunC
import proofs.«132639_j29025388987032_1_alg».proof.Proof.KRegion1RunD
import proofs.«132639_j29025388987032_1_alg».proof.Proof.KRegion1RunE
import proofs.«132639_j29025388987032_1_alg».proof.Proof.KRegion1RunG

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The region invariant -/

/-- Before position `n`: before the first point the class's invariant (every scratch at anything); afterwards the three
    scratch buffers at what the point before left, the other scoped buffers at anything, the generator register at some state. -/
def PhiS (c : Dev nD) : (n : ℕ) → n ≤ cfg1.N → sProp 𝕄
  | 0, _ => Pipeline.ΦA spec1 c
  | n + 1, hn => iprop(withRest c iprop(owns (c : Thread nD τ) scM fullShare (acc V c n hn).m ∗ owns (c : Thread nD τ) scL fullShare (acc V c n hn).l ∗ owns (c : Thread nD τ) scP fullShare (acc V c n hn).p) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(withRest c iprop(owns (c : Thread nD τ) scM fullShare (acc V c n hn).m ∗ owns (c : Thread nD τ) scL fullShare (acc V c n hn).l ∗ owns (c : Thread nD τ) scP fullShare (acc V c n hn).p) ∗ (∃ r, prngReg c r)) := rfl

theorem PhiS_pos (c : Dev nD) (n : ℕ) (h : n ≤ cfg1.N) (hz : n ≠ 0) :
    PhiS V c n h = iprop(withRest c iprop(owns (c : Thread nD τ) scM fullShare (acc V c (n - 1) (by omega)).m ∗ owns (c : Thread nD τ) scL fullShare (acc V c (n - 1) (by omega)).l ∗ owns (c : Thread nD τ) scP fullShare (acc V c (n - 1) (by omega)).p) ∗ (∃ r, prngReg c r)) := by
  cases n with
  | zero => exact absurd rfl hz
  | succ n => rfl

/-! ## The proof data -/

/-- The proof data of the pipeline on core `c`, the share of each window's array a parameter: the arrays as the region
    finds them; after the body at point `t` each input's buffer at its block and the output's at the loss of the values the
    scratch buffers then hold (the positive logit minus the maximum plus the logarithm of the sum) — what the window
    writes back at a row tile's last point, and a value nothing reads at the others, where the window is idle. -/
def dat (qs : Fin cfg1.W → PosShare TreeShare) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay2 (acc V c t.val t.isLt).p (acc V c t.val t.isLt).m (acc V c t.val t.isLt).l
  Φ t := PhiS V c t.val (Nat.le_of_lt_succ t.isLt)
  q := qs
  owed _ := 0

theorem A_eq (qs : Fin cfg1.W → PosShare TreeShare) (c : Dev nD) (w : Fin cfg1.W) : (dat V qs c).A w = V c (Pipeline.arrRef spec1 w) := by
  dsimp only [dat]

theorem PhiS_castSucc (qs : Fin cfg1.W → PosShare TreeShare) (c : Dev nD) (t : Fin cfg1.N) :
    (dat V qs c).Φ t.castSucc = PhiS V c t.val (Nat.le_of_lt t.isLt) := by
  dsimp only [dat]; simp only [Fin.coe_castSucc]

/-- The two input windows' buffers are left at their blocks. -/
theorem after_in0 (qs : Fin cfg1.W → PosShare TreeShare) (c : Dev nD) (t : Fin cfg1.N) : (dat V qs c).after 0 t = iblk V c 0 t := by dsimp only [dat]
theorem after_in1 (qs : Fin cfg1.W → PosShare TreeShare) (c : Dev nD) (t : Fin cfg1.N) : (dat V qs c).after 1 t = iblk V c 1 t := by dsimp only [dat]
/-- The output window's buffer: the loss of the scratch values after the point. -/
theorem after2 (qs : Fin cfg1.W → PosShare TreeShare) (c : Dev nD) (t : Fin cfg1.N) :
    (dat V qs c).after 2 t = k1_pay2 (acc V c t.val t.isLt).p (acc V c t.val t.isLt).m (acc V c t.val t.isLt).l := by dsimp only [dat]
/-- The same where the window is written back (a row tile's last point). -/
theorem after_out (qs : Fin cfg1.W → PosShare TreeShare) (c : Dev nD) (t : Fin cfg1.N) (h : t.val % 8 = 7) :
    (dat V qs c).after 2 t = k1_pay2 (acc V c t.val t.isLt).p (acc V c t.val t.isLt).m (acc V c t.val t.isLt).l := after2 V qs c t

theorem before0 (qs : Fin cfg1.W → PosShare TreeShare) (c : Dev nD) (t : Fin cfg1.N) (d) : (dat V qs c).before 0 t d = iblk V c 0 t :=
  before0_of V (dat V qs c) (A_eq V qs c 0) (after_in0 V qs c) t d
theorem before1 (qs : Fin cfg1.W → PosShare TreeShare) (c : Dev nD) (t : Fin cfg1.N) (d) : (dat V qs c).before 1 t d = iblk V c 1 t :=
  before1_of V (dat V qs c) (A_eq V qs c 1) (after_in1 V qs c) t d

/-! ## The body obligation -/

/-- A case's run, framed: the other scoped buffers, the generator register and what the core owes pass through, and
    the output window's buffer is handed back as the point requires (`Q2`). -/
theorem frame_body (c : Dev nD) (t : Fin cfg1.N) (q k : Vec F S1024x128 .f32) (xo xm xl xp o' m' l' p' : Vec F S1024x1 .f32)
    (Ow Q2 : sProp 𝕄) (h2 : owns (c : Thread nD τ) (ms2 t) fullShare o' ⊢ Q2)
    (hrun : ∀ K : PUnit → sProp 𝕄,
      iprop(owns (c : Thread nD τ) (ms0 t) fullShare q ∗ owns (c : Thread nD τ) (ms1 t) fullShare k ∗ owns (c : Thread nD τ) (ms2 t) fullShare xo
          ∗ owns (c : Thread nD τ) scM fullShare xm ∗ owns (c : Thread nD τ) scL fullShare xl ∗ owns (c : Thread nD τ) scP fullShare xp
          ∗ (iprop(owns (c : Thread nD τ) (ms0 t) fullShare q ∗ owns (c : Thread nD τ) (ms1 t) fullShare k ∗ owns (c : Thread nD τ) (ms2 t) fullShare o'
              ∗ owns (c : Thread nD τ) scM fullShare m' ∗ owns (c : Thread nD τ) scL fullShare l' ∗ owns (c : Thread nD τ) scP fullShare p') -∗ K ⟨⟩))
        ⊢ wp frame (wpE (defs₀ (F := F)) Variants.none c none) Set.univ (bodyAt1 t) K) :
    iprop(iprop(withRest c iprop(owns (c : Thread nD τ) scM fullShare xm ∗ owns (c : Thread nD τ) scL fullShare xl ∗ owns (c : Thread nD τ) scP fullShare xp) ∗ (∃ r, prngReg c r)) ∗ Ow
        ∗ owns (c : Thread nD τ) (ms0 t) fullShare q ∗ owns (c : Thread nD τ) (ms1 t) fullShare k ∗ owns (c : Thread nD τ) (ms2 t) fullShare xo)
      ⊢ wp frame (wpE (defs₀ (F := F)) Variants.none c none) Set.univ (bodyAt1 t) (fun _ =>
          iprop(iprop(withRest c iprop(owns (c : Thread nD τ) scM fullShare m' ∗ owns (c : Thread nD τ) scL fullShare l' ∗ owns (c : Thread nD τ) scP fullShare p') ∗ (∃ r, prngReg c r)) ∗ Ow
            ∗ owns (c : Thread nD τ) (ms0 t) fullShare q ∗ owns (c : Thread nD τ) (ms1 t) fullShare k ∗ Q2)) := by
  unfold withRest
  iintro ⟨⟨⟨R1, R2, R3, R4, R5, R6, R7, R8, HM, HL, HP⟩, Hg⟩, Ho, H0, H1, H2⟩
  iapply (hrun _)
  isplitl [H0]; · iexact H0
  isplitl [H1]; · iexact H1
  isplitl [H2]; · iexact H2
  isplitl [HM]; · iexact HM
  isplitl [HL]; · iexact HL
  isplitl [HP]; · iexact HP
  iintro ⟨H0, H1, H2, HM, HL, HP⟩
  isplitl [R1 R2 R3 R4 R5 R6 R7 R8 HM HL HP Hg]
  · isplitr [Hg]
    swap; · iexact Hg
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [HM]; · iexact HM
    isplitl [HL]; · iexact HL
    iexact HP
  isplitl [Ho]; · iexact Ho
  isplitl [H0]; · iexact H0
  isplitl [H1]; · iexact H1
  iapply h2; iexact H2

/-- The class's invariant names some contents of the three scratch buffers. -/
theorem PhiA_named (c : Dev nD) :
    (Pipeline.ΦA spec1 c : sProp 𝕄) ⊢ iprop(∃ xm xl xp, iprop(withRest c iprop(owns (c : Thread nD τ) scM fullShare xm ∗ owns (c : Thread nD τ) scL fullShare xl ∗ owns (c : Thread nD τ) scP fullShare xp) ∗ (∃ r, prngReg c r))) := by
  rw [PhiA_eq]; unfold withRest
  iintro ⟨⟨R1, R2, R3, R4, R5, R6, R7, R8, ⟨%dm, HM⟩, ⟨%dl, HL⟩, ⟨%dp, HP⟩⟩, Hg⟩
  iexists dm, dl, dp
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [HM]; · iexact HM
  isplitl [HL]; · iexact HL
  iexact HP

/-- and forgets the ones an invariant names. -/
theorem PhiA_of_named (c : Dev nD) (xm xl xp : Vec F S1024x1 .f32) :
    iprop(withRest c iprop(owns (c : Thread nD τ) scM fullShare xm ∗ owns (c : Thread nD τ) scL fullShare xl ∗ owns (c : Thread nD τ) scP fullShare xp) ∗ (∃ r, prngReg c r)) ⊢ (Pipeline.ΦA spec1 c : sProp 𝕄) := by
  rw [PhiA_eq]; unfold withRest
  iintro ⟨⟨R1, R2, R3, R4, R5, R6, R7, R8, HM, HL, HP⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [HM]; · iexists _; iexact HM
  isplitl [HL]; · iexists _; iexact HL
  iexists _; iexact HP

/-- What the body is called with at point `t`, the windows one by one, -/
def bodyPre (qs : Fin cfg1.W → PosShare TreeShare) (c : Dev nD) (t : Fin cfg1.N) : sProp 𝕄 :=
  iprop((dat V qs c).Φ t.castSucc ∗ (dat V qs c).owesAt () t.castSucc
    ∗ (∃ d, owns (c : Thread nD τ) (ms0 t) fullShare ((dat V qs c).before 0 t d))
    ∗ (∃ d, owns (c : Thread nD τ) (ms1 t) fullShare ((dat V qs c).before 1 t d))
    ∗ (∃ d, owns (c : Thread nD τ) (ms2 t) fullShare ((dat V qs c).before 2 t d)))

/-- and what it returns. -/
def bodyPost (qs : Fin cfg1.W → PosShare TreeShare) (c : Dev nD) (t : Fin cfg1.N) : sProp 𝕄 :=
  iprop((dat V qs c).Φ t.succ ∗ (dat V qs c).owesAt () t.succ
    ∗ (dat V qs c).leavesExact 0 t
    ∗ (dat V qs c).leavesExact 1 t
    ∗ (dat V qs c).leavesExact 2 t)

set_option maxHeartbeats 4000000 in
/-- The body at any point. The inputs' buffers hold their blocks; the closed forms of the three conditions say which case the
    point is in, and that case's run applies with the scratch buffers at what the point before left (at the very first point:
    at anything, the reset overwrites them); it leaves them at the accumulation's values at this point, and the output
    window's buffer untouched where the window is idle, at the loss block at a row tile's last point. -/
theorem sound_body (qs : Fin cfg1.W → PosShare TreeShare) (c : Dev nD) (t : Fin cfg1.N) :
    bodyPre V qs c t ⊢ wp frame (wpE (defs₀ (F := F)) Variants.none c none) Set.univ (bodyAt1 t) (fun _ => bodyPost V qs c t) := by
  unfold bodyPre bodyPost
  simp only [before0, before1]
  rw [show (dat V qs c).owesAt () t.succ = (dat V qs c).owesAt () t.castSucc from rfl]
  rw [show (dat V qs c).Φ t.succ = PhiS V c (t.val + 1) t.isLt from rfl, PhiS_succ]
  rw [show (dat V qs c).leavesExact 0 t = owns (c : Thread nD τ) (ms0 t) fullShare ((dat V qs c).after 0 t) from by
    unfold Dat.leavesExact; rw [liveAt0 t], after_in0]
  rw [show (dat V qs c).leavesExact 1 t = owns (c : Thread nD τ) (ms1 t) fullShare ((dat V qs c).after 1 t) from by
    unfold Dat.leavesExact; rw [liveAt1 t], after_in1]
  have hN : t.val < 64 := lt_of_lt_of_eq t.isLt (show cfg1.N = 64 from N_1)
  by_cases h2 : t.val % 8 = 7
  · have h0 : ¬t.val % 8 = 0 := by omega
    have hz : t.val ≠ 0 := by omega
    rw [show (dat V qs c).leavesExact 2 t = owns (c : Thread nD τ) (ms2 t) fullShare ((dat V qs c).after 2 t) from by
      unfold Dat.leavesExact; rw [liveAt2 t ((hcond2 t).mpr h2)], after2]
    rw [PhiS_castSucc V qs c t, PhiS_pos V c _ _ hz]
    by_cases h1 : t.val % 8 = (t.val / 8 + 4) % 8
    · rw [acc_D V c t h0 h1]
      iintro ⟨HΦ, Ho, ⟨%d0, H0⟩, ⟨%d1, H1⟩, ⟨%d2, H2⟩⟩
      iapply (frame_body c t (iblk V c 0 t) (iblk V c 1 t) ((dat V qs c).before 2 t d2) _ _ _ _ _ _ _ _ _ (Entails.refl _)
        (fun K => runG c (grid1.coords t) _ _ _ _ _ _ _ _ _ _ _ _ (fun h => h0 ((hcond0 t).mp h)) ((hcond1 t).mpr h1) ((hcond2 t).mpr h2) _ _ _ _ _ _ Set.univ K))
      isplitl [HΦ]; · iexact HΦ
      isplitl [Ho]; · iexact Ho
      isplitl [H0]; · iexact H0
      isplitl [H1]; · iexact H1
      iexact H2
    · rw [acc_C V c t h0 h1]
      iintro ⟨HΦ, Ho, ⟨%d0, H0⟩, ⟨%d1, H1⟩, ⟨%d2, H2⟩⟩
      iapply (frame_body c t (iblk V c 0 t) (iblk V c 1 t) ((dat V qs c).before 2 t d2) _ _ _ _ _ _ _ _ _ (Entails.refl _)
        (fun K => runE c (grid1.coords t) _ _ _ _ _ _ _ _ _ _ _ _ (fun h => h0 ((hcond0 t).mp h)) (fun h => h1 ((hcond1 t).mp h)) ((hcond2 t).mpr h2) _ _ _ _ _ _ Set.univ K))
      isplitl [HΦ]; · iexact HΦ
      isplitl [Ho]; · iexact Ho
      isplitl [H0]; · iexact H0
      isplitl [H1]; · iexact H1
      iexact H2
  · rw [Dat.leavesExact_idle (dat V qs c) 2 t (idleAt2 t (fun h => h2 ((hcond2 t).mp h))) (noFlush2 t (fun h => h2 ((hcond2 t).mp h)))]
    by_cases h0 : t.val % 8 = 0
    · by_cases h1 : t.val % 8 = (t.val / 8 + 4) % 8
      · have hz : t.val ≠ 0 := by omega
        rw [PhiS_castSucc V qs c t, PhiS_pos V c _ _ hz, acc_B V c t h0 h1]
        iintro ⟨HΦ, Ho, ⟨%d0, H0⟩, ⟨%d1, H1⟩, ⟨%d2, H2⟩⟩
        have hand : owns (c : Thread nD τ) (ms2 t) fullShare ((dat V qs c).before 2 t d2) ⊢ (iprop(∃ d, owns (c : Thread nD τ) (ms2 t) fullShare ((dat V qs c).before 2 t d)) : sProp 𝕄) := by
          iintro H; iexists d2; iexact H
        iapply (frame_body c t (iblk V c 0 t) (iblk V c 1 t) ((dat V qs c).before 2 t d2) _ _ _ _ _ _ _ _ _ hand
          (fun K => runB c (grid1.coords t) _ _ _ _ _ _ _ _ _ _ _ _ ((hcond0 t).mpr h0) ((hcond1 t).mpr h1) (fun h => h2 ((hcond2 t).mp h)) _ _ _ _ _ _ Set.univ K))
        isplitl [HΦ]; · iexact HΦ
        isplitl [Ho]; · iexact Ho
        isplitl [H0]; · iexact H0
        isplitl [H1]; · iexact H1
        iexact H2
      · rw [acc_A V c t h0 h1]
        by_cases hz : t.val = 0
        · rw [PhiS_castSucc V qs c t, PhiS_zero V c _ _ hz]
          refine BIBase.Entails.trans (Laws.sep_mono_left (PhiA_named c)) ?_
          iintro ⟨⟨%xm, %xl, %xp, HΦ⟩, Ho, ⟨%d0, H0⟩, ⟨%d1, H1⟩, ⟨%d2, H2⟩⟩
          have hand : owns (c : Thread nD τ) (ms2 t) fullShare ((dat V qs c).before 2 t d2) ⊢ (iprop(∃ d, owns (c : Thread nD τ) (ms2 t) fullShare ((dat V qs c).before 2 t d)) : sProp 𝕄) := by
            iintro H; iexists d2; iexact H
          iapply (frame_body c t (iblk V c 0 t) (iblk V c 1 t) ((dat V qs c).before 2 t d2) xm xl xp _ _ _ _ _ _ hand
            (fun K => runA c (grid1.coords t) _ _ _ _ _ _ _ _ _ _ _ _ ((hcond0 t).mpr h0) (fun h => h1 ((hcond1 t).mp h)) (fun h => h2 ((hcond2 t).mp h)) _ _ _ _ _ _ Set.univ K))
          isplitl [HΦ]; · iexact HΦ
          isplitl [Ho]; · iexact Ho
          isplitl [H0]; · iexact H0
          isplitl [H1]; · iexact H1
          iexact H2
        · rw [PhiS_castSucc V qs c t, PhiS_pos V c _ _ hz]
          iintro ⟨HΦ, Ho, ⟨%d0, H0⟩, ⟨%d1, H1⟩, ⟨%d2, H2⟩⟩
          have hand : owns (c : Thread nD τ) (ms2 t) fullShare ((dat V qs c).before 2 t d2) ⊢ (iprop(∃ d, owns (c : Thread nD τ) (ms2 t) fullShare ((dat V qs c).before 2 t d)) : sProp 𝕄) := by
            iintro H; iexists d2; iexact H
          iapply (frame_body c t (iblk V c 0 t) (iblk V c 1 t) ((dat V qs c).before 2 t d2) _ _ _ _ _ _ _ _ _ hand
            (fun K => runA c (grid1.coords t) _ _ _ _ _ _ _ _ _ _ _ _ ((hcond0 t).mpr h0) (fun h => h1 ((hcond1 t).mp h)) (fun h => h2 ((hcond2 t).mp h)) _ _ _ _ _ _ Set.univ K))
          isplitl [HΦ]; · iexact HΦ
          isplitl [Ho]; · iexact Ho
          isplitl [H0]; · iexact H0
          isplitl [H1]; · iexact H1
          iexact H2
    · have hz : t.val ≠ 0 := fun h => h0 (by rw [h])
      rw [PhiS_castSucc V qs c t, PhiS_pos V c _ _ hz]
      by_cases h1 : t.val % 8 = (t.val / 8 + 4) % 8
      · rw [acc_D V c t h0 h1]
        iintro ⟨HΦ, Ho, ⟨%d0, H0⟩, ⟨%d1, H1⟩, ⟨%d2, H2⟩⟩
        have hand : owns (c : Thread nD τ) (ms2 t) fullShare ((dat V qs c).before 2 t d2) ⊢ (iprop(∃ d, owns (c : Thread nD τ) (ms2 t) fullShare ((dat V qs c).before 2 t d)) : sProp 𝕄) := by
          iintro H; iexists d2; iexact H
        iapply (frame_body c t (iblk V c 0 t) (iblk V c 1 t) ((dat V qs c).before 2 t d2) _ _ _ _ _ _ _ _ _ hand
          (fun K => runD c (grid1.coords t) _ _ _ _ _ _ _ _ _ _ _ _ (fun h => h0 ((hcond0 t).mp h)) ((hcond1 t).mpr h1) (fun h => h2 ((hcond2 t).mp h)) _ _ _ _ _ _ Set.univ K))
        isplitl [HΦ]; · iexact HΦ
        isplitl [Ho]; · iexact Ho
        isplitl [H0]; · iexact H0
        isplitl [H1]; · iexact H1
        iexact H2
      · rw [acc_C V c t h0 h1]
        iintro ⟨HΦ, Ho, ⟨%d0, H0⟩, ⟨%d1, H1⟩, ⟨%d2, H2⟩⟩
        have hand : owns (c : Thread nD τ) (ms2 t) fullShare ((dat V qs c).before 2 t d2) ⊢ (iprop(∃ d, owns (c : Thread nD τ) (ms2 t) fullShare ((dat V qs c).before 2 t d)) : sProp 𝕄) := by
          iintro H; iexists d2; iexact H
        iapply (frame_body c t (iblk V c 0 t) (iblk V c 1 t) ((dat V qs c).before 2 t d2) _ _ _ _ _ _ _ _ _ hand
          (fun K => runC c (grid1.coords t) _ _ _ _ _ _ _ _ _ _ _ _ (fun h => h0 ((hcond0 t).mp h)) (fun h => h1 ((hcond1 t).mp h)) (fun h => h2 ((hcond2 t).mp h)) _ _ _ _ _ _ Set.univ K))
        isplitl [HΦ]; · iexact HΦ
        isplitl [Ho]; · iexact Ho
        isplitl [H0]; · iexact H0
        isplitl [H1]; · iexact H1
        iexact H2

/-- The library's body obligation, at every point. -/
theorem body_obligation (qs : Fin cfg1.W → PosShare TreeShare) (c : Dev nD) :
    BodyObligation (dat (F := F) V qs c) (defs₀ (F := F)) Variants.none () Set.univ := fun t => by
  rw [bigSep_W1, bigSep_W1]
  exact sound_body V qs c t

/-- What the launch hands the region is the invariant before the first point. -/
theorem hin (qs : Fin cfg1.W → PosShare TreeShare) (c : Dev nD) : Pipeline.ΦA spec1 c ⊢ (dat V qs c).Φ 0 := by
  rw [show (dat V qs c).Φ 0 = PhiS V c 0 (Nat.zero_le _) from rfl, PhiS_zero V c 0 _ rfl]
  try exact Idealize.SL.BI.Entails.refl _

/-- After the last point the invariant gives the class's back: the scratch buffers' named contents are forgotten. -/
theorem hout (qs : Fin cfg1.W → PosShare TreeShare) (c : Dev nD) : (dat V qs c).Φ (Fin.last cfg1.N) ⊢ Pipeline.ΦA spec1 c := by
  have hne : (Fin.last cfg1.N).val ≠ 0 := by rw [Fin.val_last]; have : cfg1.N = 64 := N_1; omega
  rw [show (dat V qs c).Φ (Fin.last cfg1.N) = PhiS V c (Fin.last cfg1.N).val (Nat.le_of_lt_succ (Fin.last cfg1.N).isLt) from rfl, PhiS_pos V c _ _ hne]
  exact PhiA_of_named c _ _ _

end Cert.Kernel.Region1

end
-- ==== Proof.KInst.lean ====
/-
  Region 1's proof data put in place: the two windows on the feature array hold the two halves of its share, the output
  window's array the full share; with it the whole run and its frame hold with no hypothesis left.
-/
import proofs.«132639_j29025388987032_1_alg».proof.Proof.KRunRead
import proofs.«132639_j29025388987032_1_alg».proof.Proof.KRegion1

set_option maxRecDepth 16384

noncomputable section

namespace Cert.Kernel.Inst

open Cert.Kernel Cert.Kernel.Gen
open Idealize.ShloMosaic Idealize.ShloMosaic.TcCoe
open Idealize.SL Idealize.SL.RA Idealize.SL.Sem
open Idealize.ShloMosaic.Pipeline (Dat)

variable {F : FTy → Type} [FloatOps F]

variable (m : (ℓ : Loc nD τ sig) → Buf (Elt F) ℓ) (ρ : Dev nD → PrngReg)

/-- The shares of region 1's windows: the row tile's window and the column tile's window each half of the feature
    array's, the output window's the whole of its array's. -/
def qs : Fin cfg1.W → PosShare TreeShare := fun w => if w.val = 0 then fullShare.left else if w.val = 1 then fullShare.right else fullShare

/-- Region 1's proof data at the contents region 0 leaves. -/
abbrev dat1 (c : Dev nD) : Dat τ (Elt F) Unit ℕ (UR sig nD τ) ℕ cfg1 c := Region1.dat (Run.V2 m ρ) qs c

/-- What the run asks of it. -/
theorem facts1 : Run.Region1Facts m ρ (dat1 m ρ) where
  hA c w := Region1.A_eq (Run.V2 m ρ) qs c w
  hq0 c := rfl
  hq1 c := rfl
  howed c t := rfl
  hrec c t := rfl
  hbody c := Region1.body_obligation (Run.V2 m ρ) qs c
  hin c := Region1.hin (Run.V2 m ρ) qs c
  hout c := Region1.hout (Run.V2 m ρ) qs c

/-- THE FRAME of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Run.frame m ρ (dat1 m ρ) (facts1 m ρ)

end Cert.Kernel.Inst

end
-- ==== Proof.Region0.lean ====
/-
  Region 0 of the idealized kernel (the projection: two dense layers with a rectification between them, then each row
  divided by its Euclidean norm floored at a small constant), at the contents `V` the region finds in the arrays:
  each window's block at a grid point, what the body leaves in the output window's buffer as a function of the five
  input blocks, the body's triple, the pipeline's proof data and the body obligation at every point.
  A row block of 512 rows of the 8192 x 256 input against the whole weight matrices and bias vectors gives the
  matching 512 rows of the 8192 x 128 output; no point reads what another wrote.
-/
import proofs.«132639_j29025388987032_1_alg».proof.Proof.Gen.KernelIdeal.Launch
import proofs.«132639_j29025388987032_1_alg».proof.Proof.Gen.KernelIdeal.Skeleton
import proofs.«132639_j29025388987032_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not fetched
    the block index has not moved, so the block already there is this point's. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not fetched
    the block index has not moved, so the block already there is this point's. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not fetched
    the block index has not moved, so the block already there is this point's. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not fetched
    the block index has not moved, so the block already there is this point's. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not fetched
    the block index has not moved, so the block already there is this point's. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S512x256 := Rect.unit (s := S512x256) ![0, 0] S512x256.size inb_S512x256_S512x256_0_0
abbrev rW1 : Rect S256x256 := Rect.unit (s := S256x256) ![0, 0] S256x256.size inb_S256x256_S256x256_0_0
abbrev rB1 : Rect S256 := Rect.unit (s := S256) ![0] S256.size inb_S256_S256_0
abbrev rW2 : Rect S256x128 := Rect.unit (s := S256x128) ![0, 0] S256x128.size inb_S256x128_S256x128_0_0
abbrev rB2 : Rect S128 := Rect.unit (s := S128) ![0] S128.size inb_S128_S128_0
abbrev rOut : Rect S512x128 := Rect.unit (s := S512x128) ![0, 0] S512x128.size inb_S512x128_S512x128_0_0

/-- What the body leaves in the output window's buffer, from the five input blocks: its one store, of the normalised
    projection of the row block. -/
def out5 (x0 : Vec F S512x256 .f32) (x1 : Vec F S256x256 .f32) (x2 : Vec F S256 .f32) (x3 : Vec F S256x128 .f32) (x4 : Vec F S128 .f32) :
    Vec F S512x128 .f32 :=
  View.canon [⟨rOut, k0_pay1 (View.ld x0 rX) (View.ld x1 rW1) (View.ld x2 rB1) (View.ld x3 rW2) (View.ld x4 rB2)⟩]

/-- The one store covers the buffer. -/
theorem cover5 (p0 : Vec F S512x128 .f32) (y : S512x128.Idx) :
    ∃ pc ∈ ([⟨rOut, p0⟩] : List (View.Piece (Elt F) S512x128 .f32)), y ∈ pc.1.set :=
  View.cover_of_tiled [⟨rOut, p0⟩] S512x128.size (by rfl) y

set_option maxHeartbeats 4000000 in
/-- The body on whole staging memrefs, the inputs' at read contents and the output's at anything, runs to the
    continuation holding the inputs' as they were and the output's at `out5` of the inputs'. -/
theorem sound_kernel (c : Dev nD) (E : Set ℕ) (i : grid0.Coords)
    (arg1 : Memref sig .tc .vmem S512x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x128 .f32) (harg4 : arg4.IsWhole)
    (arg5 : Memref sig .tc .vmem S128 .f32) (harg5 : arg5.IsWhole) (arg6 : Memref sig .tc .vmem S512x128 .f32) (harg6 : arg6.IsWhole)
    (x0 : Vec F S512x256 .f32) (x1 : Vec F S256x256 .f32) (x2 : Vec F S256 .f32) (x3 : Vec F S256x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of region 0 on core `c`: the arrays as the region finds them; after the body at point `t` each
    input's buffer still at its block and the output's at `out5` of the five input blocks; the invariant is the scoped
    rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) :
    (dat V c).after 5 t = out5 (iblk V c 0 t) (iblk V c 1 t) (iblk V c 2 t) (iblk V c 3 t) (iblk V c 4 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Region0

end
-- ==== Proof.Run.lean ====
/-
  The whole run of the idealized kernel's @main, from the launch to the return, with every unscoped buffer's final
  contents named: the host's concatenation of the two inputs, region 0 (the projection, a row block per grid point),
  region 1 (the loss rows, a row tile against every column tile), and the host's mean and negation.
  The buffer contents at each boundary are a fold from the launch memory: a host stretch applies its operations; a
  region leaves its output array at what its write-backs make of it and every other buffer as it was. Region 1 reads
  the feature array through two windows (the row tile and the column tile): its full share is dealt in two halves at
  the region's entry and joined again at its exit, the array unchanged.
-/
import proofs.«132639_j29025388987032_1_alg».proof.Proof.Region0
import proofs.«132639_j29025388987032_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the concatenation (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (Region0.dat (V1 m ρ) c).arrAt w cfg0.N
theorem W2_arr (c : Dev nD) (w : Fin cfg0.W) :
    W2 m ρ c (Proc.devRef .tc (Pipeline.arrRef spec0 w)) = (Region0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Region0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-! ## Region 1's proof data: a parameter of this module (its module instantiates it) -/

variable (dat1 : (c : Dev nD) → Dat τ (Elt F) Unit ℕ (UR sig nD τ) ℕ cfg1 c)

/-- At region 1's exit: the loss rows' array at what the write-backs leave, every other buffer as entered. -/
def W3 (c : Dev nD) : Valuation τ sig (Elt F) :=
  Function.update (W2 m ρ c) (Proc.devRef .tc main_v2) ((dat1 c).arrAt 2 cfg1.N)
theorem W3_out (c : Dev nD) : W3 m ρ dat1 c (Proc.devRef .tc main_v2) = (dat1 c).arrAt 2 cfg1.N := by
  unfold W3; exact Function.update_self ..
theorem W3_of_ne (c : Dev nD) (b : Ref sig .tc) (hb : b ≠ main_v2) :
    W3 m ρ dat1 c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ dat1 c b
/-- After the mean and the negation (the return). -/
abbrev W4 : Dev nD → Valuation τ sig (Elt F) := fun c => StableHlo.after hostOps2 (W3 m ρ dat1 c)

/-! ## One array behind two windows -/

/-- The arrays behind region 1's windows: the feature array (twice) and the loss rows' array. -/
theorem image1 : Finset.univ.image (Pipeline.arrRef spec1) = ({main_v1, main_v2} : Finset (Ref sig .tc)) := by decide

/-- The buffers behind region 1's windows, each whole at the full share. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v2) ↦{fullShare} V main_v2)) := by
  unfold Pipeline.arrBufs
  rw [image1, BI.bigSep_insert (by decide), BI.bigSep_singleton]
  rfl

/-- The shares the two windows on the feature array hold of it: the two halves of the full share. -/
theorem share1_0 (c : Dev nD) (hq0 : (dat1 c).q 0 = fullShare.left) : (dat1 c).share 0 = fullShare.left := by
  unfold Dat.share; rw [if_neg (by decide)]; exact hq0
theorem share1_1 (c : Dev nD) (hq1 : (dat1 c).q 1 = fullShare.right) : (dat1 c).share 1 = fullShare.right := by
  unfold Dat.share; rw [if_neg (by decide)]; exact hq1
theorem share1_2 (c : Dev nD) : (dat1 c).share 2 = fullShare := by
  unfold Dat.share; rw [if_pos (by decide)]

/-- Region 1's arrays at contents `G`: the feature array at the two half shares, the loss rows' array at the full share. -/
theorem arrays1_eq (c : Dev nD) (hq0 : (dat1 c).q 0 = fullShare.left) (hq1 : (dat1 c).q 1 = fullShare.right)
    (G : (w : Fin cfg1.W) → Buf (Elt F) ((cfg1.win w).arr.view.loc (c : Thread nD τ))) :
    ((dat1 c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W1, share1_0 dat1 c hq0, share1_1 dat1 c hq1, share1_2 dat1 c,
    (arr_whole1 0).set_eq_univ, (arr_whole1 2).set_eq_univ]

/-- ENTRY of region 1: every unscoped buffer at region 0's exit contents is region 1's arrays at its entry contents —
    the feature array's full share dealt in two halves to the two windows reading it — beside the unscoped rest. -/
theorem entry1 (c : Dev nD) (hq0 : (dat1 c).q 0 = fullShare.left) (hq1 : (dat1 c).q 1 = fullShare.right)
    (hA1 : ∀ w, (dat1 c).A w = V2 m ρ c (Pipeline.arrRef spec1 w)) :
    (StableHlo.held (c : Thread nD τ) (Pipeline.ucRefs τ sig) (W2 m ρ c) : sProp 𝕄)
      ⊢ iprop((dat1 c).arrays ((dat1 c).arrAt · 0)
          ∗ Pipeline.unscopedRest (Ix := Unit) (Name := ℕ) (U := UR sig nD τ) (Lvl := ℕ) spec1 c (V2 m ρ c)) := by
  rw [← Pipeline.unscopedBufs_held (Ix := Unit) (Name := ℕ) (U := UR sig nD τ) (Lvl := ℕ) c (W2 m ρ c),
    (show (unscopedBufs (Ix := Unit) (Name := ℕ) (U := UR sig nD τ) (Lvl := ℕ) c (V2 m ρ c) : sProp 𝕄) = iprop(Pipeline.arrBufs (Ix := Unit) (Name := ℕ) (U := UR sig nD τ) (Lvl := ℕ) spec1 c (V2 m ρ c) ∗ Pipeline.unscopedRest (Ix := Unit) (Name := ℕ) (U := UR sig nD τ) (Lvl := ℕ) spec1 c (V2 m ρ c)) from Pipeline.unscopedBufs_split₀ cfgs 1 winFacts₀1.arr_unscoped c (V2 m ρ c)), arrBufs1_eq, arrays1_eq dat1 c hq0 hq1,
    show (dat1 c).arrAt 0 0 = V2 m ρ c main_v1 from hA1 0, show (dat1 c).arrAt 1 0 = V2 m ρ c main_v1 from hA1 1,
    show (dat1 c).arrAt 2 0 = V2 m ρ c main_v2 from hA1 2]
  have hs : ((((c : Thread nD τ).loc main_v1) ↦{fullShare} V2 m ρ c main_v1) : sProp 𝕄)
      ⊢ iprop((((c : Thread nD τ).loc main_v1) ↦{fullShare.left} V2 m ρ c main_v1) ∗ (((c : Thread nD τ).loc main_v1) ↦{fullShare.right} V2 m ρ c main_v1)) :=
    (pointsTo_share (PosShare.mem_left_op_right fullShare)).1
  iintro ⟨⟨H1, H2⟩, Hr⟩
  ihave H1' := hs $$ H1
  icases H1' with ⟨Ha, Hb⟩
  isplitl [Ha Hb H2]
  · isplitl [Ha]; · iexact Ha
    isplitl [Hb]; · iexact Hb
    iexact H2
  iexact Hr

/-- EXIT of region 1: its arrays after the last write-back — the feature array unchanged behind both windows, its two
    half shares joined again — and the unscoped rest are every unscoped buffer at the exit contents. -/
theorem exit1 (c : Dev nD) (hq0 : (dat1 c).q 0 = fullShare.left) (hq1 : (dat1 c).q 1 = fullShare.right)
    (hA1 : ∀ w, (dat1 c).A w = V2 m ρ c (Pipeline.arrRef spec1 w)) :
    iprop((dat1 c).arrays ((dat1 c).arrAt · cfg1.N)
          ∗ Pipeline.unscopedRest (Ix := Unit) (Name := ℕ) (U := UR sig nD τ) (Lvl := ℕ) spec1 c (V2 m ρ c))
      ⊢ (StableHlo.held (c : Thread nD τ) (Pipeline.ucRefs τ sig) (W3 m ρ dat1 c) : sProp 𝕄) := by
  rw [← Pipeline.unscopedBufs_held (Ix := Unit) (Name := ℕ) (U := UR sig nD τ) (Lvl := ℕ) c (W3 m ρ dat1 c),
    (show (unscopedBufs (Ix := Unit) (Name := ℕ) (U := UR sig nD τ) (Lvl := ℕ) c (V3 m ρ dat1 c) : sProp 𝕄) = iprop(Pipeline.arrBufs (Ix := Unit) (Name := ℕ) (U := UR sig nD τ) (Lvl := ℕ) spec1 c (V3 m ρ dat1 c) ∗ Pipeline.unscopedRest (Ix := Unit) (Name := ℕ) (U := UR sig nD τ) (Lvl := ℕ) spec1 c (V3 m ρ dat1 c)) from Pipeline.unscopedBufs_split₀ cfgs 1 winFacts₀1.arr_unscoped c (V3 m ρ dat1 c)), arrBufs1_eq, arrays1_eq dat1 c hq0 hq1,
    show (dat1 c).arrAt 0 cfg1.N = V2 m ρ c main_v1 from ((dat1 c).arrAt_in 0 rfl _).trans (hA1 0),
    show (dat1 c).arrAt 1 cfg1.N = V2 m ρ c main_v1 from ((dat1 c).arrAt_in 1 rfl _).trans (hA1 1),
    show V3 m ρ dat1 c main_v1 = V2 m ρ c main_v1 from W3_of_ne m ρ dat1 c main_v1 (by decide),
    show V3 m ρ dat1 c main_v2 = (dat1 c).arrAt 2 cfg1.N from W3_out m ρ dat1 c,
    show Pipeline.unscopedRest (Ix := Unit) (Name := ℕ) (U := UR sig nD τ) (Lvl := ℕ) spec1 c (V3 m ρ dat1 c)
        = Pipeline.unscopedRest (Ix := Unit) (Name := ℕ) (U := UR sig nD τ) (Lvl := ℕ) spec1 c (V2 m ρ c) from by
      unfold Pipeline.unscopedRest
      exact BI.bigSep_congr fun b hb => by
        rw [show V3 m ρ dat1 c b = V2 m ρ c b from W3_of_ne m ρ dat1 c b fun e =>
          (Finset.mem_sdiff.mp hb).2 (e ▸ (by rw [image1]; decide))]]
  iintro ⟨⟨Ha, Hb, H2⟩, Hr⟩
  isplitl [Ha Hb H2]
  · isplitl [Ha Hb]
    · iapply (pointsTo_share (PosShare.mem_left_op_right fullShare)).2
      isplitl [Ha]; · iexact Ha
      iexact Hb
    iexact H2
  iexact Hr

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Region0.dat (V1 m ρ) c
  | ⟨1, _⟩ => fun c => dat1 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered from every unscoped buffer at `W1`, left at `W2`. Its six arrays are split
    out of the unscoped buffers and put back at the exit contents; the generator register goes into the invariant and
    comes out; nothing is owed; the kernel has no semaphore of its own. -/
def reg0 : Pipeline.RegionSeg (pcfgs (F := F)) adm (pdats m ρ dat1) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ dat1) launch0.win launch0.arr_whole c
      ((pdats m ρ dat1 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ dat1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ dat1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ dat1) ((pdats m ρ dat1 0 c).share_full fun _ => rfl)
      (V1 m ρ c) (V2 m ρ c) ((pdats m ρ dat1 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What this module asks of region 1's proof data: its arrays are the contents the region finds; the two windows on the
    feature array hold the two halves of its share; nothing is owed; the body obligation; the invariant before the first
    point is the scoped rest with the generator register, and after the last point gives them back. -/
structure Region1Facts : Prop where
  hA : ∀ c w, (dat1 c).A w = V2 m ρ c (Pipeline.arrRef spec1 w)
  hq0 : ∀ c, (dat1 c).q 0 = fullShare.left
  hq1 : ∀ c, (dat1 c).q 1 = fullShare.right
  howed : ∀ c t, (dat1 c).owed t = 0
  hrec : ∀ c t, (dat1 c).recorded t = Set.univ
  hbody : ∀ c, BodyObligation (dat1 c) (defs₀ (F := F)) Variants.none () Set.univ
  hin : ∀ c, (Pipeline.ΦA (U := UR sig nD τ) spec1 c : sProp 𝕄) ⊢ (dat1 c).Φ 0
  hout : ∀ c, (dat1 c).Φ (Fin.last cfg1.N) ⊢ (Pipeline.ΦA (U := UR sig nD τ) spec1 c : sProp 𝕄)

set_option backward.isDefEq.respectTransparency.types false in
/-- REGION 1 over the thread state: entered from every unscoped buffer at `W2`, left at `W3`. The feature array's share
    is dealt to the two windows reading it at the entry and joined at the exit. -/
def reg1 (h1 : Region1Facts m ρ dat1) : Pipeline.RegionSeg (pcfgs (F := F)) adm (pdats m ρ dat1) () defs₀ 𝒱₀ L lv 1 where
  win := winFacts₀1
  block_pos := block_pos1
  stage_whole := stage_whole1
  K := PEmpty
  osem k := k.elim
  ho := Pipeline.OwnSemFacts.none _
  hbody c := (h1.hbody c).loose
  hwaits := Pipeline.hwaits_of_owed_zero _ _ _ _ L lv 1 fun c t => h1.howed c t
  pre c := iprop(StableHlo.held (c : Thread nD τ) (Pipeline.ucRefs τ sig) (W2 m ρ c) ∗ R c)
  post c := iprop(StableHlo.held (c : Thread nD τ) (Pipeline.ucRefs τ sig) (W3 m ρ dat1 c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (StableHlo.held (c : Thread nD τ) (Pipeline.ucRefs τ sig) (W2 m ρ c) : sProp 𝕄)
        ⊢ iprop((pdats m ρ dat1 1 c).arrays ((pdats m ρ dat1 1 c).arrAt · 0)
            ∗ Pipeline.unscopedRest (Ix := Unit) (Name := ℕ) (U := UR sig nD τ) (Lvl := ℕ) spec1 c (V2 m ρ c)) :=
      entry1 m ρ dat1 c (h1.hq0 c) (h1.hq1 c) (h1.hA c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ dat1 1 c).owed 0 = 0 from h1.howed c 0]
      icases HO with ⟨%W, HO⟩; iexists W; isplitr
      · ipureintro; exact fun _ _ => Or.inl ((h1.hrec c 0).symm ▸ Set.mem_univ _)
      iexact HO
    isplitl [Hp]; · iexact Hp
    iexact Hrest
  hin c := by
    refine BIBase.Entails.trans ?_ (h1.hin c)
    unfold Pipeline.ΦA
    iintro ⟨Hp, -, Hr⟩
    isplitl [Hr]; · iexact Hr
    iexact Hp
  hout c := by
    rw [Pipeline.ownSems0_none]
    refine (h1.hout c).trans ?_
    unfold Pipeline.ΦA
    iintro ⟨Hr, Hp⟩
    isplitl [Hp]; · iexact Hp
    isplitr; · iempintro
    iexact Hr
  hexit c := by
    have hjoin : iprop((pdats m ρ dat1 1 c).arrays ((pdats m ρ dat1 1 c).arrAt · cfg1.N)
          ∗ Pipeline.unscopedRest (Ix := Unit) (Name := ℕ) (U := UR sig nD τ) (Lvl := ℕ) spec1 c (V2 m ρ c))
        ⊢ (StableHlo.held (c : Thread nD τ) (Pipeline.ucRefs τ sig) (W3 m ρ dat1 c) : sProp 𝕄) :=
      exit1 m ρ dat1 c (h1.hq0 c) (h1.hq1 c) (h1.hA c)
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    rw [show (pdats m ρ dat1 1 c).owed (Fin.last _) = 0 from h1.howed c _]
    icases HO with ⟨%W, -, HO⟩; iexists W; iexact HO

/-! ## @main as segments, and the launch -/

/-- @main's four segments in order. -/
abbrev segs (h1 : Region1Facts m ρ dat1) : List (Pipeline.Seg (pcfgs (F := F)) adm (pdats m ρ dat1) () defs₀ 𝒱₀ L lv) :=
  [ .host (hseg hostOps0 hostOps0_sub hostOps0_fresh (W0 m ρ)),
    .region (reg0 m ρ dat1),
    .region (reg1 m ρ dat1 h1),
    .host (hseg hostOps2 hostOps2_sub hostOps2_fresh (W3 m ρ dat1)) ]

theorem main_run (h1 : Region1Facts m ρ dat1) (c : Dev nD) : main (F := F) c = Pipeline.Seg.run (segs m ρ dat1 h1) := (main_chain c).trans (by chain_rfl)

set_option backward.isDefEq.respectTransparency.types false in
/-- THE RUN: from any memory with zero counters every weakly fair execution of @main terminates, nothing faulting, and
    every final state holds each unscoped buffer at the last boundary's contents `W4`. -/
theorem run_all (h1 : Region1Facts m ρ dat1) : θ_run defs (onTc (τ := τ) (main (F := F))) ⟨m, fun _ => 0, ρ⟩ (fun r => ∀ c : Dev nD,
      ∀ b ∈ Pipeline.ucRefs τ sig, r.2.mem (((c : Thread nD τ)).1, b) = W4 m ρ dat1 c b) :=
  Pipeline.θ_run_regions_kit (pcfgs (F := F)) adm (pdats m ρ dat1) () cellOf_inj emb₁ defs₀ 𝒱₀ L lv m ρ main (segs m ρ dat1 h1)
    (fun c Q => by rw [main_run m ρ dat1 h1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W4 m ρ dat1 c) ∗ ∃ r, prngReg c r))
    (hch := ⟨fun _ => .rfl, fun _ => .rfl, fun _ => .rfl, fun _ => .rfl, fun c => (show iprop(StableHlo.held (c : Thread nD τ) (Pipeline.ucRefs τ sig) (W4 m ρ dat1 c) ∗ R c)
        ⊢ (iprop(iprop(StableHlo.held (c : Thread nD τ) (Pipeline.ucRefs τ sig) (W4 m ρ dat1 c) ∗ ∃ r, prngReg c r)
            ∗ ∃ W, owes (c : Thread nD τ) (0 : CellTallies nD τ sig Unit) W) : sProp 𝕄) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ dat1 c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ dat1 c) s')
      isplitl [Hh] <;> iassumption)
    (hQ := fun s h c => h c)

end Cert.KernelIdeal.Run

end
-- ==== Proof.RunRead.lean ====
/-
  The run of the idealized kernel's @main, read: each argument array ends as launched (no host operation writes one, and
  a region reads it through an input window or passes it by), and the result buffer ends at minus the mean of the loss
  rows' array as region 1 leaves it.
-/
import proofs.«132639_j29025388987032_1_alg».proof.Proof.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F] [Named F]

variable (m : (ℓ : Loc nD τ sig) → Buf (Elt F) ℓ) (ρ : Dev nD → PrngReg)
variable (dat1 : (c : Dev nD) → Dat τ (Elt F) Unit ℕ (UR sig nD τ) ℕ cfg1 c)

/-- The host's tail writes only its own five buffers. -/
theorem W4_of_tail (c : Dev nD) (b : Ref sig .tc) (h : b ∉ hostOps2_W) :
    W4 m ρ dat1 c (Proc.devRef .tc b) = W3 m ρ dat1 c (Proc.devRef .tc b) :=
  StableHlo.after_of_writes_sub hostOps2 _ hostOps2_writes h
/-- The concatenation writes only its result. -/
theorem W1_of (c : Dev nD) (b : Ref sig .tc) (h : b ∉ hostOps0_W) :
    W1 m ρ c (Proc.devRef .tc b) = W0 m ρ c (Proc.devRef .tc b) :=
  StableHlo.after_of_writes_sub hostOps0 _ hostOps0_writes h

theorem W4_main_arg0 (c : Dev nD) : W4 m ρ dat1 c (Proc.devRef .tc main_arg0) = m ((c : Thread nD τ).loc main_arg0) :=
  (W4_of_tail m ρ dat1 c main_arg0 (by decide)).trans <| (W3_of_ne m ρ dat1 c main_arg0 (by decide)).trans <|
    (W2_of_ne m ρ c main_arg0 (by decide)).trans <| (W1_of m ρ c main_arg0 (by decide)).trans rfl
theorem W4_main_arg1 (c : Dev nD) : W4 m ρ dat1 c (Proc.devRef .tc main_arg1) = m ((c : Thread nD τ).loc main_arg1) :=
  (W4_of_tail m ρ dat1 c main_arg1 (by decide)).trans <| (W3_of_ne m ρ dat1 c main_arg1 (by decide)).trans <|
    (W2_of_ne m ρ c main_arg1 (by decide)).trans <| (W1_of m ρ c main_arg1 (by decide)).trans rfl
theorem W4_main_arg2 (c : Dev nD) : W4 m ρ dat1 c (Proc.devRef .tc main_arg2) = m ((c : Thread nD τ).loc main_arg2) :=
  (W4_of_tail m ρ dat1 c main_arg2 (by decide)).trans <| (W3_of_ne m ρ dat1 c main_arg2 (by decide)).trans <|
    ((W2_arr m ρ c 1).trans (((Region0.dat (V1 m ρ) c).arrAt_in 1 rfl _).trans (Region0.A_eq (V1 m ρ) c 1))).trans <|
    (W1_of m ρ c main_arg2 (by decide)).trans rfl
theorem W4_main_arg3 (c : Dev nD) : W4 m ρ dat1 c (Proc.devRef .tc main_arg3) = m ((c : Thread nD τ).loc main_arg3) :=
  (W4_of_tail m ρ dat1 c main_arg3 (by decide)).trans <| (W3_of_ne m ρ dat1 c main_arg3 (by decide)).trans <|
    ((W2_arr m ρ c 2).trans (((Region0.dat (V1 m ρ) c).arrAt_in 2 rfl _).trans (Region0.A_eq (V1 m ρ) c 2))).trans <|
    (W1_of m ρ c main_arg3 (by decide)).trans rfl
theorem W4_main_arg4 (c : Dev nD) : W4 m ρ dat1 c (Proc.devRef .tc main_arg4) = m ((c : Thread nD τ).loc main_arg4) :=
  (W4_of_tail m ρ dat1 c main_arg4 (by decide)).trans <| (W3_of_ne m ρ dat1 c main_arg4 (by decide)).trans <|
    ((W2_arr m ρ c 3).trans (((Region0.dat (V1 m ρ) c).arrAt_in 3 rfl _).trans (Region0.A_eq (V1 m ρ) c 3))).trans <|
    (W1_of m ρ c main_arg4 (by decide)).trans rfl
theorem W4_main_arg5 (c : Dev nD) : W4 m ρ dat1 c (Proc.devRef .tc main_arg5) = m ((c : Thread nD τ).loc main_arg5) :=
  (W4_of_tail m ρ dat1 c main_arg5 (by decide)).trans <| (W3_of_ne m ρ dat1 c main_arg5 (by decide)).trans <|
    ((W2_arr m ρ c 4).trans (((Region0.dat (V1 m ρ) c).arrAt_in 4 rfl _).trans (Region0.A_eq (V1 m ρ) c 4))).trans <|
    (W1_of m ρ c main_arg5 (by decide)).trans rfl

/-- The result buffer at the end: the host's sum of the loss rows' array from zero, divided by the row count, negated. -/
theorem W4_main_v5 (c : Dev nD) :
    (W4 m ρ dat1 c (Proc.devRef .tc main_v5) : S_.Idx → Elt F .f32)
      = Host.negf (Host.divf (Host.reduceAdd ((dat1 c).arrAt 2 cfg1.N) (constant (F := F) S_ .f32 0x00000000#32) reducesTo_S8192x1_S_d0_1 h_S_)
          (constant (F := F) S_ .f32 0x46000000#32)) := by
  rw [← W3_out m ρ dat1 c]
  show StableHlo.after hostOps2 (W3 m ρ dat1 c) (Proc.devRef .tc main_v5) = _
  after_results

/-- THE FRAME: every weakly fair execution of @main terminates, nothing faulting, each argument array as launched. -/
theorem frame (h1 : Region1Facts m ρ dat1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ dat1 c),
     (h c _ (mem_uc main_arg1 (by decide))).trans (W4_main_arg1 m ρ dat1 c),
     (h c _ (mem_uc main_arg2 (by decide))).trans (W4_main_arg2 m ρ dat1 c),
     (h c _ (mem_uc main_arg3 (by decide))).trans (W4_main_arg3 m ρ dat1 c),
     (h c _ (mem_uc main_arg4 (by decide))).trans (W4_main_arg4 m ρ dat1 c),
     (h c _ (mem_uc main_arg5 (by decide))).trans (W4_main_arg5 m ρ dat1 c)⟩)
    (run_all m ρ dat1 h1)

/-- THE VALUE RUN: the same, with the result buffer at the host's tail of region 1's array. -/
theorem run_value (h1 : Region1Facts m ρ dat1) :
    θ_run defs (onTc (τ := τ) (main (F := F))) ⟨m, fun _ => 0, ρ⟩ (fun r => ∀ c : Dev nD,
      r.2.mem ((c.tc : Thread nD τ).loc main_v5) = W4 m ρ dat1 c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v5 (by decide)),
     (h c _ (mem_uc main_arg0 (by decide))).trans (W4_main_arg0 m ρ dat1 c),
     (h c _ (mem_uc main_arg1 (by decide))).trans (W4_main_arg1 m ρ dat1 c),
     (h c _ (mem_uc main_arg2 (by decide))).trans (W4_main_arg2 m ρ dat1 c),
     (h c _ (mem_uc main_arg3 (by decide))).trans (W4_main_arg3 m ρ dat1 c),
     (h c _ (mem_uc main_arg4 (by decide))).trans (W4_main_arg4 m ρ dat1 c),
     (h c _ (mem_uc main_arg5 (by decide))).trans (W4_main_arg5 m ρ dat1 c)⟩)
    (run_all m ρ dat1 h1)

end Cert.KernelIdeal.Run

end
-- ==== Proof.Region1Base.lean ====
/-
  Region 1 of the idealized kernel (the contrastive loss over an 8 x 8 grid of 1024 x 1024 tiles of the similarity
  matrix, one row tile after another, an online log-sum-exp along each row tile): what the case runs of its body share.
  The body's three conditions on the grid point in closed form, where the output window is idle, the staging and
  scratch memrefs the body is called on, the region invariant spelt over the three scratch buffers, each input
  window's block, and the two facts about whole-buffer accesses the runs rewrite with.
-/
import proofs.«132639_j29025388987032_1_alg».proof.Proof.Gen.KernelIdeal.Launch
import proofs.«132639_j29025388987032_1_alg».proof.Proof.Gen.KernelIdeal.Skeleton
import proofs.«132639_j29025388987032_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's three conditions, in closed form over the 64 points -/

/-- First condition: the column tile is 0 (the row tile's first point: the running maximum, sum and positive logit are reset). -/
abbrev cond0 (i : grid1.Coords) : Prop :=
  (Scalar.cmpi .ne (Scalar.extui (Scalar.cmpi .eq (BitVec.ofNat 32 (i 1).val) 0#32)) 0#32) = 1#1
/-- Second condition: the column tile is the row tile's partner, four tiles away cyclically (the tile that holds the positive logits). -/
abbrev cond1 (i : grid1.Coords) : Prop :=
  (Scalar.cmpi .ne (Scalar.extui (Scalar.cmpi .eq (BitVec.ofNat 32 (i 1).val)
    (Scalar.select (Scalar.cmpi .slt (BitVec.ofNat 32 (i 0).val) 4#32) (Scalar.addi (BitVec.ofNat 32 (i 0).val) 4#32) (Scalar.subi (BitVec.ofNat 32 (i 0).val) 4#32)))) 0#32) = 1#1
/-- Third condition: the column tile is 7 (the row tile's last point: the loss of its rows is written). -/
abbrev cond2 (i : grid1.Coords) : Prop := k1_cond3 i = 1#1

theorem hcond0 : ∀ t : Fin cfg1.N, cond0 (grid1.coords t) ↔ t.val % 8 = 0 :=
  (by decide +kernel : ∀ t : Fin grid1.N, cond0 (grid1.coords t) ↔ t.val % 8 = 0)
theorem hcond1 : ∀ t : Fin cfg1.N, cond1 (grid1.coords t) ↔ t.val % 8 = (t.val / 8 + 4) % 8 :=
  (by decide +kernel : ∀ t : Fin grid1.N, cond1 (grid1.coords t) ↔ t.val % 8 = (t.val / 8 + 4) % 8)
theorem hcond2 : ∀ t : Fin cfg1.N, cond2 (grid1.coords t) ↔ t.val % 8 = 7 :=
  (by decide +kernel : ∀ t : Fin grid1.N, cond2 (grid1.coords t) ↔ t.val % 8 = 7)

/-! ## Where the windows are idle -/

theorem liveAt0 : ∀ t : Fin cfg1.N, cfg1.idle 0 (grid1.coords t) = false := by decide +kernel
theorem liveAt1 : ∀ t : Fin cfg1.N, cfg1.idle 1 (grid1.coords t) = false := by decide +kernel
/-- Off the last column tile the output window is idle and not written back. -/
theorem idleAt2 : ∀ t : Fin cfg1.N, ¬cond2 (grid1.coords t) → cfg1.idle 2 (grid1.coords t) = true := by decide +kernel
theorem noFlush2 : ∀ t : Fin cfg1.N, ¬cond2 (grid1.coords t) → (cfg1.win 2).flush t = false := by decide +kernel
/-- At the last column tile it is live. -/
theorem liveAt2 : ∀ t : Fin cfg1.N, cond2 (grid1.coords t) → cfg1.idle 2 (grid1.coords t) = false := by decide +kernel

/-! ## The memrefs the body is called on -/

abbrev ms0 (t : Fin cfg1.N) : Memref sig .tc .vmem S1024x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)
/-- The three scratch operands: the running maximum, the running sum, the positive logit. -/
abbrev scM : Memref sig .tc .vmem S1024x1 .f32 := Memref.whole cc1_scratch0
abbrev scL : Memref sig .tc .vmem S1024x1 .f32 := Memref.whole cc1_scratch1
abbrev scP : Memref sig .tc .vmem S1024x1 .f32 := Memref.whole cc1_scratch2

/-- The core's scoped buffers that this pipeline does not stage through, other than the three scratch buffers: the other
    pallas_call's staging buffers, each at some contents, in front of `P`. The body never touches them. -/
def withRest (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ P)

/-- The class's invariant with the three scratch buffers as memrefs owned at some contents. -/
theorem PhiA_eq (c : Dev nD) :
    (Pipeline.ΦA spec1 c : sProp 𝕄)
      = iprop(withRest c iprop((∃ d, owns (c : Thread nD τ) scM fullShare d) ∗ (∃ d, owns (c : Thread nD τ) scL fullShare d) ∗ (∃ d, owns (c : Thread nD τ) scP fullShare d)) ∗ (∃ r, prngReg c r)) := by
  unfold Pipeline.ΦA withRest; rw [scopedRest1_eq]; simp only [scM, scL, scP, owns_whole]; try rfl

/-! ## The windows' blocks -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row window's current staging buffer holds its block at every point, fetched there or not: where it is not
    fetched the row tile has not moved. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column window's current staging buffer holds its block at every point. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## Whole-buffer accesses -/

/-- The body's one rectangle on a 1024 x 128 buffer and on a 1024 x 1 buffer: all of it. -/
abbrev rBig : Rect S1024x128 := Rect.unit (s := S1024x128) ![0, 0] S1024x128.size inb_S1024x128_S1024x128_0_0
abbrev rCol : Rect S1024x1 := Rect.unit (s := S1024x1) ![0, 0] S1024x1.size inb_S1024x1_S1024x1_0_0

theorem zBig : (![0, 0] : Fin S1024x128.rank → Nat) = fun _ => 0 := by
  funext a; match a with | ⟨0, _⟩ => rfl | ⟨1, _⟩ => rfl
theorem zCol : (![0, 0] : Fin S1024x1.rank → Nat) = fun _ => 0 := by
  funext a; match a with | ⟨0, _⟩ => rfl | ⟨1, _⟩ => rfl

/-- A load of a whole 1024 x 128 buffer reads its contents. -/
theorem ld_big (X : Vec F S1024x128 .f32) : View.ld X rBig = X := View.ld_unit_zero zBig _ X
/-- A load of a whole 1024 x 1 buffer reads its contents. -/
theorem ld_col (X : Vec F S1024x1 .f32) : View.ld X rCol = X := View.ld_unit_zero zCol _ X
/-- The same for the run's own spelling of a load from a buffer nothing was stored into. -/
theorem readAt_big {sg : RefSig} {κ : Kind} {sp : Space} (v : View sg κ sp S1024x128 .f32) (f : v.ty.Contents (Elt F)) :
    v.readAt (Elt F) rBig.toLoadRect f = v.read (Elt F) f := (View.readAt_eq_ld v f rBig).trans (ld_big _)
theorem readAt_col {sg : RefSig} {κ : Kind} {sp : Space} (v : View sg κ sp S1024x1 .f32) (f : v.ty.Contents (Elt F)) :
    v.readAt (Elt F) rCol.toLoadRect f = v.read (Elt F) f := (View.readAt_eq_ld v f rCol).trans (ld_col _)
/-- A whole-buffer store, last, leaves its payload whatever was stored before. -/
theorem canon_col (w : Vec F S1024x1 .f32) (L : List (View.Piece (Elt F) S1024x1 .f32)) :
    View.canon ((⟨rCol, w⟩ : View.Piece (Elt F) S1024x1 .f32) :: L) = w := View.canon_cons_unit_zero zCol _ w L
/-- A whole-buffer load after a whole-buffer store reads the store's payload. -/
theorem readCov_col {sg : RefSig} {κ : Kind} {sp : Space} (v : View sg κ sp S1024x1 .f32) (w : Vec F S1024x1 .f32) (L : List (View.Piece (Elt F) S1024x1 .f32)) :
    v.readCov ((⟨rCol, w⟩ : View.Piece (Elt F) S1024x1 .f32) :: L) rCol.toLoadRect = w := by
  rw [View.readCov_eq_canon_ld _ _ _ (fun y => ⟨_, List.mem_cons_self, View.mem_set_unit_zero zCol inb_S1024x1_S1024x1_0_0 y⟩), canon_col, ld_col]
/-- One whole-buffer store covers the buffer. -/
theorem cover_col (w : Vec F S1024x1 .f32) (L : List (View.Piece (Elt F) S1024x1 .f32)) (y : S1024x1.Idx) :
    ∃ pc ∈ ((⟨rCol, w⟩ : View.Piece (Elt F) S1024x1 .f32) :: L), y ∈ pc.1.set :=
  ⟨_, List.mem_cons_self, View.mem_set_unit_zero zCol inb_S1024x1_S1024x1_0_0 y⟩

end Cert.KernelIdeal.Region1

end
-- ==== Proof.Region1Acc.lean ====
/-
  Region 1 of the idealized kernel, the pure part: the values the three scratch buffers carry from one grid point to the
  next — the running row maximum, the running sum of exponentials rescaled to that maximum, the positive logit — as a
  recursion over the 64 points (point t is row tile t / 8 against column tile t % 8) in terms of the body's payloads and
  the two input blocks at the point: reset at a row tile's first point, then one step per column tile.
-/
import proofs.«132639_j29025388987032_1_alg».proof.Proof.Region1Base

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The carried values -/

/-- What the three scratch buffers hold: the running maximum `m`, the running sum `l`, the positive logit `p`. -/
structure St (F : FTy → Type) where
  m : Vec F S1024x1 .f32
  l : Vec F S1024x1 .f32
  p : Vec F S1024x1 .f32

/-- The reset at a row tile's first point: maximum −∞, sum 0, positive logit 0. -/
def reset : St F := ⟨k1_pay3 (F := F), k1_pay4 (F := F), k1_pay5 (F := F)⟩

/-- One point's step from the values `s` the body reads (after the reset, at a row tile's first point): with `q` the row block
    and `k` the column block, the sum is rescaled to the new maximum and extended by the tile's exponentials, the maximum is
    joined with the tile's row maxima, and at the partner column tile the positive logit becomes the tile's diagonal. -/
def stepAt (c : Dev nD) (t : Fin cfg1.N) (s : St F) : St F :=
  ⟨k1_pay9 (iblk V c 0 t) (iblk V c 1 t) s.m,
   k1_pay8 (iblk V c 0 t) (iblk V c 1 t) s.m s.l,
   if t.val % 8 = (t.val / 8 + 4) % 8 then k1_pay1 (k1_pay6 (iblk V c 0 t) (iblk V c 1 t)) else s.p⟩

theorem stepAt_m (c : Dev nD) (t : Fin cfg1.N) (s : St F) : (stepAt V c t s).m = k1_pay9 (iblk V c 0 t) (iblk V c 1 t) s.m := rfl
theorem stepAt_l (c : Dev nD) (t : Fin cfg1.N) (s : St F) : (stepAt V c t s).l = k1_pay8 (iblk V c 0 t) (iblk V c 1 t) s.m s.l := rfl
theorem stepAt_p_partner (c : Dev nD) (t : Fin cfg1.N) (s : St F) (h : t.val % 8 = (t.val / 8 + 4) % 8) :
    (stepAt V c t s).p = k1_pay1 (k1_pay6 (iblk V c 0 t) (iblk V c 1 t)) := if_pos h
theorem stepAt_p_other (c : Dev nD) (t : Fin cfg1.N) (s : St F) (h : ¬t.val % 8 = (t.val / 8 + 4) % 8) :
    (stepAt V c t s).p = s.p := if_neg h

/-- THE ACCUMULATION: the scratch contents after the body at position `n`: the step at `n` from the reset at a row tile's
    first point, from what position `n - 1` left elsewhere. -/
def acc (c : Dev nD) : (n : ℕ) → n < cfg1.N → St F
  | 0, hn => stepAt V c ⟨0, hn⟩ reset
  | n + 1, hn => stepAt V c ⟨n + 1, hn⟩ (if (n + 1) % 8 = 0 then reset else acc c n (Nat.lt_of_succ_lt hn))

/-- At a row tile's first point the step starts from the reset. -/
theorem acc_first (c : Dev nD) (t : Fin cfg1.N) (h : t.val % 8 = 0) : acc V c t.val t.isLt = stepAt V c t reset := by
  obtain ⟨n, hn⟩ := t
  cases n with
  | zero => rfl
  | succ n => exact congrArg (stepAt V c ⟨n + 1, hn⟩) (if_pos h)

/-- At its other points, from what the point before left. -/
theorem acc_next (c : Dev nD) (t : Fin cfg1.N) (h : ¬t.val % 8 = 0) :
    acc V c t.val t.isLt = stepAt V c t (acc V c (t.val - 1) (Nat.lt_of_le_of_lt (Nat.sub_le _ _) t.isLt)) := by
  obtain ⟨n, hn⟩ := t
  cases n with
  | zero => exact absurd (Nat.zero_mod _) h
  | succ n => exact congrArg (stepAt V c ⟨n + 1, hn⟩) (if_neg h)

/-- The four shapes of a point's step, the components spelt out. -/
theorem acc_A (c : Dev nD) (t : Fin cfg1.N) (h0 : t.val % 8 = 0) (h1 : ¬t.val % 8 = (t.val / 8 + 4) % 8) :
    acc V c t.val t.isLt = ⟨k1_pay9 (iblk V c 0 t) (iblk V c 1 t) k1_pay3, k1_pay8 (iblk V c 0 t) (iblk V c 1 t) k1_pay3 k1_pay4, k1_pay5⟩ := by
  rw [acc_first V c t h0]; unfold stepAt reset; rw [if_neg h1]
theorem acc_B (c : Dev nD) (t : Fin cfg1.N) (h0 : t.val % 8 = 0) (h1 : t.val % 8 = (t.val / 8 + 4) % 8) :
    acc V c t.val t.isLt = ⟨k1_pay9 (iblk V c 0 t) (iblk V c 1 t) k1_pay3, k1_pay8 (iblk V c 0 t) (iblk V c 1 t) k1_pay3 k1_pay4, k1_pay1 (k1_pay6 (iblk V c 0 t) (iblk V c 1 t))⟩ := by
  rw [acc_first V c t h0]; unfold stepAt reset; rw [if_pos h1]
theorem acc_C (c : Dev nD) (t : Fin cfg1.N) (h0 : ¬t.val % 8 = 0) (h1 : ¬t.val % 8 = (t.val / 8 + 4) % 8) :
    acc V c t.val t.isLt = ⟨k1_pay9 (iblk V c 0 t) (iblk V c 1 t) (acc V c (t.val - 1) (Nat.lt_of_le_of_lt (Nat.sub_le _ _) t.isLt)).m,
      k1_pay8 (iblk V c 0 t) (iblk V c 1 t) (acc V c (t.val - 1) (Nat.lt_of_le_of_lt (Nat.sub_le _ _) t.isLt)).m (acc V c (t.val - 1) (Nat.lt_of_le_of_lt (Nat.sub_le _ _) t.isLt)).l,
      (acc V c (t.val - 1) (Nat.lt_of_le_of_lt (Nat.sub_le _ _) t.isLt)).p⟩ := by
  rw [acc_next V c t h0]; unfold stepAt; rw [if_neg h1]
theorem acc_D (c : Dev nD) (t : Fin cfg1.N) (h0 : ¬t.val % 8 = 0) (h1 : t.val % 8 = (t.val / 8 + 4) % 8) :
    acc V c t.val t.isLt = ⟨k1_pay9 (iblk V c 0 t) (iblk V c 1 t) (acc V c (t.val - 1) (Nat.lt_of_le_of_lt (Nat.sub_le _ _) t.isLt)).m,
      k1_pay8 (iblk V c 0 t) (iblk V c 1 t) (acc V c (t.val - 1) (Nat.lt_of_le_of_lt (Nat.sub_le _ _) t.isLt)).m (acc V c (t.val - 1) (Nat.lt_of_le_of_lt (Nat.sub_le _ _) t.isLt)).l,
      k1_pay1 (k1_pay6 (iblk V c 0 t) (iblk V c 1 t))⟩ := by
  rw [acc_next V c t h0]; unfold stepAt; rw [if_pos h1]

end Cert.KernelIdeal.Region1

end
-- ==== Proof.Region1RunA.lean ====
/-
  Region 1's body in the case where the column tile is 0 and neither the row tile's partner nor the last: on whole memrefs, the two input
  blocks at `q` (rows) and `k` (columns), the output buffer at `xo`, the three scratch buffers at `xm`, `xl`, `xp`, the body
  runs to the continuation holding the inputs as they were and each other buffer at what the case's stores leave, stated
  over the payloads: the running maximum, sum and positive logit are first reset; the sum and the maximum are advanced by the tile of logits of `q` against `k`; the output buffer is untouched.
  Every access is of a whole buffer, so a buffer's contents after a store are the store's payload and a load reads the
  contents (`readAt_big`, `readAt_col`, `readCov_col`, `canon_col`).
-/
import proofs.«132639_j29025388987032_1_alg».proof.Proof.Region1Base

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runA (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc0 : cond0 i) (hc1 : ¬cond1 i) (hc2 : ¬cond2 i)
    (q k : Vec F S1024x128 .f32) (xo xm xl xp : Vec F S1024x1 .f32) (E : Set ℕ) (K : PUnit → sProp 𝕄) :
    iprop(owns (c : Thread nD τ) arg2 fullShare (q) ∗ owns (c : Thread nD τ) arg3 fullShare (k) ∗ owns (c : Thread nD τ) arg4 fullShare (xo)
        ∗ owns (c : Thread nD τ) arg5 fullShare (xm) ∗ owns (c : Thread nD τ) arg6 fullShare (xl) ∗ owns (c : Thread nD τ) arg7 fullShare (xp)
        ∗ (iprop(owns (c : Thread nD τ) arg2 fullShare (q) ∗ owns (c : Thread nD τ) arg3 fullShare (k)
            ∗ owns (c : Thread nD τ) arg4 fullShare (xo)
            ∗ owns (c : Thread nD τ) arg5 fullShare (k1_pay9 q k k1_pay3)
            ∗ owns (c : Thread nD τ) arg6 fullShare (k1_pay8 q k k1_pay3 k1_pay4)
            ∗ owns (c : Thread nD τ) arg7 fullShare (k1_pay5)) -∗ K ⟨⟩))
      ⊢ wp frame (wpE (defs₀ (F := F)) Variants.none c none) E (cc1__nce_kernel i arg2 harg2 arg3 harg3 arg4 harg4 arg5 harg5 arg6 harg6 arg7 harg7) K := by
  simp only [cc1__nce_kernel_eq_skeleton]; unfold cc1__nce_kernel_skel
  simp only [k1_part1_eq_skeleton]; unfold k1_part1_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  subst hf0 hf1 hf4 hf5 hf6 hf7
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  isplitl [H5]
  · iexists _; isplitr
    swap; · iexact H5
    ipureintro
    exact (View.read_writes_eq_canon _ _ _ (cover_col _ _)).trans ((canon_col _ _).trans (congr (congr (congrArg k1_pay9 (readAt_big _ _)) (readAt_big _ _)) (readCov_col _ _ _)))
  isplitl [H6]
  · iexists _; isplitr
    swap; · iexact H6
    ipureintro
    exact (View.read_writes_eq_canon _ _ _ (cover_col _ _)).trans ((canon_col _ _).trans (congr (congr (congr (congrArg k1_pay8 (readAt_big _ _)) (readAt_big _ _)) (readCov_col _ _ _)) (readCov_col _ _ _)))
  iexists _; isplitr
  swap; · iexact H7
  ipureintro
  exact (View.read_writes_eq_canon _ _ _ (cover_col _ _)).trans ((canon_col _ _).trans rfl)

end Cert.KernelIdeal.Region1

end
-- ==== Proof.Region1RunB.lean ====
/-
  Region 1's body in the case where the column tile is 0 and the row tile's partner (row tile 4), not the last: on whole memrefs, the two input
  blocks at `q` (rows) and `k` (columns), the output buffer at `xo`, the three scratch buffers at `xm`, `xl`, `xp`, the body
  runs to the continuation holding the inputs as they were and each other buffer at what the case's stores leave, stated
  over the payloads: the running maximum, sum and positive logit are first reset; the sum and the maximum are advanced by the tile of logits of `q` against `k`; the positive logit is the tile's diagonal; the output buffer is untouched.
  Every access is of a whole buffer, so a buffer's contents after a store are the store's payload and a load reads the
  contents (`readAt_big`, `readAt_col`, `readCov_col`, `canon_col`).
-/
import proofs.«132639_j29025388987032_1_alg».proof.Proof.Region1Base

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runB (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc0 : cond0 i) (hc1 : cond1 i) (hc2 : ¬cond2 i)
    (q k : Vec F S1024x128 .f32) (xo xm xl xp : Vec F S1024x1 .f32) (E : Set ℕ) (K : PUnit → sProp 𝕄) :
    iprop(owns (c : Thread nD τ) arg2 fullShare (q) ∗ owns (c : Thread nD τ) arg3 fullShare (k) ∗ owns (c : Thread nD τ) arg4 fullShare (xo)
        ∗ owns (c : Thread nD τ) arg5 fullShare (xm) ∗ owns (c : Thread nD τ) arg6 fullShare (xl) ∗ owns (c : Thread nD τ) arg7 fullShare (xp)
        ∗ (iprop(owns (c : Thread nD τ) arg2 fullShare (q) ∗ owns (c : Thread nD τ) arg3 fullShare (k)
            ∗ owns (c : Thread nD τ) arg4 fullShare (xo)
            ∗ owns (c : Thread nD τ) arg5 fullShare (k1_pay9 q k k1_pay3)
            ∗ owns (c : Thread nD τ) arg6 fullShare (k1_pay8 q k k1_pay3 k1_pay4)
            ∗ owns (c : Thread nD τ) arg7 fullShare (k1_pay1 (k1_pay6 q k))) -∗ K ⟨⟩))
      ⊢ wp frame (wpE (defs₀ (F := F)) Variants.none c none) E (cc1__nce_kernel i arg2 harg2 arg3 harg3 arg4 harg4 arg5 harg5 arg6 harg6 arg7 harg7) K := by
  simp only [cc1__nce_kernel_eq_skeleton]; unfold cc1__nce_kernel_skel
  simp only [k1_part1_eq_skeleton]; unfold k1_part1_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  subst hf0 hf1 hf4 hf5 hf6 hf7
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  isplitl [H5]
  · iexists _; isplitr
    swap; · iexact H5
    ipureintro
    exact (View.read_writes_eq_canon _ _ _ (cover_col _ _)).trans ((canon_col _ _).trans (congr (congr (congrArg k1_pay9 (readAt_big _ _)) (readAt_big _ _)) (readCov_col _ _ _)))
  isplitl [H6]
  · iexists _; isplitr
    swap; · iexact H6
    ipureintro
    exact (View.read_writes_eq_canon _ _ _ (cover_col _ _)).trans ((canon_col _ _).trans (congr (congr (congr (congrArg k1_pay8 (readAt_big _ _)) (readAt_big _ _)) (readCov_col _ _ _)) (readCov_col _ _ _)))
  iexists _; isplitr
  swap; · iexact H7
  ipureintro
  exact (View.read_writes_eq_canon _ _ _ (cover_col _ _)).trans ((canon_col _ _).trans (congrArg k1_pay1 (congr (congrArg k1_pay6 (readAt_big _ _)) (readAt_big _ _))))

end Cert.KernelIdeal.Region1

end
-- ==== Proof.Region1RunC.lean ====
/-
  Region 1's body in the case where the column tile is neither 0, nor the row tile's partner, nor the last: on whole memrefs, the two input
  blocks at `q` (rows) and `k` (columns), the output buffer at `xo`, the three scratch buffers at `xm`, `xl`, `xp`, the body
  runs to the continuation holding the inputs as they were and each other buffer at what the case's stores leave, stated
  over the payloads: the sum and the maximum are advanced by the tile of logits of `q` against `k`; the output buffer is untouched.
  Every access is of a whole buffer, so a buffer's contents after a store are the store's payload and a load reads the
  contents (`readAt_big`, `readAt_col`, `readCov_col`, `canon_col`).
-/
import proofs.«132639_j29025388987032_1_alg».proof.Proof.Region1Base

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runC (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc0 : ¬cond0 i) (hc1 : ¬cond1 i) (hc2 : ¬cond2 i)
    (q k : Vec F S1024x128 .f32) (xo xm xl xp : Vec F S1024x1 .f32) (E : Set ℕ) (K : PUnit → sProp 𝕄) :
    iprop(owns (c : Thread nD τ) arg2 fullShare (q) ∗ owns (c : Thread nD τ) arg3 fullShare (k) ∗ owns (c : Thread nD τ) arg4 fullShare (xo)
        ∗ owns (c : Thread nD τ) arg5 fullShare (xm) ∗ owns (c : Thread nD τ) arg6 fullShare (xl) ∗ owns (c : Thread nD τ) arg7 fullShare (xp)
        ∗ (iprop(owns (c : Thread nD τ) arg2 fullShare (q) ∗ owns (c : Thread nD τ) arg3 fullShare (k)
            ∗ owns (c : Thread nD τ) arg4 fullShare (xo)
            ∗ owns (c : Thread nD τ) arg5 fullShare (k1_pay9 q k xm)
            ∗ owns (c : Thread nD τ) arg6 fullShare (k1_pay8 q k xm xl)
            ∗ owns (c : Thread nD τ) arg7 fullShare (xp)) -∗ K ⟨⟩))
      ⊢ wp frame (wpE (defs₀ (F := F)) Variants.none c none) E (cc1__nce_kernel i arg2 harg2 arg3 harg3 arg4 harg4 arg5 harg5 arg6 harg6 arg7 harg7) K := by
  simp only [cc1__nce_kernel_eq_skeleton]; unfold cc1__nce_kernel_skel
  simp only [k1_part1_eq_skeleton]; unfold k1_part1_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  subst hf0 hf1 hf4 hf5 hf6 hf7
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  isplitl [H5]
  · iexists _; isplitr
    swap; · iexact H5
    ipureintro
    exact (View.read_writes_eq_canon _ _ _ (cover_col _ _)).trans ((canon_col _ _).trans (congr (congr (congrArg k1_pay9 (readAt_big _ _)) (readAt_big _ _)) (readAt_col _ _)))
  isplitl [H6]
  · iexists _; isplitr
    swap; · iexact H6
    ipureintro
    exact (View.read_writes_eq_canon _ _ _ (cover_col _ _)).trans ((canon_col _ _).trans (congr (congr (congr (congrArg k1_pay8 (readAt_big _ _)) (readAt_big _ _)) (readAt_col _ _)) (readAt_col _ _)))
  iexists f7; isplitr; · ipureintro; rfl
  iexact H7

end Cert.KernelIdeal.Region1

end
-- ==== Proof.Region1RunD.lean ====
/-
  Region 1's body in the case where the column tile is the row tile's partner, neither 0 nor the last: on whole memrefs, the two input
  blocks at `q` (rows) and `k` (columns), the output buffer at `xo`, the three scratch buffers at `xm`, `xl`, `xp`, the body
  runs to the continuation holding the inputs as they were and each other buffer at what the case's stores leave, stated
  over the payloads: the sum and the maximum are advanced by the tile of logits of `q` against `k`; the positive logit is the tile's diagonal; the output buffer is untouched.
  Every access is of a whole buffer, so a buffer's contents after a store are the store's payload and a load reads the
  contents (`readAt_big`, `readAt_col`, `readCov_col`, `canon_col`).
-/
import proofs.«132639_j29025388987032_1_alg».proof.Proof.Region1Base

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runD (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc0 : ¬cond0 i) (hc1 : cond1 i) (hc2 : ¬cond2 i)
    (q k : Vec F S1024x128 .f32) (xo xm xl xp : Vec F S1024x1 .f32) (E : Set ℕ) (K : PUnit → sProp 𝕄) :
    iprop(owns (c : Thread nD τ) arg2 fullShare (q) ∗ owns (c : Thread nD τ) arg3 fullShare (k) ∗ owns (c : Thread nD τ) arg4 fullShare (xo)
        ∗ owns (c : Thread nD τ) arg5 fullShare (xm) ∗ owns (c : Thread nD τ) arg6 fullShare (xl) ∗ owns (c : Thread nD τ) arg7 fullShare (xp)
        ∗ (iprop(owns (c : Thread nD τ) arg2 fullShare (q) ∗ owns (c : Thread nD τ) arg3 fullShare (k)
            ∗ owns (c : Thread nD τ) arg4 fullShare (xo)
            ∗ owns (c : Thread nD τ) arg5 fullShare (k1_pay9 q k xm)
            ∗ owns (c : Thread nD τ) arg6 fullShare (k1_pay8 q k xm xl)
            ∗ owns (c : Thread nD τ) arg7 fullShare (k1_pay1 (k1_pay6 q k))) -∗ K ⟨⟩))
      ⊢ wp frame (wpE (defs₀ (F := F)) Variants.none c none) E (cc1__nce_kernel i arg2 harg2 arg3 harg3 arg4 harg4 arg5 harg5 arg6 harg6 arg7 harg7) K := by
  simp only [cc1__nce_kernel_eq_skeleton]; unfold cc1__nce_kernel_skel
  simp only [k1_part1_eq_skeleton]; unfold k1_part1_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  subst hf0 hf1 hf4 hf5 hf6 hf7
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  isplitl [H5]
  · iexists _; isplitr
    swap; · iexact H5
    ipureintro
    exact (View.read_writes_eq_canon _ _ _ (cover_col _ _)).trans ((canon_col _ _).trans (congr (congr (congrArg k1_pay9 (readAt_big _ _)) (readAt_big _ _)) (readAt_col _ _)))
  isplitl [H6]
  · iexists _; isplitr
    swap; · iexact H6
    ipureintro
    exact (View.read_writes_eq_canon _ _ _ (cover_col _ _)).trans ((canon_col _ _).trans (congr (congr (congr (congrArg k1_pay8 (readAt_big _ _)) (readAt_big _ _)) (readAt_col _ _)) (readAt_col _ _)))
  iexists _; isplitr
  swap; · iexact H7
  ipureintro
  exact (View.read_writes_eq_canon _ _ _ (cover_col _ _)).trans ((canon_col _ _).trans (congrArg k1_pay1 (congr (congrArg k1_pay6 (readAt_big _ _)) (readAt_big _ _))))

end Cert.KernelIdeal.Region1

end
-- ==== Proof.Region1RunE.lean ====
/-
  Region 1's body in the case where the column tile is 7, the last, and not the row tile's partner: on whole memrefs, the two input
  blocks at `q` (rows) and `k` (columns), the output buffer at `xo`, the three scratch buffers at `xm`, `xl`, `xp`, the body
  runs to the continuation holding the inputs as they were and each other buffer at what the case's stores leave, stated
  over the payloads: the sum and the maximum are advanced by the tile of logits of `q` against `k`; the output is the positive logit minus the log-sum-exp.
  Every access is of a whole buffer, so a buffer's contents after a store are the store's payload and a load reads the
  contents (`readAt_big`, `readAt_col`, `readCov_col`, `canon_col`).
-/
import proofs.«132639_j29025388987032_1_alg».proof.Proof.Region1Base

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runE (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc0 : ¬cond0 i) (hc1 : ¬cond1 i) (hc2 : cond2 i)
    (q k : Vec F S1024x128 .f32) (xo xm xl xp : Vec F S1024x1 .f32) (E : Set ℕ) (K : PUnit → sProp 𝕄) :
    iprop(owns (c : Thread nD τ) arg2 fullShare (q) ∗ owns (c : Thread nD τ) arg3 fullShare (k) ∗ owns (c : Thread nD τ) arg4 fullShare (xo)
        ∗ owns (c : Thread nD τ) arg5 fullShare (xm) ∗ owns (c : Thread nD τ) arg6 fullShare (xl) ∗ owns (c : Thread nD τ) arg7 fullShare (xp)
        ∗ (iprop(owns (c : Thread nD τ) arg2 fullShare (q) ∗ owns (c : Thread nD τ) arg3 fullShare (k)
            ∗ owns (c : Thread nD τ) arg4 fullShare (k1_pay2 (xp) (k1_pay9 q k xm) (k1_pay8 q k xm xl))
            ∗ owns (c : Thread nD τ) arg5 fullShare (k1_pay9 q k xm)
            ∗ owns (c : Thread nD τ) arg6 fullShare (k1_pay8 q k xm xl)
            ∗ owns (c : Thread nD τ) arg7 fullShare (xp)) -∗ K ⟨⟩))
      ⊢ wp frame (wpE (defs₀ (F := F)) Variants.none c none) E (cc1__nce_kernel i arg2 harg2 arg3 harg3 arg4 harg4 arg5 harg5 arg6 harg6 arg7 harg7) K := by
  simp only [cc1__nce_kernel_eq_skeleton]; unfold cc1__nce_kernel_skel
  simp only [k1_part1_eq_skeleton]; unfold k1_part1_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  subst hf0 hf1 hf4 hf5 hf6 hf7
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    exact (View.read_writes_eq_canon _ _ _ (cover_col _ _)).trans ((canon_col _ _).trans (congr (congr (congrArg k1_pay2 (readAt_col _ _)) ((readCov_col _ _ _).trans (congr (congr (congrArg k1_pay9 (readAt_big _ _)) (readAt_big _ _)) (readAt_col _ _)))) ((readCov_col _ _ _).trans (congr (congr (congr (congrArg k1_pay8 (readAt_big _ _)) (readAt_big _ _)) (readAt_col _ _)) (readAt_col _ _)))))
  isplitl [H5]
  · iexists _; isplitr
    swap; · iexact H5
    ipureintro
    exact (View.read_writes_eq_canon _ _ _ (cover_col _ _)).trans ((canon_col _ _).trans (congr (congr (congrArg k1_pay9 (readAt_big _ _)) (readAt_big _ _)) (readAt_col _ _)))
  isplitl [H6]
  · iexists _; isplitr
    swap; · iexact H6
    ipureintro
    exact (View.read_writes_eq_canon _ _ _ (cover_col _ _)).trans ((canon_col _ _).trans (congr (congr (congr (congrArg k1_pay8 (readAt_big _ _)) (readAt_big _ _)) (readAt_col _ _)) (readAt_col _ _)))
  iexists f7; isplitr; · ipureintro; rfl
  iexact H7

end Cert.KernelIdeal.Region1

end
-- ==== Proof.Region1RunG.lean ====
/-
  Region 1's body in the case where the column tile is 7, the last, and the row tile's partner (row tile 3): on whole memrefs, the two input
  blocks at `q` (rows) and `k` (columns), the output buffer at `xo`, the three scratch buffers at `xm`, `xl`, `xp`, the body
  runs to the continuation holding the inputs as they were and each other buffer at what the case's stores leave, stated
  over the payloads: the sum and the maximum are advanced by the tile of logits of `q` against `k`; the positive logit is the tile's diagonal; the output is the positive logit minus the log-sum-exp.
  Every access is of a whole buffer, so a buffer's contents after a store are the store's payload and a load reads the
  contents (`readAt_big`, `readAt_col`, `readCov_col`, `canon_col`).
-/
import proofs.«132639_j29025388987032_1_alg».proof.Proof.Region1Base

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem runG (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc0 : ¬cond0 i) (hc1 : cond1 i) (hc2 : cond2 i)
    (q k : Vec F S1024x128 .f32) (xo xm xl xp : Vec F S1024x1 .f32) (E : Set ℕ) (K : PUnit → sProp 𝕄) :
    iprop(owns (c : Thread nD τ) arg2 fullShare (q) ∗ owns (c : Thread nD τ) arg3 fullShare (k) ∗ owns (c : Thread nD τ) arg4 fullShare (xo)
        ∗ owns (c : Thread nD τ) arg5 fullShare (xm) ∗ owns (c : Thread nD τ) arg6 fullShare (xl) ∗ owns (c : Thread nD τ) arg7 fullShare (xp)
        ∗ (iprop(owns (c : Thread nD τ) arg2 fullShare (q) ∗ owns (c : Thread nD τ) arg3 fullShare (k)
            ∗ owns (c : Thread nD τ) arg4 fullShare (k1_pay2 (k1_pay1 (k1_pay6 q k)) (k1_pay9 q k xm) (k1_pay8 q k xm xl))
            ∗ owns (c : Thread nD τ) arg5 fullShare (k1_pay9 q k xm)
            ∗ owns (c : Thread nD τ) arg6 fullShare (k1_pay8 q k xm xl)
            ∗ owns (c : Thread nD τ) arg7 fullShare (k1_pay1 (k1_pay6 q k))) -∗ K ⟨⟩))
      ⊢ wp frame (wpE (defs₀ (F := F)) Variants.none c none) E (cc1__nce_kernel i arg2 harg2 arg3 harg3 arg4 harg4 arg5 harg5 arg6 harg6 arg7 harg7) K := by
  simp only [cc1__nce_kernel_eq_skeleton]; unfold cc1__nce_kernel_skel
  simp only [k1_part1_eq_skeleton]; unfold k1_part1_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
  subst hf0 hf1 hf4 hf5 hf6 hf7
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    exact (View.read_writes_eq_canon _ _ _ (cover_col _ _)).trans ((canon_col _ _).trans (congr (congr (congrArg k1_pay2 ((readCov_col _ _ _).trans (congrArg k1_pay1 (congr (congrArg k1_pay6 (readAt_big _ _)) (readAt_big _ _))))) ((readCov_col _ _ _).trans (congr (congr (congrArg k1_pay9 (readAt_big _ _)) (readAt_big _ _)) (readAt_col _ _)))) ((readCov_col _ _ _).trans (congr (congr (congr (congrArg k1_pay8 (readAt_big _ _)) (readAt_big _ _)) (readAt_col _ _)) (readAt_col _ _)))))
  isplitl [H5]
  · iexists _; isplitr
    swap; · iexact H5
    ipureintro
    exact (View.read_writes_eq_canon _ _ _ (cover_col _ _)).trans ((canon_col _ _).trans (congr (congr (congrArg k1_pay9 (readAt_big _ _)) (readAt_big _ _)) (readAt_col _ _)))
  isplitl [H6]
  · iexists _; isplitr
    swap; · iexact H6
    ipureintro
    exact (View.read_writes_eq_canon _ _ _ (cover_col _ _)).trans ((canon_col _ _).trans (congr (congr (congr (congrArg k1_pay8 (readAt_big _ _)) (readAt_big _ _)) (readAt_col _ _)) (readAt_col _ _)))
  iexists _; isplitr
  swap; · iexact H7
  ipureintro
  exact (View.read_writes_eq_canon _ _ _ (cover_col _ _)).trans ((canon_col _ _).trans (congrArg k1_pay1 (congr (congrArg k1_pay6 (readAt_big _ _)) (readAt_big _ _))))

end Cert.KernelIdeal.Region1

end
-- ==== Proof.Region1.lean ====
/-
  Region 1 of the idealized kernel at the contents `V` the region finds in its arrays: point by point over the 8 x 8
  grid (point t is row tile t / 8 against column tile t % 8), what the three scratch buffers hold after each point — the
  running row maximum, the running sum of exponentials rescaled to that maximum, and the positive logit (the diagonal of
  the tile of the partner column tile) —, the loss block the output window's buffer holds after the last column tile of
  a row tile, the pipeline's proof data and the body obligation at every point.
  The values are carried from one point of a row tile to the next in the scratch buffers and reset at its first point,
  so the invariant before a point names the scratch contents the point before left; before the first point of all it is
  the class's (every scratch at anything), and the first point's reset overwrites them before any read.
-/
import proofs.«132639_j29025388987032_1_alg».proof.Proof.Region1Acc
import proofs.«132639_j29025388987032_1_alg».proof.Proof.Region1RunA
import proofs.«132639_j29025388987032_1_alg».proof.Proof.Region1RunB
import proofs.«132639_j29025388987032_1_alg».proof.Proof.Region1RunC
import proofs.«132639_j29025388987032_1_alg».proof.Proof.Region1RunD
import proofs.«132639_j29025388987032_1_alg».proof.Proof.Region1RunE
import proofs.«132639_j29025388987032_1_alg».proof.Proof.Region1RunG

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The region invariant -/

/-- Before position `n`: before the first point the class's invariant (every scratch at anything); afterwards the three
    scratch buffers at what the point before left, the other scoped buffers at anything, the generator register at some state. -/
def PhiS (c : Dev nD) : (n : ℕ) → n ≤ cfg1.N → sProp 𝕄
  | 0, _ => Pipeline.ΦA spec1 c
  | n + 1, hn => iprop(withRest c iprop(owns (c : Thread nD τ) scM fullShare (acc V c n hn).m ∗ owns (c : Thread nD τ) scL fullShare (acc V c n hn).l ∗ owns (c : Thread nD τ) scP fullShare (acc V c n hn).p) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(withRest c iprop(owns (c : Thread nD τ) scM fullShare (acc V c n hn).m ∗ owns (c : Thread nD τ) scL fullShare (acc V c n hn).l ∗ owns (c : Thread nD τ) scP fullShare (acc V c n hn).p) ∗ (∃ r, prngReg c r)) := rfl

theorem PhiS_pos (c : Dev nD) (n : ℕ) (h : n ≤ cfg1.N) (hz : n ≠ 0) :
    PhiS V c n h = iprop(withRest c iprop(owns (c : Thread nD τ) scM fullShare (acc V c (n - 1) (by omega)).m ∗ owns (c : Thread nD τ) scL fullShare (acc V c (n - 1) (by omega)).l ∗ owns (c : Thread nD τ) scP fullShare (acc V c (n - 1) (by omega)).p) ∗ (∃ r, prngReg c r)) := by
  cases n with
  | zero => exact absurd rfl hz
  | succ n => rfl

/-! ## The proof data -/

/-- The proof data of the pipeline on core `c`, the share of each window's array a parameter: the arrays as the region
    finds them; after the body at point `t` each input's buffer at its block and the output's at the loss of the values the
    scratch buffers then hold (the positive logit minus the maximum plus the logarithm of the sum) — what the window
    writes back at a row tile's last point, and a value nothing reads at the others, where the window is idle. -/
def dat (qs : Fin cfg1.W → PosShare TreeShare) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay2 (acc V c t.val t.isLt).p (acc V c t.val t.isLt).m (acc V c t.val t.isLt).l
  Φ t := PhiS V c t.val (Nat.le_of_lt_succ t.isLt)
  q := qs
  owed _ := 0

theorem A_eq (qs : Fin cfg1.W → PosShare TreeShare) (c : Dev nD) (w : Fin cfg1.W) : (dat V qs c).A w = V c (Pipeline.arrRef spec1 w) := by
  dsimp only [dat]

theorem PhiS_castSucc (qs : Fin cfg1.W → PosShare TreeShare) (c : Dev nD) (t : Fin cfg1.N) :
    (dat V qs c).Φ t.castSucc = PhiS V c t.val (Nat.le_of_lt t.isLt) := by
  dsimp only [dat]; simp only [Fin.coe_castSucc]

/-- The two input windows' buffers are left at their blocks. -/
theorem after_in0 (qs : Fin cfg1.W → PosShare TreeShare) (c : Dev nD) (t : Fin cfg1.N) : (dat V qs c).after 0 t = iblk V c 0 t := by dsimp only [dat]
theorem after_in1 (qs : Fin cfg1.W → PosShare TreeShare) (c : Dev nD) (t : Fin cfg1.N) : (dat V qs c).after 1 t = iblk V c 1 t := by dsimp only [dat]
/-- The output window's buffer: the loss of the scratch values after the point. -/
theorem after2 (qs : Fin cfg1.W → PosShare TreeShare) (c : Dev nD) (t : Fin cfg1.N) :
    (dat V qs c).after 2 t = k1_pay2 (acc V c t.val t.isLt).p (acc V c t.val t.isLt).m (acc V c t.val t.isLt).l := by dsimp only [dat]
/-- The same where the window is written back (a row tile's last point). -/
theorem after_out (qs : Fin cfg1.W → PosShare TreeShare) (c : Dev nD) (t : Fin cfg1.N) (h : t.val % 8 = 7) :
    (dat V qs c).after 2 t = k1_pay2 (acc V c t.val t.isLt).p (acc V c t.val t.isLt).m (acc V c t.val t.isLt).l := after2 V qs c t

theorem before0 (qs : Fin cfg1.W → PosShare TreeShare) (c : Dev nD) (t : Fin cfg1.N) (d) : (dat V qs c).before 0 t d = iblk V c 0 t :=
  before0_of V (dat V qs c) (A_eq V qs c 0) (after_in0 V qs c) t d
theorem before1 (qs : Fin cfg1.W → PosShare TreeShare) (c : Dev nD) (t : Fin cfg1.N) (d) : (dat V qs c).before 1 t d = iblk V c 1 t :=
  before1_of V (dat V qs c) (A_eq V qs c 1) (after_in1 V qs c) t d

/-! ## The body obligation -/

/-- A case's run, framed: the other scoped buffers, the generator register and what the core owes pass through, and
    the output window's buffer is handed back as the point requires (`Q2`). -/
theorem frame_body (c : Dev nD) (t : Fin cfg1.N) (q k : Vec F S1024x128 .f32) (xo xm xl xp o' m' l' p' : Vec F S1024x1 .f32)
    (Ow Q2 : sProp 𝕄) (h2 : owns (c : Thread nD τ) (ms2 t) fullShare o' ⊢ Q2)
    (hrun : ∀ K : PUnit → sProp 𝕄,
      iprop(owns (c : Thread nD τ) (ms0 t) fullShare q ∗ owns (c : Thread nD τ) (ms1 t) fullShare k ∗ owns (c : Thread nD τ) (ms2 t) fullShare xo
          ∗ owns (c : Thread nD τ) scM fullShare xm ∗ owns (c : Thread nD τ) scL fullShare xl ∗ owns (c : Thread nD τ) scP fullShare xp
          ∗ (iprop(owns (c : Thread nD τ) (ms0 t) fullShare q ∗ owns (c : Thread nD τ) (ms1 t) fullShare k ∗ owns (c : Thread nD τ) (ms2 t) fullShare o'
              ∗ owns (c : Thread nD τ) scM fullShare m' ∗ owns (c : Thread nD τ) scL fullShare l' ∗ owns (c : Thread nD τ) scP fullShare p') -∗ K ⟨⟩))
        ⊢ wp frame (wpE (defs₀ (F := F)) Variants.none c none) Set.univ (bodyAt1 t) K) :
    iprop(iprop(withRest c iprop(owns (c : Thread nD τ) scM fullShare xm ∗ owns (c : Thread nD τ) scL fullShare xl ∗ owns (c : Thread nD τ) scP fullShare xp) ∗ (∃ r, prngReg c r)) ∗ Ow
        ∗ owns (c : Thread nD τ) (ms0 t) fullShare q ∗ owns (c : Thread nD τ) (ms1 t) fullShare k ∗ owns (c : Thread nD τ) (ms2 t) fullShare xo)
      ⊢ wp frame (wpE (defs₀ (F := F)) Variants.none c none) Set.univ (bodyAt1 t) (fun _ =>
          iprop(iprop(withRest c iprop(owns (c : Thread nD τ) scM fullShare m' ∗ owns (c : Thread nD τ) scL fullShare l' ∗ owns (c : Thread nD τ) scP fullShare p') ∗ (∃ r, prngReg c r)) ∗ Ow
            ∗ owns (c : Thread nD τ) (ms0 t) fullShare q ∗ owns (c : Thread nD τ) (ms1 t) fullShare k ∗ Q2)) := by
  unfold withRest
  iintro ⟨⟨⟨R1, R2, R3, R4, R5, R6, R7, R8, HM, HL, HP⟩, Hg⟩, Ho, H0, H1, H2⟩
  iapply (hrun _)
  isplitl [H0]; · iexact H0
  isplitl [H1]; · iexact H1
  isplitl [H2]; · iexact H2
  isplitl [HM]; · iexact HM
  isplitl [HL]; · iexact HL
  isplitl [HP]; · iexact HP
  iintro ⟨H0, H1, H2, HM, HL, HP⟩
  isplitl [R1 R2 R3 R4 R5 R6 R7 R8 HM HL HP Hg]
  · isplitr [Hg]
    swap; · iexact Hg
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [HM]; · iexact HM
    isplitl [HL]; · iexact HL
    iexact HP
  isplitl [Ho]; · iexact Ho
  isplitl [H0]; · iexact H0
  isplitl [H1]; · iexact H1
  iapply h2; iexact H2

/-- The class's invariant names some contents of the three scratch buffers. -/
theorem PhiA_named (c : Dev nD) :
    (Pipeline.ΦA spec1 c : sProp 𝕄) ⊢ iprop(∃ xm xl xp, iprop(withRest c iprop(owns (c : Thread nD τ) scM fullShare xm ∗ owns (c : Thread nD τ) scL fullShare xl ∗ owns (c : Thread nD τ) scP fullShare xp) ∗ (∃ r, prngReg c r))) := by
  rw [PhiA_eq]; unfold withRest
  iintro ⟨⟨R1, R2, R3, R4, R5, R6, R7, R8, ⟨%dm, HM⟩, ⟨%dl, HL⟩, ⟨%dp, HP⟩⟩, Hg⟩
  iexists dm, dl, dp
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [HM]; · iexact HM
  isplitl [HL]; · iexact HL
  iexact HP

/-- and forgets the ones an invariant names. -/
theorem PhiA_of_named (c : Dev nD) (xm xl xp : Vec F S1024x1 .f32) :
    iprop(withRest c iprop(owns (c : Thread nD τ) scM fullShare xm ∗ owns (c : Thread nD τ) scL fullShare xl ∗ owns (c : Thread nD τ) scP fullShare xp) ∗ (∃ r, prngReg c r)) ⊢ (Pipeline.ΦA spec1 c : sProp 𝕄) := by
  rw [PhiA_eq]; unfold withRest
  iintro ⟨⟨R1, R2, R3, R4, R5, R6, R7, R8, HM, HL, HP⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [HM]; · iexists _; iexact HM
  isplitl [HL]; · iexists _; iexact HL
  iexists _; iexact HP

/-- What the body is called with at point `t`, the windows one by one, -/
def bodyPre (qs : Fin cfg1.W → PosShare TreeShare) (c : Dev nD) (t : Fin cfg1.N) : sProp 𝕄 :=
  iprop((dat V qs c).Φ t.castSucc ∗ (dat V qs c).owesAt () t.castSucc
    ∗ (∃ d, owns (c : Thread nD τ) (ms0 t) fullShare ((dat V qs c).before 0 t d))
    ∗ (∃ d, owns (c : Thread nD τ) (ms1 t) fullShare ((dat V qs c).before 1 t d))
    ∗ (∃ d, owns (c : Thread nD τ) (ms2 t) fullShare ((dat V qs c).before 2 t d)))

/-- and what it returns. -/
def bodyPost (qs : Fin cfg1.W → PosShare TreeShare) (c : Dev nD) (t : Fin cfg1.N) : sProp 𝕄 :=
  iprop((dat V qs c).Φ t.succ ∗ (dat V qs c).owesAt () t.succ
    ∗ (dat V qs c).leavesExact 0 t
    ∗ (dat V qs c).leavesExact 1 t
    ∗ (dat V qs c).leavesExact 2 t)

set_option maxHeartbeats 4000000 in
/-- The body at any point. The inputs' buffers hold their blocks; the closed forms of the three conditions say which case the
    point is in, and that case's run applies with the scratch buffers at what the point before left (at the very first point:
    at anything, the reset overwrites them); it leaves them at the accumulation's values at this point, and the output
    window's buffer untouched where the window is idle, at the loss block at a row tile's last point. -/
theorem sound_body (qs : Fin cfg1.W → PosShare TreeShare) (c : Dev nD) (t : Fin cfg1.N) :
    bodyPre V qs c t ⊢ wp frame (wpE (defs₀ (F := F)) Variants.none c none) Set.univ (bodyAt1 t) (fun _ => bodyPost V qs c t) := by
  unfold bodyPre bodyPost
  simp only [before0, before1]
  rw [show (dat V qs c).owesAt () t.succ = (dat V qs c).owesAt () t.castSucc from rfl]
  rw [show (dat V qs c).Φ t.succ = PhiS V c (t.val + 1) t.isLt from rfl, PhiS_succ]
  rw [show (dat V qs c).leavesExact 0 t = owns (c : Thread nD τ) (ms0 t) fullShare ((dat V qs c).after 0 t) from by
    unfold Dat.leavesExact; rw [liveAt0 t], after_in0]
  rw [show (dat V qs c).leavesExact 1 t = owns (c : Thread nD τ) (ms1 t) fullShare ((dat V qs c).after 1 t) from by
    unfold Dat.leavesExact; rw [liveAt1 t], after_in1]
  have hN : t.val < 64 := lt_of_lt_of_eq t.isLt (show cfg1.N = 64 from N_1)
  by_cases h2 : t.val % 8 = 7
  · have h0 : ¬t.val % 8 = 0 := by omega
    have hz : t.val ≠ 0 := by omega
    rw [show (dat V qs c).leavesExact 2 t = owns (c : Thread nD τ) (ms2 t) fullShare ((dat V qs c).after 2 t) from by
      unfold Dat.leavesExact; rw [liveAt2 t ((hcond2 t).mpr h2)], after2]
    rw [PhiS_castSucc V qs c t, PhiS_pos V c _ _ hz]
    by_cases h1 : t.val % 8 = (t.val / 8 + 4) % 8
    · rw [acc_D V c t h0 h1]
      iintro ⟨HΦ, Ho, ⟨%d0, H0⟩, ⟨%d1, H1⟩, ⟨%d2, H2⟩⟩
      iapply (frame_body c t (iblk V c 0 t) (iblk V c 1 t) ((dat V qs c).before 2 t d2) _ _ _ _ _ _ _ _ _ (Entails.refl _)
        (fun K => runG c (grid1.coords t) _ _ _ _ _ _ _ _ _ _ _ _ (fun h => h0 ((hcond0 t).mp h)) ((hcond1 t).mpr h1) ((hcond2 t).mpr h2) _ _ _ _ _ _ Set.univ K))
      isplitl [HΦ]; · iexact HΦ
      isplitl [Ho]; · iexact Ho
      isplitl [H0]; · iexact H0
      isplitl [H1]; · iexact H1
      iexact H2
    · rw [acc_C V c t h0 h1]
      iintro ⟨HΦ, Ho, ⟨%d0, H0⟩, ⟨%d1, H1⟩, ⟨%d2, H2⟩⟩
      iapply (frame_body c t (iblk V c 0 t) (iblk V c 1 t) ((dat V qs c).before 2 t d2) _ _ _ _ _ _ _ _ _ (Entails.refl _)
        (fun K => runE c (grid1.coords t) _ _ _ _ _ _ _ _ _ _ _ _ (fun h => h0 ((hcond0 t).mp h)) (fun h => h1 ((hcond1 t).mp h)) ((hcond2 t).mpr h2) _ _ _ _ _ _ Set.univ K))
      isplitl [HΦ]; · iexact HΦ
      isplitl [Ho]; · iexact Ho
      isplitl [H0]; · iexact H0
      isplitl [H1]; · iexact H1
      iexact H2
  · rw [Dat.leavesExact_idle (dat V qs c) 2 t (idleAt2 t (fun h => h2 ((hcond2 t).mp h))) (noFlush2 t (fun h => h2 ((hcond2 t).mp h)))]
    by_cases h0 : t.val % 8 = 0
    · by_cases h1 : t.val % 8 = (t.val / 8 + 4) % 8
      · have hz : t.val ≠ 0 := by omega
        rw [PhiS_castSucc V qs c t, PhiS_pos V c _ _ hz, acc_B V c t h0 h1]
        iintro ⟨HΦ, Ho, ⟨%d0, H0⟩, ⟨%d1, H1⟩, ⟨%d2, H2⟩⟩
        have hand : owns (c : Thread nD τ) (ms2 t) fullShare ((dat V qs c).before 2 t d2) ⊢ (iprop(∃ d, owns (c : Thread nD τ) (ms2 t) fullShare ((dat V qs c).before 2 t d)) : sProp 𝕄) := by
          iintro H; iexists d2; iexact H
        iapply (frame_body c t (iblk V c 0 t) (iblk V c 1 t) ((dat V qs c).before 2 t d2) _ _ _ _ _ _ _ _ _ hand
          (fun K => runB c (grid1.coords t) _ _ _ _ _ _ _ _ _ _ _ _ ((hcond0 t).mpr h0) ((hcond1 t).mpr h1) (fun h => h2 ((hcond2 t).mp h)) _ _ _ _ _ _ Set.univ K))
        isplitl [HΦ]; · iexact HΦ
        isplitl [Ho]; · iexact Ho
        isplitl [H0]; · iexact H0
        isplitl [H1]; · iexact H1
        iexact H2
      · rw [acc_A V c t h0 h1]
        by_cases hz : t.val = 0
        · rw [PhiS_castSucc V qs c t, PhiS_zero V c _ _ hz]
          refine BIBase.Entails.trans (Laws.sep_mono_left (PhiA_named c)) ?_
          iintro ⟨⟨%xm, %xl, %xp, HΦ⟩, Ho, ⟨%d0, H0⟩, ⟨%d1, H1⟩, ⟨%d2, H2⟩⟩
          have hand : owns (c : Thread nD τ) (ms2 t) fullShare ((dat V qs c).before 2 t d2) ⊢ (iprop(∃ d, owns (c : Thread nD τ) (ms2 t) fullShare ((dat V qs c).before 2 t d)) : sProp 𝕄) := by
            iintro H; iexists d2; iexact H
          iapply (frame_body c t (iblk V c 0 t) (iblk V c 1 t) ((dat V qs c).before 2 t d2) xm xl xp _ _ _ _ _ _ hand
            (fun K => runA c (grid1.coords t) _ _ _ _ _ _ _ _ _ _ _ _ ((hcond0 t).mpr h0) (fun h => h1 ((hcond1 t).mp h)) (fun h => h2 ((hcond2 t).mp h)) _ _ _ _ _ _ Set.univ K))
          isplitl [HΦ]; · iexact HΦ
          isplitl [Ho]; · iexact Ho
          isplitl [H0]; · iexact H0
          isplitl [H1]; · iexact H1
          iexact H2
        · rw [PhiS_castSucc V qs c t, PhiS_pos V c _ _ hz]
          iintro ⟨HΦ, Ho, ⟨%d0, H0⟩, ⟨%d1, H1⟩, ⟨%d2, H2⟩⟩
          have hand : owns (c : Thread nD τ) (ms2 t) fullShare ((dat V qs c).before 2 t d2) ⊢ (iprop(∃ d, owns (c : Thread nD τ) (ms2 t) fullShare ((dat V qs c).before 2 t d)) : sProp 𝕄) := by
            iintro H; iexists d2; iexact H
          iapply (frame_body c t (iblk V c 0 t) (iblk V c 1 t) ((dat V qs c).before 2 t d2) _ _ _ _ _ _ _ _ _ hand
            (fun K => runA c (grid1.coords t) _ _ _ _ _ _ _ _ _ _ _ _ ((hcond0 t).mpr h0) (fun h => h1 ((hcond1 t).mp h)) (fun h => h2 ((hcond2 t).mp h)) _ _ _ _ _ _ Set.univ K))
          isplitl [HΦ]; · iexact HΦ
          isplitl [Ho]; · iexact Ho
          isplitl [H0]; · iexact H0
          isplitl [H1]; · iexact H1
          iexact H2
    · have hz : t.val ≠ 0 := fun h => h0 (by rw [h])
      rw [PhiS_castSucc V qs c t, PhiS_pos V c _ _ hz]
      by_cases h1 : t.val % 8 = (t.val / 8 + 4) % 8
      · rw [acc_D V c t h0 h1]
        iintro ⟨HΦ, Ho, ⟨%d0, H0⟩, ⟨%d1, H1⟩, ⟨%d2, H2⟩⟩
        have hand : owns (c : Thread nD τ) (ms2 t) fullShare ((dat V qs c).before 2 t d2) ⊢ (iprop(∃ d, owns (c : Thread nD τ) (ms2 t) fullShare ((dat V qs c).before 2 t d)) : sProp 𝕄) := by
          iintro H; iexists d2; iexact H
        iapply (frame_body c t (iblk V c 0 t) (iblk V c 1 t) ((dat V qs c).before 2 t d2) _ _ _ _ _ _ _ _ _ hand
          (fun K => runD c (grid1.coords t) _ _ _ _ _ _ _ _ _ _ _ _ (fun h => h0 ((hcond0 t).mp h)) ((hcond1 t).mpr h1) (fun h => h2 ((hcond2 t).mp h)) _ _ _ _ _ _ Set.univ K))
        isplitl [HΦ]; · iexact HΦ
        isplitl [Ho]; · iexact Ho
        isplitl [H0]; · iexact H0
        isplitl [H1]; · iexact H1
        iexact H2
      · rw [acc_C V c t h0 h1]
        iintro ⟨HΦ, Ho, ⟨%d0, H0⟩, ⟨%d1, H1⟩, ⟨%d2, H2⟩⟩
        have hand : owns (c : Thread nD τ) (ms2 t) fullShare ((dat V qs c).before 2 t d2) ⊢ (iprop(∃ d, owns (c : Thread nD τ) (ms2 t) fullShare ((dat V qs c).before 2 t d)) : sProp 𝕄) := by
          iintro H; iexists d2; iexact H
        iapply (frame_body c t (iblk V c 0 t) (iblk V c 1 t) ((dat V qs c).before 2 t d2) _ _ _ _ _ _ _ _ _ hand
          (fun K => runC c (grid1.coords t) _ _ _ _ _ _ _ _ _ _ _ _ (fun h => h0 ((hcond0 t).mp h)) (fun h => h1 ((hcond1 t).mp h)) (fun h => h2 ((hcond2 t).mp h)) _ _ _ _ _ _ Set.univ K))
        isplitl [HΦ]; · iexact HΦ
        isplitl [Ho]; · iexact Ho
        isplitl [H0]; · iexact H0
        isplitl [H1]; · iexact H1
        iexact H2

/-- The library's body obligation, at every point. -/
theorem body_obligation (qs : Fin cfg1.W → PosShare TreeShare) (c : Dev nD) :
    BodyObligation (dat (F := F) V qs c) (defs₀ (F := F)) Variants.none () Set.univ := fun t => by
  rw [bigSep_W1, bigSep_W1]
  exact sound_body V qs c t

/-- What the launch hands the region is the invariant before the first point. -/
theorem hin (qs : Fin cfg1.W → PosShare TreeShare) (c : Dev nD) : Pipeline.ΦA spec1 c ⊢ (dat V qs c).Φ 0 := by
  rw [show (dat V qs c).Φ 0 = PhiS V c 0 (Nat.zero_le _) from rfl, PhiS_zero V c 0 _ rfl]
  try exact Idealize.SL.BI.Entails.refl _

/-- After the last point the invariant gives the class's back: the scratch buffers' named contents are forgotten. -/
theorem hout (qs : Fin cfg1.W → PosShare TreeShare) (c : Dev nD) : (dat V qs c).Φ (Fin.last cfg1.N) ⊢ Pipeline.ΦA spec1 c := by
  have hne : (Fin.last cfg1.N).val ≠ 0 := by rw [Fin.val_last]; have : cfg1.N = 64 := N_1; omega
  rw [show (dat V qs c).Φ (Fin.last cfg1.N) = PhiS V c (Fin.last cfg1.N).val (Nat.le_of_lt_succ (Fin.last cfg1.N).isLt) from rfl, PhiS_pos V c _ _ hne]
  exact PhiA_of_named c _ _ _

end Cert.KernelIdeal.Region1

end
-- ==== Proof.Inst.lean ====
/-
  Region 1's proof data put in place: the two windows on the feature array hold the two halves of its share, the output
  window's array the full share; with it the whole run and its frame hold with no hypothesis left.
-/
import proofs.«132639_j29025388987032_1_alg».proof.Proof.RunRead
import proofs.«132639_j29025388987032_1_alg».proof.Proof.Region1

set_option maxRecDepth 16384

noncomputable section

namespace Cert.KernelIdeal.Inst

open Cert.KernelIdeal Cert.KernelIdeal.Gen
open Idealize.ShloMosaic Idealize.ShloMosaic.TcCoe
open Idealize.SL Idealize.SL.RA Idealize.SL.Sem
open Idealize.ShloMosaic.Pipeline (Dat)

variable {F : FTy → Type} [FloatOps F] [Named F]

variable (m : (ℓ : Loc nD τ sig) → Buf (Elt F) ℓ) (ρ : Dev nD → PrngReg)

/-- The shares of region 1's windows: the row tile's window and the column tile's window each half of the feature
    array's, the output window's the whole of its array's. -/
def qs : Fin cfg1.W → PosShare TreeShare := fun w => if w.val = 0 then fullShare.left else if w.val = 1 then fullShare.right else fullShare

/-- Region 1's proof data at the contents region 0 leaves. -/
abbrev dat1 (c : Dev nD) : Dat τ (Elt F) Unit ℕ (UR sig nD τ) ℕ cfg1 c := Region1.dat (Run.V2 m ρ) qs c

/-- What the run asks of it. -/
theorem facts1 : Run.Region1Facts m ρ (dat1 m ρ) where
  hA c w := Region1.A_eq (Run.V2 m ρ) qs c w
  hq0 c := rfl
  hq1 c := rfl
  howed c t := rfl
  hrec c t := rfl
  hbody c := Region1.body_obligation (Run.V2 m ρ) qs c
  hin c := Region1.hin (Run.V2 m ρ) qs c
  hout c := Region1.hout (Run.V2 m ρ) qs c

/-- THE FRAME of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Run.frame m ρ (dat1 m ρ) (facts1 m ρ)

end Cert.KernelIdeal.Inst

end
-- ==== Proof.Spec.lean ====
/-
  The function both programs compute, written once over the argument arrays as extended-real-valued functions of
  their coordinates.
  Rows: the 8192 rows are the 4096 rows of the first input followed by the 4096 rows of the second. Each row goes through
  a dense layer (256 to 256) with bias, a rectification, a second dense layer (256 to 128) with bias, and is divided by
  its Euclidean norm floored at a small constant. With f the 8192 x 128 matrix of these rows, the logit of the pair
  (i, j) is the inner product of rows i and j times the reciprocal temperature; row i's value is its logit at the
  paired column i ± 4096 minus the log-sum-exp of its logits, taken the shifted way (subtract the row maximum first);
  the result is minus the mean of the row values.
-/
import Idealize.ShloMosaic.PureOps.Ideal
import Idealize.ShloMosaic.Lib.ValueIdx

noncomputable section

namespace Cert.Spec

open Idealize.ShloMosaic Idealize.ShloMosaic.ValueIdx

/-- The floor of the norm: the float word both programs carry. -/
abbrev eps : EReal := Ideal.ofBits .f32 0x2B8CBCCC#32
/-- The reciprocal temperature: the exact reciprocal of the reference's divisor 9395241/134217728. -/
abbrev cinv : EReal := ((134217728 / 9395241 : ℝ) : EReal)
/-- The number of rows, as the float word both programs divide the sum by. -/
abbrev nrows : EReal := Ideal.ofBits .f32 0x46000000#32

abbrev A4096x256 : Type := (⟨2, ![4096, 256]⟩ : Shape).Idx → EReal
abbrev A256x256 : Type := (⟨2, ![256, 256]⟩ : Shape).Idx → EReal
abbrev A256 : Type := (⟨1, ![256]⟩ : Shape).Idx → EReal
abbrev A256x128 : Type := (⟨2, ![256, 128]⟩ : Shape).Idx → EReal
abbrev A128 : Type := (⟨1, ![128]⟩ : Shape).Idx → EReal

/-- Row `r` of the two inputs stacked: the first input's rows, then the second's. -/
def stacked (x1 x2 : A4096x256) (r : Fin 8192) (k : Fin 256) : EReal :=
  if h : r.val < 4096 then x1 (ix2 (⟨r.val, h⟩ : Fin 4096) k) else x2 (ix2 (⟨r.val - 4096, by omega⟩ : Fin 4096) k)

/-- One row through the first dense layer and the rectification. -/
def hidden (W1 : A256x256) (b1 : A256) (x : Fin 256 → EReal) (h : Fin 256) : EReal :=
  max (∑ k : Fin 256, x k * W1 (ix2 k h) + b1 (ix1 h)) (Ideal.ofBits .f32 0x00000000#32)

/-- One row through both dense layers. -/
def projected (W1 : A256x256) (b1 : A256) (W2 : A256x128) (b2 : A128) (x : Fin 256 → EReal) (p : Fin 128) : EReal :=
  ∑ h : Fin 256, hidden W1 b1 x h * W2 (ix2 h p) + b2 (ix1 p)

/-- One row projected and divided by its floored Euclidean norm. -/
def feature (W1 : A256x256) (b1 : A256) (W2 : A256x128) (b2 : A128) (x : Fin 256 → EReal) (p : Fin 128) : EReal :=
  Ideal.div (projected W1 b1 W2 b2 x p)
    (max (Ideal.sqrt (∑ q : Fin 128, projected W1 b1 W2 b2 x q * projected W1 b1 W2 b2 x q)) eps)

/-- The feature matrix: row `r` of the stacked inputs, projected and normalised. -/
def features (x1 x2 : A4096x256) (W1 : A256x256) (b1 : A256) (W2 : A256x128) (b2 : A128) (r : Fin 8192) (p : Fin 128) : EReal :=
  feature W1 b1 W2 b2 (stacked x1 x2 r) p

/-- The logit of rows `i` and `j`: their inner product times the reciprocal temperature. -/
def logit (f : Fin 8192 → Fin 128 → EReal) (i j : Fin 8192) : EReal := (∑ d : Fin 128, f i d * f j d) * cinv

/-- The column paired with row `i`: the same sample's other view. -/
def pair (i : Fin 8192) : Fin 8192 := ⟨(i.val + 4096) % 8192, Nat.mod_lt _ (by norm_num)⟩

/-- Row `i`'s maximal logit. -/
def rowMax (f : Fin 8192 → Fin 128 → EReal) (i : Fin 8192) : EReal :=
  (Finset.univ : Finset (Fin 8192)).fold max ⊥ (fun j => logit f i j)

/-- Row `i`'s value: its logit at the paired column minus the log-sum-exp of its logits, shifted by the row maximum. -/
def rowValue (f : Fin 8192 → Fin 128 → EReal) (i : Fin 8192) : EReal :=
  (logit f i (pair i) - rowMax f i) - Ideal.log (0 + ∑ j : Fin 8192, Ideal.exp (logit f i j - rowMax f i))

/-- Minus the mean of the row values. -/
def loss (f : Fin 8192 → Fin 128 → EReal) : EReal := -(Ideal.div (0 + ∑ i : Fin 8192, rowValue f i) nrows)

/-- The whole function of the six argument arrays. -/
def result (x1 x2 : A4096x256) (W1 : A256x256) (b1 : A256) (W2 : A256x128) (b2 : A128) : EReal :=
  loss (features x1 x2 W1 b1 W2 b2)

end Cert.Spec

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«132639_j29025388987032_1_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibSelectEq.lean ====
/-
  A select whose condition is an integer equality test, read as an if-then-else on the equality itself.
-/
import Idealize.ShloMosaic.Lib.Affine
import Idealize.ShloMosaic.PureOps

namespace Idealize.ShloMosaic.SelectEq

/-- `select (cmpi eq a b) u v` is `u` when `a = b` and `v` otherwise, at any width and any value type. -/
theorem select_cmpi_eq {α : Type} {w : ℕ} (a b : BitVec w) (u v : α) :
    Scalar.select (IntOp.cmpi .eq a b) u v = if a = b then u else v := by
  unfold Scalar.select
  by_cases h : a = b
  · rw [if_pos h, if_pos (show IntOp.cmpi .eq a b = 1 from IntOp.cmpi_eq.mpr h)]
  · rw [if_neg h, if_neg (fun h' : IntOp.cmpi .eq a b = 1 => h (IntOp.cmpi_eq.mp h'))]

end Idealize.ShloMosaic.SelectEq
-- ==== Proof.LibERealSum.lean ====
/-
  Finite sums of products on the extended reals, when every entry is a real number.

  The coercion of ℝ into the extended reals commutes with finite sums (by induction on the index set: it commutes with the
  sum of two reals and sends 0 to 0), and with products. So an identity between finite sums of products of reals holds on
  the extended reals as soon as every entry involved is the image of a real: a common real factor q of the second operands
  moves out of the sum, Σ_k a_k · (b_k · q) = q · Σ_k a_k · b_k. Without that hypothesis the identity fails: with q = ⊤, one
  b_k · a_k positive and another negative, the left side adds ⊤ and ⊥ while the right side multiplies ⊤ by a real.
-/
import Idealize.ShloMosaic.PureOps.Ideal

open scoped BigOperators

namespace Idealize.ShloMosaic.ERealSum

/-- The coercion of the reals into the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor of the second operands moves out of a finite sum of products of reals. -/
theorem sum_mul_scaled {ι : Type*} [Fintype ι] (a b : ι → EReal) (q : EReal)
    (ha : ∀ k, ∃ r : ℝ, a k = r) (hb : ∀ k, ∃ r : ℝ, b k = r) (hq : ∃ r : ℝ, q = r) :
    ∑ k, a k * (b k * q) = q * ∑ k, a k * b k := by
  choose a' ha using ha
  choose b' hb using hb
  obtain ⟨q', rfl⟩ := hq
  simp only [ha, hb, ← EReal.coe_mul, ← coe_finset_sum]
  congr 1
  rw [Finset.mul_sum]
  exact Finset.sum_congr rfl fun k _ => by ring

end Idealize.ShloMosaic.ERealSum
-- ==== Proof.LibOnlineLse.lean ====
/-
  The online computation of a row's log-sum-exp, tile by tile, on the extended reals.

  A row of logits is walked in tiles of B columns. Two running quantities are kept: the maximum m of the
  entries seen so far (−∞ before the first tile) and the sum l of exp(x − m) over the entries seen so far
  (0 before the first tile). A tile with entries s_0, …, s_{B−1} and maximum c updates them to

      m' = max m c,      l' = exp(m − m') · l + Σ_j exp(s_j − m').

  When every entry is a real number the pair after k ≥ 1 tiles is exactly (M, Σ exp(x − M)), the sums over
  all the entries seen and M their maximum: exp(m − m') · exp(x − m) = exp(x − m') for real x, m, m', and a
  real factor distributes over a finite sum of reals. On the first tile the old maximum is −∞, exp(−∞) = 0
  and the old sum is 0, so the rescaled old sum contributes 0. Both laws used (the exponential of a sum, and
  distributivity) fail at the infinities, which is why the entries are taken real.
-/
import Idealize.ShloMosaic.PureOps.Ideal
import proofs.«132639_j29025388987032_1_alg».proof.Proof.LibERealSum

open scoped BigOperators

namespace Idealize.ShloMosaic.OnlineLse

/-- One tile's update of the running pair (maximum, shifted sum of exponentials): with c the maximum of the
    tile's entries (the fold of max from −∞), the new maximum is m' = max m c and the new sum is
    exp(m − m') · l + Σ_j exp(s_j − m'). -/
noncomputable def step {B : ℕ} (st : EReal × EReal) (s : Fin B → EReal) : EReal × EReal :=
  (max st.1 ((Finset.univ : Finset (Fin B)).fold max ⊥ s),
   Ideal.exp (st.1 - max st.1 ((Finset.univ : Finset (Fin B)).fold max ⊥ s)) * st.2
     + ∑ j, Ideal.exp (s j - max st.1 ((Finset.univ : Finset (Fin B)).fold max ⊥ s)))

/-- The running pair after the first k tiles, from (−∞, 0): tile t has the entries s t 0, …, s t (B−1). -/
noncomputable def run {B : ℕ} (s : ℕ → Fin B → EReal) : ℕ → EReal × EReal
  | 0 => (⊥, 0)
  | k + 1 => step (run s k) (s k)

/-- The coercion of the reals into the extended reals commutes with the maximum of two (it is monotone). -/
theorem coe_max (a b : ℝ) : ((max a b : ℝ) : EReal) = max ((a : ℝ) : EReal) ((b : ℝ) : EReal) :=
  EReal.coe_strictMono.monotone.map_max

/-- A real upper bound of a family of reals that one member attains is the fold of max from −∞ over the
    family: the fold is below every upper bound of the members and of −∞, and above every member. -/
theorem fold_max_coe_eq {n : ℕ} (L : Fin n → ℝ) (M : ℝ) (hle : ∀ j, L j ≤ M) (hat : ∃ j, L j = M) :
    (Finset.univ : Finset (Fin n)).fold max ⊥ (fun j => ((L j : ℝ) : EReal)) = ((M : ℝ) : EReal) := by
  obtain ⟨j, hj⟩ := hat
  apply le_antisymm
  · exact (Finset.fold_max_le _).mpr ⟨bot_le, fun x _ => EReal.coe_le_coe_iff.mpr (hle x)⟩
  · exact (Finset.le_fold_max _).mpr (Or.inr ⟨j, Finset.mem_univ j, by rw [hj]⟩)

/-- The fold of max from −∞ over a nonempty finite family of reals is a real: the greatest member, an upper
    bound of the family that one member attains. -/
theorem fold_max_coe {n : ℕ} (hn : 0 < n) (L : Fin n → ℝ) :
    ∃ M : ℝ, (∀ j, L j ≤ M) ∧ (∃ j, L j = M)
      ∧ (Finset.univ : Finset (Fin n)).fold max ⊥ (fun j => ((L j : ℝ) : EReal)) = ((M : ℝ) : EReal) := by
  have hne : (Finset.univ : Finset (Fin n)).Nonempty := ⟨⟨0, hn⟩, Finset.mem_univ _⟩
  obtain ⟨j, _, hj⟩ := Finset.exists_mem_eq_sup' hne L
  have hle : ∀ i, L i ≤ Finset.univ.sup' hne L := fun i => Finset.le_sup' L (Finset.mem_univ i)
  exact ⟨_, hle, ⟨j, hj.symm⟩, fold_max_coe_eq L _ hle ⟨j, hj.symm⟩⟩

/-- A finite sum of exponentials of differences of reals, computed on the extended reals, is the coerced
    real sum: the difference of two reals is real, its exponential is the real exponential, and the coercion
    commutes with finite sums. -/
theorem sum_exp_coe {ι : Type*} [Fintype ι] (f : ι → ℝ) (M : ℝ) :
    ∑ j, Ideal.exp (((f j : ℝ) : EReal) - ((M : ℝ) : EReal)) = ((∑ j, Real.exp (f j - M) : ℝ) : EReal) := by
  rw [ERealSum.coe_finset_sum]
  exact Finset.sum_congr rfl fun j _ => by rw [← EReal.coe_sub, Ideal.exp_coe]

/-- The first tile, from (−∞, 0): the new maximum is the tile's maximum c, and the new sum is Σ_j exp(s_j − c),
    since −∞ − c = −∞, exp(−∞) = 0 and 0 · 0 = 0. -/
theorem step_init {B : ℕ} (c : ℝ) (s : Fin B → ℝ)
    (hc : (Finset.univ : Finset (Fin B)).fold max ⊥ (fun j => ((s j : ℝ) : EReal)) = ((c : ℝ) : EReal)) :
    step ((⊥ : EReal), (0 : EReal)) (fun j => ((s j : ℝ) : EReal))
      = (((c : ℝ) : EReal), ((∑ j, Real.exp (s j - c) : ℝ) : EReal)) := by
  unfold step
  simp only [hc, bot_le, max_eq_right, EReal.bot_sub, Ideal.exp_bot, mul_zero, zero_add]
  rw [sum_exp_coe]

/-- A later tile, from a real pair (m, l): every operation stays in the reals, so the new pair is
    (max m c, exp(m − max m c) · l + Σ_j exp(s_j − max m c)) computed in the reals. -/
theorem step_coe {B : ℕ} (m l c : ℝ) (s : Fin B → ℝ)
    (hc : (Finset.univ : Finset (Fin B)).fold max ⊥ (fun j => ((s j : ℝ) : EReal)) = ((c : ℝ) : EReal)) :
    step (((m : ℝ) : EReal), ((l : ℝ) : EReal)) (fun j => ((s j : ℝ) : EReal))
      = (((max m c : ℝ) : EReal),
         ((Real.exp (m - max m c) * l + ∑ j, Real.exp (s j - max m c) : ℝ) : EReal)) := by
  unfold step
  simp only [hc, ← coe_max]
  rw [sum_exp_coe, ← EReal.coe_sub, Ideal.exp_coe, ← EReal.coe_mul, ← EReal.coe_add]

/-- Moving the shift of a sum of exponentials from M₀ to M: exp(M₀ − M) · Σ exp(x − M₀) = Σ exp(x − M),
    because exp(M₀ − M) · exp(x − M₀) = exp(x − M) and a real factor distributes over a finite sum. -/
theorem rescale_sum {B : ℕ} (s : ℕ → Fin B → ℝ) (n : ℕ) (M₀ M : ℝ) :
    Real.exp (M₀ - M) * ∑ t ∈ Finset.range n, ∑ j, Real.exp (s t j - M₀)
      = ∑ t ∈ Finset.range n, ∑ j, Real.exp (s t j - M) := by
  rw [Finset.mul_sum]
  refine Finset.sum_congr rfl fun t _ => ?_
  rw [Finset.mul_sum]
  refine Finset.sum_congr rfl fun j _ => ?_
  rw [← Real.exp_add]
  congr 1
  ring

/-- The running pair after k ≥ 1 tiles of real entries is (M, Σ_{t<k} Σ_j exp(s t j − M)), with M the maximum
    of all the entries seen: a real upper bound of them that one of them attains. By induction on k: the first
    tile by step_init; a later tile by step_coe, the new maximum being max M₀ c (attained by the old maximiser
    or by the tile's), and the old sum moved to the new shift by rescale_sum. -/
theorem run_real {B : ℕ} (hB : 0 < B) (s : ℕ → Fin B → ℝ) (k : ℕ) (hk : 0 < k) :
    ∃ M : ℝ, (∀ t, t < k → ∀ j, s t j ≤ M) ∧ (∃ t, t < k ∧ ∃ j, s t j = M)
      ∧ run (fun t j => ((s t j : ℝ) : EReal)) k
          = (((M : ℝ) : EReal), ((∑ t ∈ Finset.range k, ∑ j, Real.exp (s t j - M) : ℝ) : EReal)) := by
  obtain ⟨k, rfl⟩ : ∃ k' : ℕ, k = k' + 1 := ⟨k - 1, by omega⟩
  clear hk
  induction k with
  | zero =>
    obtain ⟨c, hle, ⟨j, hj⟩, hc⟩ := fold_max_coe hB (s 0)
    refine ⟨c, ?_, ⟨0, Nat.one_pos, j, hj⟩, ?_⟩
    · intro t ht i
      obtain rfl : t = 0 := by omega
      exact hle i
    · show step ((⊥ : EReal), (0 : EReal)) (fun j => ((s 0 j : ℝ) : EReal)) = _
      rw [step_init c (s 0) hc, Finset.sum_range_one]
  | succ k ih =>
    obtain ⟨M₀, hle₀, ⟨t₀, ht₀, j₀, hj₀⟩, hrun⟩ := ih
    obtain ⟨c, hlec, ⟨jc, hjc⟩, hc⟩ := fold_max_coe hB (s (k + 1))
    refine ⟨max M₀ c, ?_, ?_, ?_⟩
    · intro t ht i
      rcases Nat.lt_succ_iff_lt_or_eq.mp ht with h | rfl
      · exact le_trans (hle₀ t h i) (le_max_left _ _)
      · exact le_trans (hlec i) (le_max_right _ _)
    · rcases le_total M₀ c with h | h
      · exact ⟨k + 1, by omega, jc, by rw [hjc, max_eq_right h]⟩
      · exact ⟨t₀, by omega, j₀, by rw [hj₀, max_eq_left h]⟩
    · show step (run (fun t j => ((s t j : ℝ) : EReal)) (k + 1)) (fun j => ((s (k + 1) j : ℝ) : EReal)) = _
      rw [hrun, step_coe M₀ _ c (s (k + 1)) hc, rescale_sum, ← Finset.sum_range_succ]

end Idealize.ShloMosaic.OnlineLse
-- ==== Proof.KernelPayloads1.lean ====
/-
  The arithmetic of the second kernel's bodies, read entry by entry on the extended reals.

  The kernel walks, for a block of 1024 rows q, the 8 column blocks k of 1024 rows each. For one pair of blocks it forms the
  1024 x 1024 logits  s(r, c) = (Σ_d q(r, d) · k(c, d)) · (1 / temperature)  and updates, per row r, the running maximum m and the
  running sum l of exponentials shifted by m exactly as one tile's step of the online log-sum-exp: m' = max m (max_c s(r, c)),
  l' = exp(m − m') · l + Σ_c exp(s(r, c) − m'). On the diagonal pair of blocks it also keeps the diagonal entry s(r, r) (picked
  by a sum over the row of the entries masked by "row index = column index"); at the last column block it writes
  p − (m + log l). Before the first column block the three running columns are set to −∞, 0 and 0.
-/
import proofs.«132639_j29025388987032_1_alg».proof.Proof.Gen.KernelIdeal.Skeleton
import proofs.«132639_j29025388987032_1_alg».proof.Proof.Spec
import proofs.«132639_j29025388987032_1_alg».proof.Proof.LibPlainDot
import proofs.«132639_j29025388987032_1_alg».proof.Proof.LibRowReduce
import proofs.«132639_j29025388987032_1_alg».proof.Proof.LibColumn
import proofs.«132639_j29025388987032_1_alg».proof.Proof.LibSelectEq
import proofs.«132639_j29025388987032_1_alg».proof.Proof.LibOnlineLse

noncomputable section

open scoped BigOperators

namespace Cert.KernelIdeal.Payloads

open Idealize.ShloMosaic Idealize.ShloMosaic.ValueIdx Cert.KernelIdeal Cert.KernelIdeal.Gen

/-- The named reciprocal temperature denotes the rational 134217728 / 9395241. -/
theorem inv_temp : Named.named (F := Ideal) Cert.KernelIdeal.κ "inv_temp" (φ := .f32) 0x41649249#32
    = ((134217728 / 9395241 : ℝ) : EReal) :=
  IdealRules.named_const.ideal_named_scalar _ _ _ _ rfl

/-- The logits of a pair of blocks: entry (r, c) is the inner product of row r of q and row c of k, times the reciprocal
    temperature. -/
theorem pay6_apply (q k : Vec Ideal S1024x128 .f32) (r c : Fin 1024) :
    k1_pay6 (F := Ideal) q k (ix2 r c) = (∑ d : Fin 128, q (ix2 r d) * k (ix2 c d)) * Cert.Spec.cinv := by
  unfold k1_pay6
  refine (mulf_apply _ _ _).trans ?_
  rw [broadcast_apply, inv_temp, shapeCast_self, shapeCast_self]
  refine congrArg (· * Cert.Spec.cinv) ?_
  refine (PlainDot.matmul_apply_ix2 (M := 1024) (K := 128) (N := 1024) (some .fp32) q _ r c).trans ?_
  refine Finset.sum_congr rfl fun d _ => ?_
  rw [RowReduce.transpose_10_apply]

/-- The running maximum is set to −∞ before the first column block. -/
theorem pay3_apply (j : S1024x1.Idx) : k1_pay3 (F := Ideal) j = (⊥ : EReal) := by
  unfold k1_pay3
  rw [shapeCast_self, broadcast_apply]
  exact RowColumn.ofBits_negInf

/-- The running sum is set to 0 before the first column block. -/
theorem pay4_apply (j : S1024x1.Idx) : k1_pay4 (F := Ideal) j = (0 : EReal) := by
  unfold k1_pay4
  rw [shapeCast_self, broadcast_apply]
  exact Ideal.ofBits_zero_f32

/-- The kept diagonal entry is set to 0 before the first column block. -/
theorem pay5_apply (j : S1024x1.Idx) : k1_pay5 (F := Ideal) j = (0 : EReal) := by
  unfold k1_pay5
  rw [shapeCast_self, broadcast_apply]
  exact Ideal.ofBits_zero_f32

/-- The row's value written at the last column block: p − (m + log l). -/
theorem pay2_apply (p m l : Vec Ideal S1024x1 .f32) (j : S1024x1.Idx) :
    k1_pay2 (F := Ideal) p m l j = p j - (m j + Ideal.log (l j)) := rfl

/-- The new running maximum of row r: the old one against the maximum of the row's logits, the fold of max from −∞. -/
theorem pay7_apply (q k : Vec Ideal S1024x128 .f32) (m : Vec Ideal S1024x1 .f32) (r : Fin 1024) (u : Fin 1) :
    k1_pay7 (F := Ideal) q k m (ix2 r u)
      = max (m (ix2 r u)) ((Finset.univ : Finset (Fin 1024)).fold max ⊥ (fun c => k1_pay6 (F := Ideal) q k (ix2 r c))) := by
  unfold k1_pay7
  refine (maximumf_apply _ _ _).trans ?_
  refine congrArg (max (m (ix2 r u))) ?_
  refine (Column.shapeCast_a_a1_apply _ _ r u).trans ?_
  refine (RowReduce.multiReduction_maximumf_cols (a := 1024) (b := 1024) (k1_pay6 (F := Ideal) q k) 0xFF800000#32
    reduces_S1024x1024_S1024 (.inl rfl) rfl r).trans ?_
  rw [RowColumn.ofBits_negInf]

/-- The running maximum handed to the next column block is the new running maximum. -/
theorem pay9_apply (q k : Vec Ideal S1024x128 .f32) (m : Vec Ideal S1024x1 .f32) (r : Fin 1024) (u : Fin 1) :
    k1_pay9 (F := Ideal) q k m (ix2 r u)
      = max (m (ix2 r u)) ((Finset.univ : Finset (Fin 1024)).fold max ⊥ (fun c => k1_pay6 (F := Ideal) q k (ix2 r c))) := by
  unfold k1_pay9
  rw [shapeCast_self]
  exact pay7_apply q k m r u

/-- The new running sum of row r: the old one rescaled by exp(m − m') plus the sum over the row of exp(s − m'), m' the new
    running maximum. -/
theorem pay8_apply (q k : Vec Ideal S1024x128 .f32) (m l : Vec Ideal S1024x1 .f32) (r : Fin 1024) (u : Fin 1) :
    k1_pay8 (F := Ideal) q k m l (ix2 r u)
      = Ideal.exp (m (ix2 r u) - k1_pay7 (F := Ideal) q k m (ix2 r u)) * l (ix2 r u)
        + ∑ c : Fin 1024, Ideal.exp (k1_pay6 (F := Ideal) q k (ix2 r c) - k1_pay7 (F := Ideal) q k m (ix2 r (0 : Fin 1))) := by
  unfold k1_pay8
  rw [shapeCast_self]
  refine (addf_apply _ _ _).trans ?_
  refine congrArg₂ (· + ·) rfl ?_
  refine (Column.shapeCast_a_a1_apply _ _ r u).trans ?_
  refine (RowReduce.multiReduction_add_cols (a := 1024) (b := 1024) _ 0x00000000#32
    reduces_S1024x1024_S1024 (.inl rfl) rfl r).trans ?_
  refine Finset.sum_congr rfl fun c _ => ?_
  show Ideal.exp (k1_pay6 (F := Ideal) q k (ix2 r c) - broadcastTo S1024x1024 (k1_pay7 (F := Ideal) q k m) broadcasts_S1024x1_S1024x1024 (ix2 r c)) = _
  rw [Column.broadcastTo_a1_ab_apply]

/-- One column block's update of row r's running pair (maximum, sum) is one tile's step of the online log-sum-exp on the row's
    1024 logits. -/
theorem pay98_step (q k : Vec Ideal S1024x128 .f32) (m l : Vec Ideal S1024x1 .f32) (r : Fin 1024) (u : Fin 1) :
    (k1_pay9 (F := Ideal) q k m (ix2 r u), k1_pay8 (F := Ideal) q k m l (ix2 r u))
      = Idealize.ShloMosaic.OnlineLse.step (m (ix2 r (0 : Fin 1)), l (ix2 r (0 : Fin 1)))
          (fun c : Fin 1024 => k1_pay6 (F := Ideal) q k (ix2 r c)) := by
  obtain rfl : u = 0 := Subsingleton.elim _ _
  rw [pay9_apply, pay8_apply, pay7_apply]
  rfl

/-- Two indices below 1024 have the same 32-bit word only when they are equal. -/
theorem ofNat32_inj (r c : Fin 1024) : BitVec.ofNat 32 r.val = BitVec.ofNat 32 c.val ↔ r = c := by
  constructor
  · intro h
    have h' := congrArg BitVec.toNat h
    rw [BitVec.toNat_ofNat, BitVec.toNat_ofNat] at h'
    have hr := r.isLt
    have hc := c.isLt
    exact Fin.ext (by omega)
  · rintro rfl
    rfl

/-- The kept diagonal entry of row r: the sum over the row of the entries masked by "row index = column index" is the entry
    at column r. -/
theorem pay1'_apply (v : FVec Ideal S1024x1024 .f32) (r : Fin 1024) (u : Fin 1) :
    k1_pay1 (F := Ideal) v (ix2 r u) = v (ix2 r r) := by
  unfold k1_pay1
  rw [shapeCast_self]
  refine (Column.shapeCast_a_a1_apply _ _ r u).trans ?_
  refine (RowReduce.multiReduction_add_cols (a := 1024) (b := 1024) _ 0x00000000#32
    reduces_S1024x1024_S1024 (.inl rfl) rfl r).trans ?_
  refine (Finset.sum_congr rfl fun c _ => ?_).trans (Finset.sum_ite_eq Finset.univ r fun c => v (ix2 r c)) |>.trans ?_
  · refine (select_apply _ _ _ _).trans ?_
    show Scalar.select (IntOp.cmpi .eq (iota .tc S1024x1024 32 [0] iota_S1024x1024_d0_w32 (ix2 r c))
        (iota .tc S1024x1024 32 [1] iota_S1024x1024_d1_w32 (ix2 r c))) (v (ix2 r c)) (Ideal.ofBits .f32 0x00000000#32) = _
    rw [iota_single_apply, iota_single_apply, SelectEq.select_cmpi_eq, Ideal.ofBits_zero_f32]
    show (if BitVec.ofNat 32 r.val = BitVec.ofNat 32 c.val then v (ix2 r c) else 0) = _
    simp only [ofNat32_inj]
  · rw [if_pos (Finset.mem_univ r)]

end Cert.KernelIdeal.Payloads

end
-- ==== Proof.LibBlockedSum.lean ====
/-
  A finite sum over `n · B` consecutive positions, cut into `n` runs of `B` positions each: in any commutative additive
  monoid (the extended reals among them: no subtraction, no finiteness)

      Σ_{k < n·B} g k  =  Σ_{s < n} Σ_{j < B} g (B·s + j).

  This is the law by which a contraction accumulated run by run — a matrix product whose contracted axis is walked in
  blocks, each block's partial product added to a running total — is the one whole contraction.
-/
import Mathlib.Algebra.BigOperators.Fin
import Mathlib.Algebra.BigOperators.Intervals

namespace Idealize.ShloMosaic.BlockedSum

variable {M : Type*} [AddCommMonoid M]

/-- Over `Finset.range`: the first `n · B` positions are `n` runs of `B`. -/
theorem sum_range_blocks (B : ℕ) (g : ℕ → M) : ∀ n : ℕ,
    ∑ k ∈ Finset.range (n * B), g k = ∑ s ∈ Finset.range n, ∑ j ∈ Finset.range B, g (B * s + j)
  | 0 => by simp
  | n + 1 => by
    rw [Nat.succ_mul, Finset.sum_range_add, sum_range_blocks B g n, Finset.sum_range_succ, Nat.mul_comm n B]

/-- The same with the positions and the positions inside a run as `Fin` indices: the form a contraction over a
    coordinate of a shape takes. -/
theorem sum_fin_blocks (n B : ℕ) (g : ℕ → M) :
    ∑ k : Fin (n * B), g k.val = ∑ s ∈ Finset.range n, ∑ j : Fin B, g (B * s + j.val) := by
  rw [Fin.sum_univ_eq_sum_range (fun k => g k) (n * B), sum_range_blocks B g n]
  refine Finset.sum_congr rfl fun s _ => ?_
  exact (Fin.sum_univ_eq_sum_range (fun j => g (B * s + j)) B).symm

end Idealize.ShloMosaic.BlockedSum
-- ==== Proof.LibOnlineLseBridge.lean ====
/-
  The online log-sum-exp of a row against the one-shot form, on the extended reals.

  A row of T·B real logits is read in T tiles of B columns, tile t holding the columns B·t, …, B·t + B − 1.
  The online computation ends with the pair (m, l): m the maximum of the row and l = Σ_c exp(L_c − m). The
  one-shot form takes the maximum of the whole row first, then the sum of exp(L_c − max), then the logarithm.
  Both give x − max − log Σ_c exp(L_c − max):

  * the two maxima are the same real number, each being an upper bound of the row that an entry attains
    (every column c is the column c mod B of the tile c div B, and every column of a tile t < T is a column of
    the row);
  * the sum over the T·B columns is the sum over the tiles of the sums over their columns;
  * the sum of exponentials is a positive real, so its logarithm is a real;
  * x − (b + c) = (x − b) − c for real b, c and ANY extended real x (at x = ±∞ both sides are x).
-/
import proofs.«132639_j29025388987032_1_alg».proof.Proof.LibOnlineLse
import proofs.«132639_j29025388987032_1_alg».proof.Proof.LibBlockedSum

open scoped BigOperators

namespace Idealize.ShloMosaic.OnlineLse

/-- Subtracting a sum of two reals from an extended real is subtracting them one after the other:
    x − (b + c) = (x − b) − c. For real x this is the law of the reals; at x = −∞ both sides are −∞ and at
    x = +∞ both are +∞, because b, c and b + c are finite. -/
theorem sub_add_coe (x : EReal) (b c : ℝ) :
    x - (((b : ℝ) : EReal) + ((c : ℝ) : EReal)) = (x - ((b : ℝ) : EReal)) - ((c : ℝ) : EReal) := by
  induction x using EReal.rec with
  | bot => rw [EReal.bot_sub, EReal.bot_sub, EReal.bot_sub]
  | coe r =>
    rw [← EReal.coe_add, ← EReal.coe_sub, ← EReal.coe_sub, ← EReal.coe_sub]
    congr 1
    ring
  | top => rw [← EReal.coe_add, EReal.top_sub_coe, EReal.top_sub_coe, EReal.top_sub_coe]

/-- The entry of tile t at column j of a row of T·B reals: the row's entry at position B·t + j (and 0 past
    the end of the row, which no tile t < T reaches). -/
def tile {T B : ℕ} (L : Fin (T * B) → ℝ) (t : ℕ) (j : Fin B) : ℝ :=
  if h : B * t + j.val < T * B then L ⟨B * t + j.val, h⟩ else 0

/-- The tiles read on the extended reals are the coerced real tiles. -/
theorem tile_coe {T B : ℕ} (L : Fin (T * B) → ℝ) :
    (fun (t : ℕ) (j : Fin B) =>
        if h : B * t + j.val < T * B then ((L ⟨B * t + j.val, h⟩ : ℝ) : EReal) else 0)
      = fun t j => ((tile L t j : ℝ) : EReal) := by
  funext t j
  unfold tile
  by_cases h : B * t + j.val < T * B
  · rw [dif_pos h, dif_pos h]
  · rw [dif_neg h, dif_neg h, EReal.coe_zero]

/-- Column j < B of tile t < T is inside the row: B·t + j < B·(t + 1) ≤ B·T. -/
theorem pos_lt {T B t j : ℕ} (ht : t < T) (hj : j < B) : B * t + j < T * B :=
  calc B * t + j < B * t + B := by omega
    _ = B * (t + 1) := by ring
    _ ≤ B * T := Nat.mul_le_mul_left _ (by omega)
    _ = T * B := Nat.mul_comm _ _

/-- Every column c of the row is column c mod B of tile c div B. -/
theorem tile_div_mod {T B : ℕ} (hB : 0 < B) (L : Fin (T * B) → ℝ) (c : Fin (T * B)) :
    tile L (c.val / B) ⟨c.val % B, Nat.mod_lt _ hB⟩ = L c := by
  have h : B * (c.val / B) + c.val % B = c.val := Nat.div_add_mod _ _
  rw [tile, dif_pos (show B * (c.val / B) + c.val % B < T * B by rw [h]; exact c.isLt)]
  congr 1
  exact Fin.ext h

/-- An upper bound of all the tiles' entries is an upper bound of the row. -/
theorem le_of_tiles {T B : ℕ} (hB : 0 < B) (L : Fin (T * B) → ℝ) (M : ℝ)
    (hle : ∀ t, t < T → ∀ j, tile L t j ≤ M) (c : Fin (T * B)) : L c ≤ M := by
  rw [← tile_div_mod hB L c]
  exact hle _ ((Nat.div_lt_iff_lt_mul hB).mpr c.isLt) _

/-- A value one of the tiles' entries takes is a value an entry of the row takes. -/
theorem attained_of_tiles {T B : ℕ} (L : Fin (T * B) → ℝ) (M : ℝ)
    (hat : ∃ t, t < T ∧ ∃ j, tile L t j = M) : ∃ c, L c = M := by
  obtain ⟨t, ht, j, hj⟩ := hat
  refine ⟨⟨B * t + j.val, pos_lt ht j.isLt⟩, ?_⟩
  rw [← hj, tile, dif_pos (pos_lt ht j.isLt)]

/-- The sum of exp(L_c − M) over the T·B columns of the row is the sum over the tiles of the sums over their
    columns. -/
theorem sum_exp_tiles {T B : ℕ} (L : Fin (T * B) → ℝ) (M : ℝ) :
    ∑ c, Real.exp (L c - M) = ∑ t ∈ Finset.range T, ∑ j, Real.exp (tile L t j - M) := by
  have h := BlockedSum.sum_fin_blocks T B
    (fun k => Real.exp ((if h : k < T * B then L ⟨k, h⟩ else 0) - M))
  refine Eq.trans (Finset.sum_congr rfl fun c _ => ?_) h
  rw [dif_pos c.isLt]

/-- THE BRIDGE. For a row of T·B real logits (T ≥ 1 tiles of B ≥ 1 columns) and any extended real x, the
    online form x − (m + log l), with (m, l) the running pair after the T tiles, is the one-shot form
    (x − max) − log(0 + Σ_c exp(L_c − max)), the maximum taken over the whole row at once. -/
theorem online_eq_oneshot {T B : ℕ} (hT : 0 < T) (hB : 0 < B) (L : Fin (T * B) → ℝ) (x : EReal) :
    x - ((run (fun (t : ℕ) (j : Fin B) => if h : B * t + j.val < T * B then ((L ⟨B * t + j.val, h⟩ : ℝ) : EReal) else 0) T).1
          + Ideal.log (run (fun (t : ℕ) (j : Fin B) => if h : B * t + j.val < T * B then ((L ⟨B * t + j.val, h⟩ : ℝ) : EReal) else 0) T).2)
      = (x - (Finset.univ : Finset (Fin (T * B))).fold max ⊥ (fun c => ((L c : ℝ) : EReal)))
          - Ideal.log (0 + ∑ c, Ideal.exp (((L c : ℝ) : EReal)
              - (Finset.univ : Finset (Fin (T * B))).fold max ⊥ (fun c => ((L c : ℝ) : EReal)))) := by
  rw [tile_coe L]
  obtain ⟨M, hle, hat, hrun⟩ := run_real hB (tile L) T hT
  have hfold := fold_max_coe_eq L M (le_of_tiles hB L M hle) (attained_of_tiles L M hat)
  have hpos : 0 < ∑ t ∈ Finset.range T, ∑ j, Real.exp (tile L t j - M) :=
    Finset.sum_pos (fun t _ => Finset.sum_pos (fun j _ => Real.exp_pos _) ⟨⟨0, hB⟩, Finset.mem_univ _⟩)
      ⟨0, Finset.mem_range.mpr hT⟩
  rw [hrun, hfold, sum_exp_coe, zero_add, sum_exp_tiles L M]
  simp only [Ideal.log_coe, if_neg (not_le.mpr hpos)]
  exact sub_add_coe x M _

end Idealize.ShloMosaic.OnlineLse
-- ==== Proof.KernelRows.lean ====
/-
  Two facts about the closed form that use the entries being real numbers.

  (1) When every entry of the weights, the biases and a row x is a real number, so is every entry of the row's feature: sums,
  products and maxima of reals are real; the sum of squares s of the projected row is a real s ≥ 0, so its square root is the
  real √s; the floor ε is a positive real, so the divisor max (√s) ε is a positive real and the quotient is the real quotient.
  (2) When every feature is real, row i's value — its logit at the paired column minus the log-sum-exp of its 8192 logits,
  shifted by the row maximum — is what the online computation over 8 column blocks of 1024 gives: the logits are reals (a sum
  of products of reals times a real), and the online form equals the one-shot form on real logits.
-/
import proofs.«132639_j29025388987032_1_alg».proof.Proof.Spec
import proofs.«132639_j29025388987032_1_alg».proof.Proof.LibERealSum
import proofs.«132639_j29025388987032_1_alg».proof.Proof.LibOnlineLseBridge
import Idealize.ShloMosaic.PureOps.Ideal.Laws

noncomputable section

open scoped BigOperators

namespace Cert.Rows

open Idealize.ShloMosaic Idealize.ShloMosaic.ValueIdx Cert.Spec

/-- The sum of two reals is a real. -/
theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- The product of two reals is a real. -/
theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- The maximum of two reals is a real. -/
theorem real_max {a b : EReal} (ha : ∃ r : ℝ, a = (r : EReal)) (hb : ∃ r : ℝ, b = (r : EReal)) :
    ∃ r : ℝ, max a b = (r : EReal) := by
  obtain ⟨x, rfl⟩ := ha
  obtain ⟨y, rfl⟩ := hb
  exact ⟨max x y, (OnlineLse.coe_max x y).symm⟩

/-- A finite sum of reals is a real. -/
theorem real_sum {ι : Type*} (s : Finset ι) (g : ι → EReal) (hg : ∀ k, ∃ r : ℝ, g k = (r : EReal)) :
    ∃ r : ℝ, ∑ k ∈ s, g k = (r : EReal) := by
  choose g' hg' using hg
  refine ⟨∑ k ∈ s, g' k, ?_⟩
  rw [ERealSum.coe_finset_sum]
  exact Finset.sum_congr rfl fun k _ => hg' k

/-- A finite sum of squares of reals is a real that is not negative. -/
theorem real_sum_sq {ι : Type*} [Fintype ι] (g : ι → EReal) (hg : ∀ k, ∃ r : ℝ, g k = (r : EReal)) :
    ∃ r : ℝ, 0 ≤ r ∧ ∑ k, g k * g k = (r : EReal) := by
  choose g' hg' using hg
  refine ⟨∑ k, g' k * g' k, Finset.sum_nonneg fun k _ => mul_self_nonneg _, ?_⟩
  rw [ERealSum.coe_finset_sum]
  exact Finset.sum_congr rfl fun k _ => by rw [hg' k, EReal.coe_mul]

/-- The floor of the norm is a positive real: the word denotes 9223372 · 2⁻⁶³. -/
theorem eps_pos : ∃ e : ℝ, 0 < e ∧ Cert.Spec.eps = (e : EReal) := by
  refine ⟨9223372 / 2 ^ 63, by positivity, ?_⟩
  simp [Cert.Spec.eps, Ideal.ofBits, Ideal.ieee]
  rw [← EReal.coe_mul]
  congr 1

section Feature
variable (W1 : A256x256) (b1 : A256) (W2 : A256x128) (b2 : A128) (x : Fin 256 → EReal)
  (hW1 : ∀ j, ∃ r : ℝ, W1 j = (r : EReal)) (hb1 : ∀ j, ∃ r : ℝ, b1 j = (r : EReal))
  (hW2 : ∀ j, ∃ r : ℝ, W2 j = (r : EReal)) (hb2 : ∀ j, ∃ r : ℝ, b2 j = (r : EReal))
  (hx : ∀ k, ∃ r : ℝ, x k = (r : EReal))
include hW1 hb1 hx

/-- A row of reals through the first dense layer and the rectification is a row of reals. -/
theorem hidden_real (h : Fin 256) : ∃ r : ℝ, Cert.Spec.hidden W1 b1 x h = (r : EReal) := by
  unfold Cert.Spec.hidden
  refine real_max (real_add (real_sum _ _ fun k => real_mul (hx k) (hW1 _)) (hb1 _)) ⟨0, ?_⟩
  rw [Ideal.ofBits_zero_f32, EReal.coe_zero]

include hW2 hb2

/-- A row of reals through both dense layers is a row of reals. -/
theorem projected_real (p : Fin 128) : ∃ r : ℝ, projected W1 b1 W2 b2 x p = (r : EReal) := by
  unfold projected
  exact real_add (real_sum _ _ fun h => real_mul (hidden_real W1 b1 x hW1 hb1 hx h) (hW2 _)) (hb2 _)

/-- A row of reals projected and divided by its floored Euclidean norm is a row of reals. -/
theorem feature_real (p : Fin 128) : ∃ r : ℝ, feature W1 b1 W2 b2 x p = (r : EReal) := by
  unfold feature
  obtain ⟨a, ha⟩ := projected_real W1 b1 W2 b2 x hW1 hb1 hW2 hb2 hx p
  obtain ⟨s, hs0, hs⟩ := real_sum_sq (fun q => projected W1 b1 W2 b2 x q)
    (fun q => projected_real W1 b1 W2 b2 x hW1 hb1 hW2 hb2 hx q)
  obtain ⟨e, he0, he⟩ := eps_pos
  rw [ha, hs, Ideal.sqrt_coe, if_neg (not_lt.mpr hs0), he, ← OnlineLse.coe_max,
    Ideal.div_coe (ne_of_gt (lt_of_lt_of_le he0 (le_max_right _ _))), ← EReal.coe_mul]
  exact ⟨_, rfl⟩

end Feature

/-- The feature matrix of real inputs and real weights is a matrix of reals. -/
theorem features_real (x1 x2 : A4096x256) (W1 : A256x256) (b1 : A256) (W2 : A256x128) (b2 : A128)
    (hx1 : ∀ j, ∃ r : ℝ, x1 j = (r : EReal)) (hx2 : ∀ j, ∃ r : ℝ, x2 j = (r : EReal))
    (hW1 : ∀ j, ∃ r : ℝ, W1 j = (r : EReal)) (hb1 : ∀ j, ∃ r : ℝ, b1 j = (r : EReal))
    (hW2 : ∀ j, ∃ r : ℝ, W2 j = (r : EReal)) (hb2 : ∀ j, ∃ r : ℝ, b2 j = (r : EReal)) (r : Fin 8192) (p : Fin 128) :
    ∃ v : ℝ, features x1 x2 W1 b1 W2 b2 r p = (v : EReal) := by
  unfold features
  refine feature_real W1 b1 W2 b2 _ hW1 hb1 hW2 hb2 (fun k => ?_) p
  unfold stacked
  split
  · exact hx1 _
  · exact hx2 _

/-- The logits of a real feature matrix are reals: a sum of products of reals, times the real reciprocal temperature. -/
theorem logit_real (f : Fin 8192 → Fin 128 → EReal) (hf : ∀ i d, ∃ r : ℝ, f i d = (r : EReal)) (i j : Fin 8192) :
    ∃ r : ℝ, logit f i j = (r : EReal) := by
  unfold logit
  exact real_mul (real_sum _ _ fun d => real_mul (hf i d) (hf j d)) ⟨_, rfl⟩

/-- Row i's value is the online form over 8 column blocks of 1024 logits: the logit at the paired column minus (the running
    maximum plus the logarithm of the running sum) after the 8 blocks. -/
theorem rowValue_online (f : Fin 8192 → Fin 128 → EReal) (hf : ∀ i d, ∃ r : ℝ, f i d = (r : EReal)) (i : Fin 8192) :
    logit f i (pair i)
      - ((OnlineLse.run (fun (t : ℕ) (j : Fin 1024) =>
              if h : 1024 * t + j.val < 8192 then logit f i ⟨1024 * t + j.val, h⟩ else 0) 8).1
         + Ideal.log (OnlineLse.run (fun (t : ℕ) (j : Fin 1024) =>
              if h : 1024 * t + j.val < 8192 then logit f i ⟨1024 * t + j.val, h⟩ else 0) 8).2)
      = rowValue f i := by
  choose L hL using logit_real f hf i
  unfold rowValue rowMax
  simp only [hL]
  exact OnlineLse.online_eq_oneshot (T := 8) (B := 1024) (by norm_num) (by norm_num) L _

end Cert.Rows

end
-- ==== Proof.Value1.lean ====
/-
  Region 1 of the idealized kernel, read: each row tile's block and each column tile's block are rows of the feature
  array; the scaled similarity tile the body forms is the logits of those rows; the running pair the scratch buffers
  carry through a row tile's eight column tiles is the online log-sum-exp recurrence over the row's logits, and the
  third scratch ends at the logit of the paired column.
-/
import proofs.«132639_j29025388987032_1_alg».proof.Proof.Region1Acc
import proofs.«132639_j29025388987032_1_alg».proof.Proof.KernelPayloads1
import proofs.«132639_j29025388987032_1_alg».proof.Proof.KernelRows

set_option maxRecDepth 16384

noncomputable section

namespace Cert.KernelIdeal.Value1

open Cert.KernelIdeal Cert.KernelIdeal.Gen Cert.KernelIdeal.Region1
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b)) (c : Dev nD)

/-- The printed index maps over the grid: point `t` is row tile `t / 8` and column tile `t % 8`. -/
theorem idx_facts : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

theorem N64 : cfg1.N = 64 := N_1

/-- The feature array as the region finds it, by row and column. -/
abbrev feats : Fin 8192 → Fin 128 → EReal := fun i d => V c main_v1 (ix2 i d)

/-- The row tile's block at point `t` is rows `1024 (t / 8) …` of the feature array. -/
theorem rowBlock_apply (t : Fin cfg1.N) (r : Fin 1024) (d : Fin 128) :
    iblk V c 0 t (ix2 r d) = feats V c ⟨1024 * (t.val / 8) + r.val, by have := t.isLt; have := N64; omega⟩ d := by
  obtain ⟨e0, e1, -⟩ := idx_facts t
  unfold iblk feats
  show V c main_v1 (((cfg1.win 0).blk t).view.emb (ix2 r d)) = V c main_v1 (ix2 _ d)
  congr 1
  funext a; apply Fin.ext
  match a with
  | ⟨0, _⟩ => show win1_0.index t (0 : Fin 2) * 1024 + 1 * r.val = 1024 * (t.val / 8) + r.val; omega
  | ⟨1, _⟩ => show win1_0.index t (1 : Fin 2) * 128 + 1 * d.val = d.val; omega

/-- The column tile's block at point `t` is rows `1024 (t % 8) …` of the feature array. -/
theorem colBlock_apply (t : Fin cfg1.N) (r : Fin 1024) (d : Fin 128) :
    iblk V c 1 t (ix2 r d) = feats V c ⟨1024 * (t.val % 8) + r.val, by omega⟩ d := by
  obtain ⟨-, -, e0, e1, -⟩ := idx_facts t
  unfold iblk feats
  show V c main_v1 (((cfg1.win 1).blk t).view.emb (ix2 r d)) = V c main_v1 (ix2 _ d)
  congr 1
  funext a; apply Fin.ext
  match a with
  | ⟨0, _⟩ => show win1_1.index t (0 : Fin 2) * 1024 + 1 * r.val = 1024 * (t.val % 8) + r.val; omega
  | ⟨1, _⟩ => show win1_1.index t (1 : Fin 2) * 128 + 1 * d.val = d.val; omega

/-- The scaled similarity tile at point `t` holds the logits of the row tile's rows against the column tile's rows. -/
theorem tile_apply (t : Fin cfg1.N) (r j : Fin 1024) :
    k1_pay6 (F := Ideal) (iblk V c 0 t) (iblk V c 1 t) (ix2 r j)
      = Cert.Spec.logit (feats V c) ⟨1024 * (t.val / 8) + r.val, by have := t.isLt; have := N64; omega⟩ ⟨1024 * (t.val % 8) + j.val, by omega⟩ := by
  rw [Payloads.pay6_apply]
  unfold Cert.Spec.logit
  congr 1
  exact Finset.sum_congr rfl fun d _ => by rw [rowBlock_apply, colBlock_apply]

/-! ## The running pair through a row tile -/

/-- Row `1024 a + r`'s logits cut into the eight column tiles (the form the online recurrence's lemma is stated in). -/
def tiles (a : Fin 8) (r : Fin 1024) : ℕ → Fin 1024 → EReal :=
  fun t j => if h : 1024 * t + j.val < 8192
    then Cert.Spec.logit (feats V c) ⟨1024 * a.val + r.val, by omega⟩ ⟨1024 * t + j.val, h⟩ else 0

/-- Point `8 a + k`: row tile `a`, column tile `k`. -/
abbrev pt (a : Fin 8) (k : ℕ) (hk : k < 8) : Fin cfg1.N := ⟨8 * a.val + k, by have := N64; omega⟩

/-- Row `r` of the similarity tile at point `8 a + k` is the `k`-th tile of the row's logits. -/
theorem tile_row (a : Fin 8) (k : ℕ) (hk : k < 8) (r : Fin 1024) :
    (fun j : Fin 1024 => k1_pay6 (F := Ideal) (iblk V c 0 (pt a k hk)) (iblk V c 1 (pt a k hk)) (ix2 r j)) = tiles V c a r k := by
  funext j
  rw [tile_apply]
  unfold tiles
  have hj := j.isLt
  rw [dif_pos (by omega)]
  have e1 : (pt a k hk).val / 8 = a.val := by show (8 * a.val + k) / 8 = a.val; omega
  have e2 : (pt a k hk).val % 8 = k := by show (8 * a.val + k) % 8 = k; omega
  congr 1 <;> (apply Fin.ext; simp only [e1, e2])

theorem acc_congr {n n' : ℕ} (h : n = n') (hn : n < cfg1.N) (hn' : n' < cfg1.N) : acc V c n hn = acc V c n' hn' := by
  subst h; rfl

/-- Whatever the point, the scratch values after it are one step from the reset or from the point before. -/
theorem acc_step (t : Fin cfg1.N) : ∃ s, acc V c t.val t.isLt = stepAt V c t s
    ∧ (t.val % 8 = 0 → s = reset) ∧ (∀ h : ¬t.val % 8 = 0, s = acc V c (t.val - 1) (Nat.lt_of_le_of_lt (Nat.sub_le _ _) t.isLt)) := by
  by_cases h : t.val % 8 = 0
  · exact ⟨reset, acc_first V c t h, fun _ => rfl, fun h' => absurd h h'⟩
  · exact ⟨_, acc_next V c t h, fun h' => absurd h' h, fun _ => rfl⟩

/-- THE RECURRENCE: after column tile `k` of row tile `a` the first two scratch buffers hold, at row `r`, the online pair
    of the row's first `k + 1` tiles of logits. -/
theorem acc_run (a : Fin 8) (r : Fin 1024) : ∀ (k : ℕ) (hk : k < 8),
    ((acc V c (pt a k hk).val (pt a k hk).isLt).m (ix2 r (0 : Fin 1)), (acc V c (pt a k hk).val (pt a k hk).isLt).l (ix2 r (0 : Fin 1)))
      = OnlineLse.run (tiles V c a r) (k + 1)
  | 0, hk => by
    rw [acc_first V c (pt a 0 hk) (by show (8 * a.val + 0) % 8 = 0; omega), stepAt_m, stepAt_l,
      show (reset (F := Ideal)).m = k1_pay3 (F := Ideal) from rfl, show (reset (F := Ideal)).l = k1_pay4 (F := Ideal) from rfl,
      Payloads.pay98_step, Payloads.pay3_apply, Payloads.pay4_apply, tile_row V c a 0 hk r]
    rfl
  | k + 1, hk => by
    rw [acc_next V c (pt a (k + 1) hk) (by show ¬(8 * a.val + (k + 1)) % 8 = 0; omega), stepAt_m, stepAt_l,
      Payloads.pay98_step, tile_row V c a (k + 1) hk r,
      acc_congr V c (show (pt a (k + 1) hk).val - 1 = (pt a k (by omega)).val from by show 8 * a.val + (k + 1) - 1 = 8 * a.val + k; omega) _ (pt a k (by omega)).isLt,
      acc_run a r k (by omega)]
    rfl

/-! ## The paired logit -/

/-- The point of row tile `a` whose column tile holds the paired columns `i ± 4096`. -/
abbrev ptP (a : Fin 8) : Fin cfg1.N := ⟨8 * a.val + (a.val + 4) % 8, by have := N64; omega⟩

/-- From the partner column tile on, the third scratch buffer holds the diagonal of that tile's similarities. -/
theorem acc_p (a : Fin 8) : ∀ (k : ℕ) (hk : k < 8), (a.val + 4) % 8 ≤ k →
    (acc V c (pt a k hk).val (pt a k hk).isLt).p
      = k1_pay1 (F := Ideal) (k1_pay6 (F := Ideal) (iblk V c 0 (ptP a)) (iblk V c 1 (ptP a)))
  | 0, hk, hp => by
    have e : pt a 0 hk = ptP a := Fin.ext (by show 8 * a.val + 0 = 8 * a.val + (a.val + 4) % 8; omega)
    rw [acc_first V c (pt a 0 hk) (by show (8 * a.val + 0) % 8 = 0; omega),
      stepAt_p_partner V c (pt a 0 hk) reset (by
        show (8 * a.val + 0) % 8 = ((8 * a.val + 0) / 8 + 4) % 8
        have d1 : (8 * a.val + 0) / 8 = a.val := by omega
        have d2 : (8 * a.val + 0) % 8 = 0 := by omega
        rw [d1, d2]; omega), e]
  | k + 1, hk, hp => by
    have d1 : (8 * a.val + (k + 1)) / 8 = a.val := by omega
    have d2 : (8 * a.val + (k + 1)) % 8 = k + 1 := by omega
    by_cases hkp : k + 1 = (a.val + 4) % 8
    · have e : pt a (k + 1) hk = ptP a := Fin.ext (by show 8 * a.val + (k + 1) = 8 * a.val + (a.val + 4) % 8; omega)
      rw [acc_next V c (pt a (k + 1) hk) (by show ¬(8 * a.val + (k + 1)) % 8 = 0; omega),
        stepAt_p_partner V c (pt a (k + 1) hk) _ (by show (8 * a.val + (k + 1)) % 8 = ((8 * a.val + (k + 1)) / 8 + 4) % 8; rw [d1, d2]; exact hkp), e]
    · rw [acc_next V c (pt a (k + 1) hk) (by show ¬(8 * a.val + (k + 1)) % 8 = 0; omega),
        stepAt_p_other V c (pt a (k + 1) hk) _ (by show ¬(8 * a.val + (k + 1)) % 8 = ((8 * a.val + (k + 1)) / 8 + 4) % 8; rw [d1, d2]; exact hkp),
        acc_congr V c (show (pt a (k + 1) hk).val - 1 = (pt a k (by omega)).val from by show 8 * a.val + (k + 1) - 1 = 8 * a.val + k; omega) _ (pt a k (by omega)).isLt,
        acc_p a k (by omega) (by omega)]

/-- At a row tile's last point the third scratch buffer holds, at row `r`, the logit of the paired column. -/
theorem pos_apply (a : Fin 8) (r : Fin 1024) (u : Fin 1) :
    (acc V c (pt a 7 (by norm_num)).val (pt a 7 (by norm_num)).isLt).p (ix2 r u)
      = Cert.Spec.logit (feats V c) ⟨1024 * a.val + r.val, by omega⟩ (Cert.Spec.pair ⟨1024 * a.val + r.val, by omega⟩) := by
  rw [acc_p V c a 7 (by norm_num) (by omega), Payloads.pay1'_apply, tile_apply]
  have e1 : (ptP a).val / 8 = a.val := by show (8 * a.val + (a.val + 4) % 8) / 8 = a.val; omega
  have e2 : (ptP a).val % 8 = (a.val + 4) % 8 := by show (8 * a.val + (a.val + 4) % 8) % 8 = (a.val + 4) % 8; omega
  congr 1
  · apply Fin.ext; simp only [e1]
  · apply Fin.ext; unfold Cert.Spec.pair; simp only [e2]; omega

/-! ## A row's value -/

/-- What the output window's buffer holds at row `r` after row tile `a`'s last point. -/
def rowK (i : Fin 8192) : EReal :=
  k1_pay2 (F := Ideal) (acc V c (pt ⟨i.val / 1024, by omega⟩ 7 (by norm_num)).val (pt ⟨i.val / 1024, by omega⟩ 7 (by norm_num)).isLt).p
    (acc V c (pt ⟨i.val / 1024, by omega⟩ 7 (by norm_num)).val (pt ⟨i.val / 1024, by omega⟩ 7 (by norm_num)).isLt).m
    (acc V c (pt ⟨i.val / 1024, by omega⟩ 7 (by norm_num)).val (pt ⟨i.val / 1024, by omega⟩ 7 (by norm_num)).isLt).l
    (ix2 (⟨i.val % 1024, Nat.mod_lt _ (by norm_num)⟩ : Fin 1024) (0 : Fin 1))

/-- For real features it is the row's value: the paired logit minus the log-sum-exp of the row's logits. -/
theorem rowK_eq (hf : ∀ i d, ∃ r : ℝ, feats V c i d = (r : EReal)) (i : Fin 8192) :
    rowK V c i = Cert.Spec.rowValue (feats V c) i := by
  have hi := i.isLt
  have ei : (⟨1024 * (i.val / 1024) + i.val % 1024, by omega⟩ : Fin 8192) = i := Fin.ext (Nat.div_add_mod i.val 1024)
  unfold rowK
  rw [Payloads.pay2_apply, pos_apply V c ⟨i.val / 1024, by omega⟩ ⟨i.val % 1024, Nat.mod_lt _ (by norm_num)⟩ 0]
  have hrun := acc_run V c ⟨i.val / 1024, by omega⟩ ⟨i.val % 1024, Nat.mod_lt _ (by norm_num)⟩ 7 (by norm_num)
  have hm := congrArg Prod.fst hrun
  have hl := congrArg Prod.snd hrun
  dsimp only at hm hl
  rw [hm, hl]
  have ht : tiles V c ⟨i.val / 1024, by omega⟩ ⟨i.val % 1024, Nat.mod_lt _ (by norm_num)⟩
      = fun (t : ℕ) (j : Fin 1024) => if h : 1024 * t + j.val < 8192 then Cert.Spec.logit (feats V c) i ⟨1024 * t + j.val, h⟩ else 0 := by
    unfold tiles; simp only [ei]
  rw [ht, ei]
  exact Cert.Rows.rowValue_online (feats V c) hf i

end Cert.KernelIdeal.Value1

end
-- ==== Proof.Value1Arr.lean ====
/-
  Region 1's output array after the run: the write-backs at the last point of each row tile lay the row values end to
  end, so entry `i` of the 8192 x 1 array is row `i`'s value.
-/
import proofs.«132639_j29025388987032_1_alg».proof.Proof.Value1
import Idealize.ShloMosaic.Lib.Pipeline.Value

set_option maxRecDepth 16384

noncomputable section

namespace Cert.KernelIdeal.Value1

open Cert.KernelIdeal Cert.KernelIdeal.Gen Cert.KernelIdeal.Region1
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b)) (c : Dev nD)

/-- The rows' values as an 8192 x 1 array. -/
def rowsArr : S8192x1.Idx → EReal := fun i => rowK V c ⟨(i 0).val, (i 0).isLt⟩

/-- Row `1024 (t / 8) + p`'s value is what the output window's buffer holds at row `p` after a row tile's last point `t`. -/
theorem rowK_at (t : Fin cfg1.N) (h7 : t.val % 8 = 7) (p : Fin 1024) (i : Fin 8192) (hi : i.val = 1024 * (t.val / 8) + p.val) :
    rowK V c i = k1_pay2 (F := Ideal) (acc V c t.val t.isLt).p (acc V c t.val t.isLt).m (acc V c t.val t.isLt).l (ix2 p (0 : Fin 1)) := by
  have hp := p.isLt
  have ea : acc V c (pt ⟨i.val / 1024, by have := i.isLt; omega⟩ 7 (by norm_num)).val (pt ⟨i.val / 1024, by have := i.isLt; omega⟩ 7 (by norm_num)).isLt
      = acc V c t.val t.isLt := acc_congr V c (by show 8 * (i.val / 1024) + 7 = t.val; omega) _ _
  have ep : (⟨i.val % 1024, Nat.mod_lt _ (by norm_num)⟩ : Fin 1024) = p := Fin.ext (by show i.val % 1024 = p.val; omega)
  unfold rowK
  rw [ea, ep]

/-- Every one of the 8 row tiles is written back at some point. -/
theorem idx_onto2 : ∀ q0 : Fin 8, ∃ t : Fin cfg1.N, (cfg1.win 2).flush t = true ∧ win1_2.index t = ![q0.val, 0] :=
  (by decide +kernel : ∀ q0 : Fin 8, ∃ t : Fin grid1.N, win1_2.flush t = true ∧ win1_2.index t = ![q0.val, 0])

section Array

variable (dat : Dat τ (Elt Ideal) Unit ℕ (UR sig nD τ) ℕ cfg1 c)
  (hafter : ∀ t, dat.after 2 t = k1_pay2 (F := Ideal) (acc V c t.val t.isLt).p (acc V c t.val t.isLt).m (acc V c t.val t.isLt).l)

include hafter in
/-- What a row tile's last point writes back is that tile's block of the rows' values. -/
theorem flushed2_eq (t : Fin cfg1.N) (hf : (cfg1.win 2).flush t = true) :
    dat.flushed 2 t = ((cfg1.win 2).blk t).view.read (Elt Ideal) (rowsArr V c) := by
  have h7 : t.val % 8 = 7 := (flush1_2 t).mp hf
  obtain ⟨-, -, -, -, e0, e1⟩ := idx_facts t
  show (cfg1.win 2).cut (grid1.coords t) (dat.after 2 t) = _
  rw [hafter]
  funext j
  obtain ⟨p, u, rfl⟩ : ∃ (p : Fin 1024) (u : Fin 1), j = ix2 p u := ⟨j 0, j 1, eq_ix2 j⟩
  have hu : u = 0 := Subsingleton.elim _ _
  subst hu
  show _ = rowK V c ⟨((((cfg1.win 2).blk t).view.emb (ix2 p (0 : Fin 1))) 0).val, _⟩
  exact (rowK_at V c t h7 p _ (by show win1_2.index t (0 : Fin 2) * 1024 + 1 * p.val = 1024 * (t.val / 8) + p.val; omega)).symm

/-- An index of the rows' array is in point `t`'s block when each coordinate is in the block's range on its axis. -/
theorem mem_blk2 (t : Fin cfg1.N) (i : S8192x1.Idx) :
    i ∈ ((cfg1.win 2).blk t).view.set
      ↔ ∀ a : Fin 2, win1_2.index t a * S1024x1.size a ≤ (i a).val ∧ (i a).val < win1_2.index t a * S1024x1.size a + S1024x1.size a := by
  show i ∈ ((View.whole main_v2).slice (win1_2.rect t)).set ↔ _
  rw [View.set_slice_whole, Rect.mem_set_unit]
  exact Iff.rfl

/-- Row `i` is in the block written back at its row tile's last point. -/
theorem cover2 (i : S8192x1.Idx) : ∃ t : Fin cfg1.N, (cfg1.win 2).flush t = true ∧ i ∈ ((cfg1.win 2).blk t).view.set := by
  have hi0 : (i 0).val < 8192 := (i 0).isLt
  have hi1 : (i 1).val < 1 := (i 1).isLt
  obtain ⟨t, hf, ht⟩ := idx_onto2 ⟨(i 0).val / 1024, by omega⟩
  have q0 : win1_2.index t (0 : Fin 2) = (i 0).val / 1024 := congrFun ht 0
  have q1 : win1_2.index t (1 : Fin 2) = 0 := congrFun ht 1
  refine ⟨t, hf, ?_⟩
  rw [mem_blk2]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1 ≤ (i 1).val ∧ (i 1).val < win1_2.index t (1 : Fin 2) * 1 + 1; omega

include hafter in
/-- THE ARRAY after the region: the rows' values. -/
theorem rows_final : dat.arrAt 2 cfg1.N = rowsArr V c :=
  dat.arrAt_eq_of_cover 2 (rowsArr V c) (fun t hf => flushed2_eq V c dat hafter t hf) cover2

end Array

end Cert.KernelIdeal.Value1

end
-- ==== Proof.KernelPayloads0.lean ====
/-
  The arithmetic of the first kernel's body, read entry by entry on the extended reals.

  For a block x of 512 rows the body computes  h = max (x · W1 + b1) 0,  y = h · W2 + b2,  and divides each row of y by its
  Euclidean norm floored at a small constant: entry (p, q) of the result is  y(p, q) / max (√(Σ_q' y(p, q')²)) ε. The matrix
  products into a zero accumulator are finite sums over the contracted coordinate; the bias [n] is recast to the row [1, n]
  and repeated down the rows; the sum of squares along a row is kept as a column [512, 1] and repeated along the row.
-/
import proofs.«132639_j29025388987032_1_alg».proof.Proof.Gen.KernelIdeal.Skeleton
import proofs.«132639_j29025388987032_1_alg».proof.Proof.Spec
import proofs.«132639_j29025388987032_1_alg».proof.Proof.LibPlainDot
import proofs.«132639_j29025388987032_1_alg».proof.Proof.LibRowReduce
import proofs.«132639_j29025388987032_1_alg».proof.Proof.LibColumn
import Idealize.ShloMosaic.Lib.ValueLayout

noncomputable section

open scoped BigOperators

namespace Cert.KernelIdeal.Payloads

open Idealize.ShloMosaic Idealize.ShloMosaic.ValueIdx Cert.KernelIdeal Cert.KernelIdeal.Gen

/-- The block through the first dense layer and the rectification, as the body spells it. -/
def hiddenVec (x0 : FVec Ideal S512x256 .f32) (w1 : FVec Ideal S256x256 .f32) (b1 : FVec Ideal S256 .f32) :
    FVec Ideal S512x256 .f32 :=
  maximumf
    (addf (matmul dot_S512x256_S256x256_S512x256_1_0_0_1_n_n (some .fp32) x0 w1 (constant (F := Ideal) S512x256 .f32 0x00000000#32))
      (broadcastTo S512x256 (shapeCast S1x256 b1 shapeCasts_S256_S1x256) broadcasts_S1x256_S512x256))
    (broadcast S512x256 (Scalar.ofBits (F := Ideal) .f32 0x00000000#32))

/-- The block through both dense layers, as the body spells it. -/
def projVec (x0 : FVec Ideal S512x256 .f32) (w1 : FVec Ideal S256x256 .f32) (b1 : FVec Ideal S256 .f32)
    (w2 : FVec Ideal S256x128 .f32) (b2 : FVec Ideal S128 .f32) : FVec Ideal S512x128 .f32 :=
  addf (matmul dot_S512x256_S256x128_S512x128_1_0_0_1_n_n (some .fp32) (hiddenVec x0 w1 b1) w2
      (constant (F := Ideal) S512x128 .f32 0x00000000#32))
    (broadcastTo S512x128 (shapeCast S1x128 b2 shapeCasts_S128_S1x128) broadcasts_S1x128_S512x128)

/-- Entry (p, h) of the rectified first layer is the closed form's hidden value of row p. -/
theorem hiddenVec_apply (x0 : FVec Ideal S512x256 .f32) (w1 : FVec Ideal S256x256 .f32) (b1 : FVec Ideal S256 .f32)
    (p : Fin 512) (h : Fin 256) :
    hiddenVec x0 w1 b1 (ix2 p h) = Cert.Spec.hidden w1 b1 (fun k => x0 (ix2 p k)) h := by
  unfold hiddenVec Cert.Spec.hidden
  refine (maximumf_apply _ _ _).trans ?_
  refine congrArg₂ max ?_ rfl
  refine (addf_apply _ _ _).trans ?_
  refine congrArg₂ (· + ·) ?_ ?_
  · exact PlainDot.matmul_apply_ix2 (M := 512) (K := 256) (N := 256) (some .fp32) x0 w1 p h
  · rw [broadcastTo_1b_ab_apply, shapeCast_a_1a_apply]

/-- Entry (p, q) of the second layer is the closed form's projected value of row p. -/
theorem projVec_apply (x0 : FVec Ideal S512x256 .f32) (w1 : FVec Ideal S256x256 .f32) (b1 : FVec Ideal S256 .f32)
    (w2 : FVec Ideal S256x128 .f32) (b2 : FVec Ideal S128 .f32) (p : Fin 512) (q : Fin 128) :
    projVec x0 w1 b1 w2 b2 (ix2 p q) = Cert.Spec.projected w1 b1 w2 b2 (fun k => x0 (ix2 p k)) q := by
  unfold projVec Cert.Spec.projected
  refine (addf_apply _ _ _).trans ?_
  refine congrArg₂ (· + ·) ?_ ?_
  · refine (PlainDot.matmul_apply_ix2 (M := 512) (K := 256) (N := 128) (some .fp32) (hiddenVec x0 w1 b1) w2 p q).trans ?_
    exact Finset.sum_congr rfl fun h _ => congrArg (· * w2 (ix2 h q)) (hiddenVec_apply x0 w1 b1 p h)
  · rw [broadcastTo_1b_ab_apply, shapeCast_a_1a_apply]

/-- The body's result at (p, q): the projected row p divided by its floored Euclidean norm, at column q. -/
theorem pay1_apply (x0 : Vec Ideal S512x256 .f32) (w1 : Vec Ideal S256x256 .f32) (b1 : Vec Ideal S256 .f32)
    (w2 : Vec Ideal S256x128 .f32) (b2 : Vec Ideal S128 .f32) (p : Fin 512) (q : Fin 128) :
    k0_pay1 (F := Ideal) x0 w1 b1 w2 b2 (ix2 p q) = Cert.Spec.feature w1 b1 w2 b2 (fun k => x0 (ix2 p k)) q := by
  unfold k0_pay1 Cert.Spec.feature
  rw [shapeCast_self]
  refine (divf_apply _ _ _).trans ?_
  refine congrArg₂ Ideal.div (projVec_apply x0 w1 b1 w2 b2 p q) ?_
  refine (Column.broadcastTo_a1_ab_apply _ broadcasts_S512x1_S512x128 p q).trans ?_
  refine (maximumf_apply _ _ _).trans ?_
  refine congrArg₂ max ?_ rfl
  show Ideal.sqrt (shapeCast S512x1 (multiReduction (F := Ideal) .add [1] S512
      (mulf (projVec x0 w1 b1 w2 b2) (projVec x0 w1 b1 w2 b2)) 0x00000000#32 reduces_S512x128_S512 (.inl rfl) rfl)
      shapeCasts_S512_S512x1 (ix2 p (0 : Fin 1))) = _
  refine congrArg Ideal.sqrt ?_
  refine (Column.shapeCast_a_a1_apply _ _ p (0 : Fin 1)).trans ?_
  refine (RowReduce.multiReduction_add_cols (a := 512) (b := 128) _ 0x00000000#32
    reduces_S512x128_S512 (.inl rfl) rfl p).trans ?_
  refine Finset.sum_congr rfl fun q' _ => ?_
  refine (mulf_apply _ _ _).trans ?_
  rw [projVec_apply]

end Cert.KernelIdeal.Payloads

end
-- ==== Proof.Value0.lean ====
/-
  What region 0 leaves in the feature array, as one function of the six argument arrays, entry by entry, on the extended reals.

  Before the region the host stacks the two inputs' rows into one 8192 x 256 array: row r is row r of the first input for
  r < 4096 and row r − 4096 of the second otherwise; the four weight arrays are untouched. The region's grid has 16 points;
  point t reads rows 512·t … 512·t + 511 of the stacked array and the whole weight arrays, and writes rows 512·t … 512·t + 511
  of the feature array: row r of the feature array is written by point r div 512 and by no other, and holds the projected and
  normalised row r of the stacked array.
-/
import proofs.«132639_j29025388987032_1_alg».proof.Proof.Run
import proofs.«132639_j29025388987032_1_alg».proof.Proof.KernelPayloads0

set_option maxRecDepth 16384

noncomputable section

namespace Cert.KernelIdeal.Value0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable (m : (ℓ : Loc nD τ sig) → Buf (Elt Ideal) ℓ) (ρ : Dev nD → PrngReg) (c : Dev nD)

/-! ## The arrays the region finds -/

/-- The stacked array is the host's concatenation of the two inputs along the rows. -/
theorem V1_v0 :
    (Run.V1 (F := Ideal) m ρ c main_v0 : S8192x256.Idx → EReal)
      = concatenate S8192x256 0 [⟨S4096x256, m ((c : Thread nD τ).loc main_arg0)⟩, ⟨S4096x256, m ((c : Thread nD τ).loc main_arg1)⟩]
          concatenates_S4096x256_S4096x256_S8192x256_d0 := by
  dsimp only [Run.V1, Run.W1, Run.W0, Gen.hostOps0]
  after_results

/-- Row r of the stacked array: row r of the first input below 4096, row r − 4096 of the second from there on. -/
theorem stacked_eq (r : Fin 8192) (k : Fin 256) :
    Run.V1 (F := Ideal) m ρ c main_v0 (ix2 r k)
      = Cert.Spec.stacked (m ((c : Thread nD τ).loc main_arg0)) (m ((c : Thread nD τ).loc main_arg1)) r k := by
  refine (congrFun (V1_v0 m ρ c) (ix2 r k)).trans ?_
  unfold Cert.Spec.stacked
  by_cases h : r.val < 4096
  · rw [dif_pos h]
    exact concatenate_pair_apply_left (t := S8192x256) (s₁ := S4096x256) (s₂ := S4096x256) 0 _ _ _ (ix2 r k) rfl (ix2 (⟨r.val, h⟩ : Fin 4096) k) fun b =>
      match b with
      | ⟨0, _⟩ => rfl
      | ⟨1, _⟩ => rfl
  · rw [dif_neg h]
    have hr := r.isLt
    exact concatenate_pair_apply_right (t := S8192x256) (s₁ := S4096x256) (s₂ := S4096x256) 0 _ _ _ (ix2 r k) rfl rfl (ix2 (⟨r.val - 4096, by omega⟩ : Fin 4096) k)
      (fun b hb =>
        match b, hb with
        | ⟨0, _⟩, hb => absurd rfl hb
        | ⟨1, _⟩, _ => rfl)
      (show r.val - 4096 + 4096 = r.val by omega)

/-- The concatenation writes the stacked array only: the weight arrays are the arguments. -/
theorem V1_arg2 : Run.V1 (F := Ideal) m ρ c main_arg2 = m ((c : Thread nD τ).loc main_arg2) :=
  Gen.V1_of (F := Ideal) m c main_arg2 (by decide)
theorem V1_arg3 : Run.V1 (F := Ideal) m ρ c main_arg3 = m ((c : Thread nD τ).loc main_arg3) :=
  Gen.V1_of (F := Ideal) m c main_arg3 (by decide)
theorem V1_arg4 : Run.V1 (F := Ideal) m ρ c main_arg4 = m ((c : Thread nD τ).loc main_arg4) :=
  Gen.V1_of (F := Ideal) m c main_arg4 (by decide)
theorem V1_arg5 : Run.V1 (F := Ideal) m ρ c main_arg5 = m ((c : Thread nD τ).loc main_arg5) :=
  Gen.V1_of (F := Ideal) m c main_arg5 (by decide)

/-! ## From the blocks to the array -/

theorem zero2 : (![0, 0] : Fin 2 → Nat) = fun _ => 0 := funext fun a => by fin_cases a <;> rfl
theorem zero1 : (![0] : Fin 1 → Nat) = fun _ => 0 := funext fun a => by fin_cases a <;> rfl

section Blocks
variable (V : (c : Dev nD) → (b : Ref sig .tc) → Buf (Elt Ideal) ((c : Thread nD τ).loc b))

/-- The feature array as a function of the arrays the region finds: entry (r, p) is the feature of row r of the stacked
    array at column p. -/
def featArr (c : Dev nD) : S8192x128.Idx → EReal := fun i =>
  Cert.Spec.feature (V c main_arg2) (V c main_arg3) (V c main_arg4) (V c main_arg5)
    (fun k => V c main_v0 (ix2 (⟨(i 0).val, idx2_lt0 i⟩ : Fin 8192) k)) ⟨(i 1).val, idx2_lt1 i⟩

/-- The index maps over the 16 grid points: the row block read is the row block written, the weight arrays are read whole,
    and the block written is one of the 16 row blocks. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) ≤ 15 ∧ win0_5.index t (1 : Fin 2) = 0 :=
  (by decide +kernel : ∀ t : Fin grid0.N, _)

/-- Every one of the 16 row blocks is some point's. -/
theorem idx_onto : ∀ q0 : Fin 16, ∃ t : Fin cfg0.N, win0_5.index t = ![q0.val, 0] :=
  (by decide +kernel : ∀ q0 : Fin 16, ∃ t : Fin grid0.N, win0_5.index t = ![q0.val, 0])

/-- Equal arguments give equal features. -/
theorem feature_congr {a a' : Cert.Spec.A256x256} {b b' : Cert.Spec.A256} {w w' : Cert.Spec.A256x128} {d d' : Cert.Spec.A128}
    {x x' : Fin 256 → EReal} {q q' : Fin 128} (ha : a = a') (hb : b = b') (hw : w = w') (hd : d = d') (hx : x = x') (hq : q = q') :
    Cert.Spec.feature a b w d x q = Cert.Spec.feature a' b' w' d' x' q' := by
  subst ha hb hw hd hx hq; rfl

/-- The body's result at entry (p, q) of point t's block is the feature array's entry there. -/
theorem block_entry (c : Dev nD) (t : Fin cfg0.N) (p : Fin 512) (q : Fin 128) :
    k0_pay1 (F := Ideal) (Region0.iblk V c 0 t) (Region0.iblk V c 1 t) (Region0.iblk V c 2 t) (Region0.iblk V c 3 t)
        (Region0.iblk V c 4 t) (ix2 p q)
      = featArr V c (((cfg0.win 5).blk t).view.emb (ix2 p q)) := by
  obtain ⟨e0, e1, e2, e3, e4, e5, e6, e7, e8, e9⟩ := idx_facts t
  refine (Payloads.pay1_apply _ _ _ _ _ p q).trans ?_
  unfold featArr
  refine feature_congr ?_ ?_ ?_ ?_ (funext fun k => ?_) (Fin.ext ?_)
  · funext y
    show V c main_arg2 (((cfg0.win 1).blk t).view.emb y) = V c main_arg2 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  · funext y
    show V c main_arg3 (((cfg0.win 2).blk t).view.emb y) = V c main_arg3 y
    refine congrArg _ (funext fun a => Fin.ext ?_)
    match a with
    | ⟨0, _⟩ => show win0_2.index t (0 : Fin 1) * 256 + 1 * (y 0).val = (y 0).val; omega
  · funext y
    show V c main_arg4 (((cfg0.win 3).blk t).view.emb y) = V c main_arg4 y
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 128 + 1 * (y 1).val = (y 1).val; omega
  · funext y
    show V c main_arg5 (((cfg0.win 4).blk t).view.emb y) = V c main_arg5 y
    refine congrArg _ (funext fun a => Fin.ext ?_)
    match a with
    | ⟨0, _⟩ => show win0_4.index t (0 : Fin 1) * 128 + 1 * (y 0).val = (y 0).val; omega
  · show V c main_v0 (((cfg0.win 0).blk t).view.emb (ix2 p k)) = _
    refine congrArg _ (funext fun a => Fin.ext ?_)
    match a with
    | ⟨0, _⟩ => show win0_0.index t (0 : Fin 2) * 512 + 1 * p.val = win0_5.index t (0 : Fin 2) * 512 + 1 * p.val; omega
    | ⟨1, _⟩ => show win0_0.index t (1 : Fin 2) * 256 + 1 * k.val = k.val; omega
  · show q.val = win0_5.index t (1 : Fin 2) * 128 + 1 * q.val
    omega

/-- What point t writes back is block t of the feature array. -/
theorem flushed_eq (c : Dev nD) (t : Fin cfg0.N) :
    (Region0.dat V c).flushed 5 t = ((cfg0.win 5).blk t).view.read (Elt Ideal) (featArr V c) := by
  show (cfg0.win 5).cut (grid0.coords t) ((Region0.dat V c).after 5 t) = _
  rw [Region0.after5]
  unfold Region0.out5
  rw [View.canon_unit_zero zero2]
  simp only [View.ld_unit_zero (S := S512x256) zero2, View.ld_unit_zero (S := S256x256) zero2,
    View.ld_unit_zero (S := S256) zero1, View.ld_unit_zero (S := S256x128) zero2, View.ld_unit_zero (S := S128) zero1]
  funext j
  obtain ⟨p, q, rfl⟩ : ∃ (p : Fin 512) (q : Fin 128), j = ix2 p q := ⟨j 0, j 1, eq_ix2 j⟩
  exact block_entry V c t p q

/-- An index of the feature array is in point t's block when each coordinate is in the block's range on its axis. -/
theorem mem_blk (t : Fin cfg0.N) (i : S8192x128.Idx) :
    i ∈ ((cfg0.win 5).blk t).view.set
      ↔ ∀ a : Fin 2, win0_5.index t a * S512x128.size a ≤ (i a).val ∧ (i a).val < win0_5.index t a * S512x128.size a + S512x128.size a := by
  show i ∈ ((View.whole main_v1).slice (win0_5.rect t)).set ↔ _
  rw [View.set_slice_whole, Rect.mem_set_unit]
  exact Iff.rfl

/-- Row r of the feature array is in the block of the point whose row block is r div 512. -/
theorem cover (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  obtain ⟨t, ht⟩ := idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 128 ≤ (i 1).val ∧ (i 1).val < win0_5.index t (1 : Fin 2) * 128 + 128; omega

/-- The feature array after the region. -/
theorem final (c : Dev nD) : (Region0.dat V c).arrAt 5 cfg0.N = featArr V c :=
  (Region0.dat V c).arrAt_eq_of_cover 5 (featArr V c) (fun t _ => flushed_eq V c t) (cover)

end Blocks

/-! ## The feature array after region 0 -/

/-- Entry (r, p) of the feature array at region 0's exit is the closed form's feature of row r of the stacked inputs at
    column p, a function of the six argument arrays at launch. -/
theorem features_eq (r : Fin 8192) (p : Fin 128) :
    Run.V2 (F := Ideal) m ρ c main_v1 (ix2 r p)
      = Cert.Spec.features (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) r p := by
  have h := (Run.W2_arr (F := Ideal) m ρ c 5).trans (final (Run.V1 (F := Ideal) m ρ) c)
  refine (congrFun h (ix2 r p)).trans ?_
  unfold featArr Cert.Spec.features
  exact feature_congr (V1_arg2 m ρ c) (V1_arg3 m ρ c) (V1_arg4 m ρ c) (V1_arg5 m ρ c)
    (funext fun k => stacked_eq m ρ c r k) rfl

end Cert.KernelIdeal.Value0

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.FiniteInputs.lean ====
/-
  The precondition "every input is finite", decoded: when the test function answers 1, every entry of each of the six argument
  arrays is a real number.

  The test is the conjunction of six tests, one per array; each is "for all entries, |x| < +∞", computed as a reduction by
  "and" from the constant 1 over all the axes of the entrywise comparison. A conjunction of one-bit words is 1 only when each
  is; a reduction by "and" is 1 only when every entry is; and an extended real whose absolute value is below +∞ is a real.
-/
import proofs.«132639_j29025388987032_1_alg».proof.Pre_finite_inputs
import proofs.«132639_j29025388987032_1_alg».proof.Proof.Gen.Pre_finite_inputs
import proofs.«132639_j29025388987032_1_alg».proof.Proof.LibFiniteTest
import Idealize.ShloMosaic.Lib.ReduceAll
import Idealize.ShloMosaic.Lib.Affine

noncomputable section

namespace Cert.Finite

open Idealize.ShloMosaic Cert.Pre_finite_inputs

/-- Every entry of each argument array is a real number when the finiteness test answers 1. -/
theorem reals_of_pre [Cert.Pre_finite_inputs.Facts] (x1 x2 : FVec Ideal Cert.Pre_finite_inputs.S4096x256 .f32)
    (W1 : FVec Ideal Cert.Pre_finite_inputs.S256x256 .f32) (b1 : FVec Ideal Cert.Pre_finite_inputs.S256 .f32)
    (W2 : FVec Ideal Cert.Pre_finite_inputs.S256x128 .f32) (b2 : FVec Ideal Cert.Pre_finite_inputs.S128 .f32)
    (h : Cert.Pre_finite_inputs.fn (F := Ideal) x1 x2 W1 b1 W2 b2 = fun _ => 1#1) :
    (∀ i, ∃ r : ℝ, x1 i = (r : EReal)) ∧ (∀ i, ∃ r : ℝ, x2 i = (r : EReal)) ∧ (∀ i, ∃ r : ℝ, W1 i = (r : EReal))
      ∧ (∀ i, ∃ r : ℝ, b1 i = (r : EReal)) ∧ (∀ i, ∃ r : ℝ, W2 i = (r : EReal)) ∧ (∀ i, ∃ r : ℝ, b2 i = (r : EReal)) := by
  haveI : Subsingleton Cert.Pre_finite_inputs.S_.Idx := FiniteTest.subsingleton_scalarIdx
  have h0 := congrFun h ValueIdx.ix0
  dsimp only [Cert.Pre_finite_inputs.fn, Cert.Pre_finite_inputs.fn_part1] at h0
  obtain ⟨h5, t6⟩ := IntOp.andi_eq_one.mp h0
  obtain ⟨h4, t5⟩ := IntOp.andi_eq_one.mp h5
  obtain ⟨h3, t4⟩ := IntOp.andi_eq_one.mp h4
  obtain ⟨h2, t3⟩ := IntOp.andi_eq_one.mp h3
  obtain ⟨t1, t2⟩ := IntOp.andi_eq_one.mp h2
  exact ⟨fun i => FiniteTest.real_of_test x1 Facts.bcast_S_S4096x256 i (Host.reduce_andi_all _ _ _ _ _ t1 i),
    fun i => FiniteTest.real_of_test x2 Facts.bcast_S_S4096x256 i (Host.reduce_andi_all _ _ _ _ _ t2 i),
    fun i => FiniteTest.real_of_test W1 Facts.bcast_S_S256x256 i (Host.reduce_andi_all _ _ _ _ _ t3 i),
    fun i => FiniteTest.real_of_test b1 Facts.bcast_S_S256 i (Host.reduce_andi_all _ _ _ _ _ t4 i),
    fun i => FiniteTest.real_of_test W2 Facts.bcast_S_S256x128 i (Host.reduce_andi_all _ _ _ _ _ t5 i),
    fun i => FiniteTest.real_of_test b2 Facts.bcast_S_S128 i (Host.reduce_andi_all _ _ _ _ _ t6 i)⟩

end Cert.Finite

end
-- ==== Proof.KernelValue.lean ====
/-
  The idealized kernel's result as the closed form of the six argument arrays.

  The result buffer ends at minus (the host's sum, from zero, of the 8192 loss rows) divided by the row count. Region 1
  leaves row i's value in entry i of the loss rows' array; for real features that value is the closed form's row value of the
  feature matrix; the feature matrix region 0 leaves is the closed form's feature matrix of the six arguments, which is real
  when the arguments are finite. The sum over the 8192 x 1 index set is the sum over the 8192 rows.
-/
import proofs.«132639_j29025388987032_1_alg».proof.Proof.RunRead
import proofs.«132639_j29025388987032_1_alg».proof.Proof.Value1Arr
import proofs.«132639_j29025388987032_1_alg».proof.Proof.Value0
import proofs.«132639_j29025388987032_1_alg».proof.Proof.FiniteInputs
import Idealize.ShloMosaic.Lib.IdealHost

set_option maxRecDepth 16384

noncomputable section

open scoped BigOperators

namespace Cert.KernelIdeal.KernelValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The sum of the loss rows' array over its 8192 x 1 index set is the sum of the rows' values. -/
theorem sum_rows (A : S8192x1.Idx → EReal) : ∑ i, A i = ∑ r : Fin 8192, A (ix2 r (0 : Fin 1)) := by
  rw [sum_idx2]
  exact Finset.sum_congr rfl fun r _ => Fin.sum_univ_one _

/-- THE KERNEL'S RESULT: for finite arguments, the result buffer holds the closed form of the six argument arrays. -/
theorem kernel_result (m : (ℓ : Loc nD τ sig) → Buf (Elt Ideal) ℓ) (ρ : Dev nD → PrngReg)
    (dat1 : (c : Dev nD) → Dat τ (Elt Ideal) Unit ℕ (UR sig nD τ) ℕ cfg1 c)
    (hafter : ∀ c t, (dat1 c).after 2 t = k1_pay2 (F := Ideal) (Region1.acc (Run.V2 m ρ) c t.val t.isLt).p
      (Region1.acc (Run.V2 m ρ) c t.val t.isLt).m (Region1.acc (Run.V2 m ρ) c t.val t.isLt).l)
    [Cert.Pre_finite_inputs.Facts]
    (hpre : ∀ c : Dev nD, Cert.Pre_finite_inputs.fn (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) = fun _ => 1#1)
    (c : Dev nD) :
    Run.W4 (F := Ideal) m ρ dat1 c (Proc.devRef .tc main_v5)
      = fun _ => Cert.Spec.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  obtain ⟨hx1, hx2, hW1, hb1, hW2, hb2⟩ := Cert.Finite.reals_of_pre _ _ _ _ _ _ (hpre c)
  have hfeat : Value1.feats (Run.V2 (F := Ideal) m ρ) c
      = Cert.Spec.features (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) :=
    funext fun i => funext fun d => Value0.features_eq m ρ c i d
  have hf : ∀ i d, ∃ r : ℝ, Value1.feats (Run.V2 (F := Ideal) m ρ) c i d = (r : EReal) := fun i d => by
    rw [hfeat]
    exact Cert.Rows.features_real _ _ _ _ _ _ hx1 hx2 hW1 hb1 hW2 hb2 i d
  have harr : (dat1 c).arrAt 2 cfg1.N = Value1.rowsArr (Run.V2 (F := Ideal) m ρ) c :=
    Value1.rows_final (Run.V2 (F := Ideal) m ρ) c (dat1 c) (hafter c)
  refine (Run.W4_main_v5 (F := Ideal) m ρ dat1 c).trans ?_
  rw [harr]
  funext j
  show -(Ideal.div (Ideal.hostReduceAdd reducesTo_S8192x1_S_d0_1 (Value1.rowsArr (Run.V2 (F := Ideal) m ρ) c)
      (Ideal.ofBits .f32 0x00000000#32) j) (Ideal.ofBits .f32 0x46000000#32)) = _
  rw [Ideal.hostReduceAdd_total _ (fun b => b.elim0), Ideal.ofBits_zero_f32, sum_rows]
  unfold Cert.Spec.result Cert.Spec.loss
  refine congrArg (fun s => -(Ideal.div (0 + s) Cert.Spec.nrows)) (Finset.sum_congr rfl fun i _ => ?_)
  show Value1.rowK (Run.V2 (F := Ideal) m ρ) c i = _
  rw [Value1.rowK_eq (Run.V2 (F := Ideal) m ρ) c hf i, hfeat]

end Cert.KernelIdeal.KernelValue

end
-- ==== Proof.RefRun.lean ====
/-
  The reference program's @main as the list of its host operations, and its frame: every weakly fair execution
  terminates, nothing faults, and each argument array ends holding its launch contents (no operation writes an
  argument's buffer, so reading the last valuation at an argument walks back to the launch memory).
-/
import proofs.«132639_j29025388987032_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 91 operations, in order (a called function's operations stand in its call's place). -/
abbrev ops : List (HloOp τ sig (Elt F)) :=
  [ binary main_arg0 main_arg2 main_v0 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg3 main_v1 (broadcastInDim S1x256 ![1] bcast_S256_S1x256_1 : (⟨S256, .f32⟩ : BufTy).Contents (Elt F) → (⟨S1x256, .f32⟩ : BufTy).Contents (Elt F)),
    unary main_v1 main_v2 (broadcastInDim S4096x256 ![0, 1] bcast_S1x256_S4096x256_0_1 : (⟨S1x256, .f32⟩ : BufTy).Contents (Elt F) → (⟨S4096x256, .f32⟩ : BufTy).Contents (Elt F)),
    binary main_v0 main_v2 main_v3 (addf : (⟨S4096x256, .f32⟩ : BufTy).Contents (Elt F) → (⟨S4096x256, .f32⟩ : BufTy).Contents (Elt F) → (⟨S4096x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x256, .f32⟩) main_call0_v0) (broadcastInDim S4096x256 ![] bcast_S_S4096x256),
    TRef.binary (TRef.of (T := ⟨S4096x256, .f32⟩) main_v3) (TRef.of (T := ⟨S4096x256, .f32⟩) main_call0_v0) (TRef.of (T := ⟨S4096x256, .f32⟩) main_v4) maximumf,
    binary main_v4 main_arg4 main_v5 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg5 main_v6 (broadcastInDim S1x128 ![1] bcast_S128_S1x128_1 : (⟨S128, .f32⟩ : BufTy).Contents (Elt F) → (⟨S1x128, .f32⟩ : BufTy).Contents (Elt F)),
    unary main_v6 main_v7 (broadcastInDim S4096x128 ![0, 1] bcast_S1x128_S4096x128_0_1 : (⟨S1x128, .f32⟩ : BufTy).Contents (Elt F) → (⟨S4096x128, .f32⟩ : BufTy).Contents (Elt F)),
    binary main_v5 main_v7 main_v8 (addf : (⟨S4096x128, .f32⟩ : BufTy).Contents (Elt F) → (⟨S4096x128, .f32⟩ : BufTy).Contents (Elt F) → (⟨S4096x128, .f32⟩ : BufTy).Contents (Elt F)),
    binary main_v8 main_v8 main_v9 (mulf : (⟨S4096x128, .f32⟩ : BufTy).Contents (Elt F) → (⟨S4096x128, .f32⟩ : BufTy).Contents (Elt F) → (⟨S4096x128, .f32⟩ : BufTy).Contents (Elt F)),
    nullary main_cst (constant S_ .f32 0x00000000#32),
    binary main_v9 main_cst main_v10 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v10 main_v11 (broadcastInDim S4096x1 ![0] bcast_S4096_S4096x1_0 : (⟨S4096, .f32⟩ : BufTy).Contents (Elt F) → (⟨S4096x1, .f32⟩ : BufTy).Contents (Elt F)),
    unary main_v11 main_v12 (Host.sqrt : (⟨S4096x1, .f32⟩ : BufTy).Contents (Elt F) → (⟨S4096x1, .f32⟩ : BufTy).Contents (Elt F)),
    nullary main_cst_0 (constant S_ .f32 0x2B8CBCCC#32),
    unary main_cst_0 main_v13 (broadcastInDim S4096x1 ![] bcast_S_S4096x1 : (⟨S_, .f32⟩ : BufTy).Contents (Elt F) → (⟨S4096x1, .f32⟩ : BufTy).Contents (Elt F)),
    binary main_v12 main_v13 main_v14 (maximumf : (⟨S4096x1, .f32⟩ : BufTy).Contents (Elt F) → (⟨S4096x1, .f32⟩ : BufTy).Contents (Elt F) → (⟨S4096x1, .f32⟩ : BufTy).Contents (Elt F)),
    unary main_v14 main_v15 (broadcastInDim S4096x128 ![0, 1] bcast_S4096x1_S4096x128_0_1 : (⟨S4096x1, .f32⟩ : BufTy).Contents (Elt F) → (⟨S4096x128, .f32⟩ : BufTy).Contents (Elt F)),
    binary main_v8 main_v15 main_v16 (Host.divf : (⟨S4096x128, .f32⟩ : BufTy).Contents (Elt F) → (⟨S4096x128, .f32⟩ : BufTy).Contents (Elt F) → (⟨S4096x128, .f32⟩ : BufTy).Contents (Elt F)),
    binary main_arg1 main_arg2 main_v17 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg3 main_v18 (broadcastInDim S1x256 ![1] bcast_S256_S1x256_1 : (⟨S256, .f32⟩ : BufTy).Contents (Elt F) → (⟨S1x256, .f32⟩ : BufTy).Contents (Elt F)),
    unary main_v18 main_v19 (broadcastInDim S4096x256 ![0, 1] bcast_S1x256_S4096x256_0_1 : (⟨S1x256, .f32⟩ : BufTy).Contents (Elt F) → (⟨S4096x256, .f32⟩ : BufTy).Contents (Elt F)),
    binary main_v17 main_v19 main_v20 (addf : (⟨S4096x256, .f32⟩ : BufTy).Contents (Elt F) → (⟨S4096x256, .f32⟩ : BufTy).Contents (Elt F) → (⟨S4096x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x256, .f32⟩) main_call1_v0) (broadcastInDim S4096x256 ![] bcast_S_S4096x256),
    TRef.binary (TRef.of (T := ⟨S4096x256, .f32⟩) main_v20) (TRef.of (T := ⟨S4096x256, .f32⟩) main_call1_v0) (TRef.of (T := ⟨S4096x256, .f32⟩) main_v21) maximumf,
    binary main_v21 main_arg4 main_v22 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg5 main_v23 (broadcastInDim S1x128 ![1] bcast_S128_S1x128_1 : (⟨S128, .f32⟩ : BufTy).Contents (Elt F) → (⟨S1x128, .f32⟩ : BufTy).Contents (Elt F)),
    unary main_v23 main_v24 (broadcastInDim S4096x128 ![0, 1] bcast_S1x128_S4096x128_0_1 : (⟨S1x128, .f32⟩ : BufTy).Contents (Elt F) → (⟨S4096x128, .f32⟩ : BufTy).Contents (Elt F)),
    binary main_v22 main_v24 main_v25 (addf : (⟨S4096x128, .f32⟩ : BufTy).Contents (Elt F) → (⟨S4096x128, .f32⟩ : BufTy).Contents (Elt F) → (⟨S4096x128, .f32⟩ : BufTy).Contents (Elt F)),
    binary main_v25 main_v25 main_v26 (mulf : (⟨S4096x128, .f32⟩ : BufTy).Contents (Elt F) → (⟨S4096x128, .f32⟩ : BufTy).Contents (Elt F) → (⟨S4096x128, .f32⟩ : BufTy).Contents (Elt F)),
    nullary main_cst_1 (constant S_ .f32 0x00000000#32),
    binary main_v26 main_cst_1 main_v27 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v27 main_v28 (broadcastInDim S4096x1 ![0] bcast_S4096_S4096x1_0 : (⟨S4096, .f32⟩ : BufTy).Contents (Elt F) → (⟨S4096x1, .f32⟩ : BufTy).Contents (Elt F)),
    unary main_v28 main_v29 (Host.sqrt : (⟨S4096x1, .f32⟩ : BufTy).Contents (Elt F) → (⟨S4096x1, .f32⟩ : BufTy).Contents (Elt F)),
    nullary main_cst_2 (constant S_ .f32 0x2B8CBCCC#32),
    unary main_cst_2 main_v30 (broadcastInDim S4096x1 ![] bcast_S_S4096x1 : (⟨S_, .f32⟩ : BufTy).Contents (Elt F) → (⟨S4096x1, .f32⟩ : BufTy).Contents (Elt F)),
    binary main_v29 main_v30 main_v31 (maximumf : (⟨S4096x1, .f32⟩ : BufTy).Contents (Elt F) → (⟨S4096x1, .f32⟩ : BufTy).Contents (Elt F) → (⟨S4096x1, .f32⟩ : BufTy).Contents (Elt F)),
    unary main_v31 main_v32 (broadcastInDim S4096x128 ![0, 1] bcast_S4096x1_S4096x128_0_1 : (⟨S4096x1, .f32⟩ : BufTy).Contents (Elt F) → (⟨S4096x128, .f32⟩ : BufTy).Contents (Elt F)),
    binary main_v25 main_v32 main_v33 (Host.divf : (⟨S4096x128, .f32⟩ : BufTy).Contents (Elt F) → (⟨S4096x128, .f32⟩ : BufTy).Contents (Elt F) → (⟨S4096x128, .f32⟩ : BufTy).Contents (Elt F)),
    binary main_v16 main_v33 main_v34 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    unary main_v34 main_v35 ((transpose S128x8192 [1, 0] · transposes_S8192x128_S128x8192_1_0) : (⟨S8192x128, .f32⟩ : BufTy).Contents (Elt F) → (⟨S128x8192, .f32⟩ : BufTy).Contents (Elt F)),
    binary main_v34 main_v35 main_v36 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_3 (constant S_ .f32 0x3D8F5C29#32),
    unary main_cst_3 main_v37 (broadcastInDim S8192x8192 ![] bcast_S_S8192x8192 : (⟨S_, .f32⟩ : BufTy).Contents (Elt F) → (⟨S8192x8192, .f32⟩ : BufTy).Contents (Elt F)),
    binary main_v36 main_v37 main_v38 (Host.divf : (⟨S8192x8192, .f32⟩ : BufTy).Contents (Elt F) → (⟨S8192x8192, .f32⟩ : BufTy).Contents (Elt F) → (⟨S8192x8192, .f32⟩ : BufTy).Contents (Elt F)),
    TRef.nullary (TRef.of (T := ⟨S_, .f32⟩) main_call2_cst) (constant S_ .f32 0xFF800000#32),
    TRef.binary (TRef.of (T := ⟨S8192x8192, .f32⟩) main_v38) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v38) (TRef.of (T := ⟨S8192x8192, .f32⟩) main_call2_v4) (TRef.of (T := ⟨S8192x8192, .f32⟩) main_call2_v5) subf,
    TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v39) subf,
    nullary main_v40 (iotaInDim S4096 32 0),
    nullary main_v41 (iotaInDim S4096 32 0),
    binary main_v40 main_v41 main_v42 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)),
    unary main_v42 main_v43 (broadcastInDim S1x8192 ![1] bcast_S8192_S1x8192_1 : (⟨S8192, .i32⟩ : BufTy).Contents (Elt F) → (⟨S1x8192, .i32⟩ : BufTy).Contents (Elt F)),
    unary main_v42 main_v44 (broadcastInDim S8192x1 ![0] bcast_S8192_S8192x1_0 : (⟨S8192, .i32⟩ : BufTy).Contents (Elt F) → (⟨S8192x1, .i32⟩ : BufTy).Contents (Elt F)),
    unary main_v43 main_v45 (broadcastInDim S8192x8192 ![0, 1] bcast_S1x8192_S8192x8192_0_1 : (⟨S1x8192, .i32⟩ : BufTy).Contents (Elt F) → (⟨S8192x8192, .i32⟩ : BufTy).Contents (Elt F)),
    unary main_v44 main_v46 (broadcastInDim S8192x8192 ![0, 1] bcast_S8192x1_S8192x8192_0_1 : (⟨S8192x1, .i32⟩ : BufTy).Contents (Elt F) → (⟨S8192x8192, .i32⟩ : BufTy).Contents (Elt F)),
    binary main_v45 main_v46 main_v47 (cmpi .eq : (⟨S8192x8192, .i32⟩ : BufTy).Contents (Elt F) → (⟨S8192x8192, .i32⟩ : BufTy).Contents (Elt F) → (⟨S8192x8192, .i1⟩ : BufTy).Contents (Elt F)),
    nullary main_v48 (iotaInDim S8192x8192 32 0),
    nullary main_v49 (iotaInDim S8192x8192 32 1),
    nullary main_c (constantI S_ 32 0#32),
    unary main_c main_v50 (broadcastInDim S8192x8192 ![] bcast_S_S8192x8192 : (⟨S_, .i32⟩ : BufTy).Contents (Elt F) → (⟨S8192x8192, .i32⟩ : BufTy).Contents (Elt F)),
    binary main_v48 main_v50 main_v51 (addi : (⟨S8192x8192, .i32⟩ : BufTy).Contents (Elt F) → (⟨S8192x8192, .i32⟩ : BufTy).Contents (Elt F) → (⟨S8192x8192, .i32⟩ : BufTy).Contents (Elt F)),
    binary main_v51 main_v49 main_v52 (cmpi .eq : (⟨S8192x8192, .i32⟩ : BufTy).Contents (Elt F) → (⟨S8192x8192, .i32⟩ : BufTy).Contents (Elt F) → (⟨S8192x8192, .i1⟩ : BufTy).Contents (Elt F)),
    unary main_v52 main_v53 (noti : (⟨S8192x8192, .i1⟩ : BufTy).Contents (Elt F) → (⟨S8192x8192, .i1⟩ : BufTy).Contents (Elt F)),
    binary main_v47 main_v53 main_v54 (andi : (⟨S8192x8192, .i1⟩ : BufTy).Contents (Elt F) → (⟨S8192x8192, .i1⟩ : BufTy).Contents (Elt F) → (⟨S8192x8192, .i1⟩ : BufTy).Contents (Elt F)),
    unary main_v54 main_v55 (uitofp .f32 : (⟨S8192x8192, .i1⟩ : BufTy).Contents (Elt F) → (⟨S8192x8192, .f32⟩ : BufTy).Contents (Elt F)),
    binary main_v55 main_v39 main_v56 (mulf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x00000000#32),
    binary main_v56 main_cst_4 main_v57 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_5 (constant S_ .f32 0x00000000#32),
    binary main_v55 main_cst_5 main_v58 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v57 main_v58 main_v59 (Host.divf : (⟨S8192, .f32⟩ : BufTy).Contents (Elt F) → (⟨S8192, .f32⟩ : BufTy).Contents (Elt F) → (⟨S8192, .f32⟩ : BufTy).Contents (Elt F)),
    nullary main_cst_6 (constant S_ .f32 0x00000000#32),
    binary main_v59 main_cst_6 main_v60 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_7 (constant S_ .f32 0x46000000#32),
    binary main_v60 main_cst_7 main_v61 (Host.divf : (⟨S_, .f32⟩ : BufTy).Contents (Elt F) → (⟨S_, .f32⟩ : BufTy).Contents (Elt F) → (⟨S_, .f32⟩ : BufTy).Contents (Elt F)),
    unary main_v61 main_v62 (Host.negf : (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., binary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., unary_bufs_sub .., binary_bufs_sub .., nullary_bufs_sub .., binary_bufs_sub .., nullary_bufs_sub .., binary_bufs_sub .., binary_bufs_sub .., nullary_bufs_sub .., binary_bufs_sub .., nullary_bufs_sub .., binary_bufs_sub .., unary_bufs_sub ..⟩

set_option maxRecDepth 65536 in
set_option maxHeartbeats 36400000 in
/-- On every device, for any float values, from any memory with zero counters: every weakly fair execution of
    @main terminates with the arguments unchanged. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.HandRun

end
-- ==== Proof.RefValue.lean ====
/-
  The reference program's run with its result named. The 91 host operations are cut into six consecutive stretches; what
  each stretch leaves in the buffer a later stretch reads is a named function of what it found in the buffers it reads
  (the projection with its normalisation, the stacked features and their logits, the row-wise log-softmax, the mask of
  paired columns, and the masked row means with their mean), and a buffer a stretch does not write keeps its contents.
  Composing the six readings gives the result buffer as `out` of the six argument arrays.
-/
import proofs.«132639_j29025388987032_1_alg».proof.Proof.RefRun

noncomputable section

namespace Cert.ReferenceIdeal.RefValue

open Cert.ReferenceIdeal Cert.ReferenceIdeal.Gen Cert.ReferenceIdeal.HandRun Idealize.ShloMosaic Idealize.ShloMosaic.TcCoe Idealize.SL.Sem Idealize.ShloMosaic.StableHlo

variable {F : FTy → Type} [FloatOps F]

/-- A float array of the given shape. -/
abbrev A (F : FTy → Type) (S : Shape) : Type := (⟨S, .f32⟩ : BufTy).Contents (Elt F)

/-! ## The stages, as functions of the arrays they read -/

/-- Rows through both dense layers: the first with its bias and the rectification, the second with its bias. -/
def proj (x : A F S4096x256) (W1 : A F S256x256) (b1 : A F S256) (W2 : A F S256x128) (b2 : A F S128) : A F S4096x128 :=
  addf (Host.dotGeneral dot_S4096x256_S256x128_S4096x128_1_0_0_1_n_n none
      (maximumf (addf (Host.dotGeneral dot_S4096x256_S256x256_S4096x256_1_0_0_1_n_n none x W1)
          (broadcastInDim S4096x256 ![0, 1] bcast_S1x256_S4096x256_0_1 (broadcastInDim S1x256 ![1] bcast_S256_S1x256_1 b1)))
        (broadcastInDim S4096x256 ![] bcast_S_S4096x256 (constant (F := F) S_ .f32 0x00000000#32))) W2)
    (broadcastInDim S4096x128 ![0, 1] bcast_S1x128_S4096x128_0_1 (broadcastInDim S1x128 ![1] bcast_S128_S1x128_1 b2))

/-- Each row divided by its Euclidean norm floored at the small constant. -/
def normalise (z : A F S4096x128) : A F S4096x128 :=
  Host.divf z (broadcastInDim S4096x128 ![0, 1] bcast_S4096x1_S4096x128_0_1
    (maximumf (Host.sqrt (broadcastInDim S4096x1 ![0] bcast_S4096_S4096x1_0
        (Host.reduceAdd (mulf z z) (constant (F := F) S_ .f32 0x00000000#32) reducesTo_S4096x128_S4096_d1 h_S_)))
      (broadcastInDim S4096x1 ![] bcast_S_S4096x1 (constant (F := F) S_ .f32 0x2B8CBCCC#32))))

/-- One input's rows projected and normalised. -/
def feat (x : A F S4096x256) (W1 : A F S256x256) (b1 : A F S256) (W2 : A F S256x128) (b2 : A F S128) : A F S4096x128 :=
  normalise (proj x W1 b1 W2 b2)

/-- The two feature blocks stacked along the rows. -/
def feats (f1 f2 : A F S4096x128) : A F S8192x128 :=
  concatenate S8192x128 0 [⟨S4096x128, f1⟩, ⟨S4096x128, f2⟩] concatenates_S4096x128_S4096x128_S8192x128_d0

/-- The inner products of all pairs of stacked rows, divided by the temperature word. -/
def logits (f1 f2 : A F S4096x128) : A F S8192x8192 :=
  Host.divf (Host.dotGeneral dot_S8192x128_S128x8192_S8192x8192_1_0_0_1_n_n none (feats f1 f2)
      (transpose S128x8192 [1, 0] (feats f1 f2) transposes_S8192x128_S128x8192_1_0))
    (broadcastInDim S8192x8192 ![] bcast_S_S8192x8192 (constant (F := F) S_ .f32 0x3D8F5C29#32))

/-- Each row's maximum, taken from minus infinity. -/
def rowmax (L : A F S8192x8192) : A F S8192 :=
  maximumf (broadcastInDim S8192 ![] bcast_S_S8192 (constant (F := F) S_ .f32 0xFF800000#32))
    (Host.reduce FloatOps.maximumf L (constant (F := F) S_ .f32 0xFF800000#32) reducesTo_S8192x8192_S8192_d1 h_S_)

/-- Each entry minus its row's maximum. -/
def shifted (L : A F S8192x8192) : A F S8192x8192 :=
  subf L (broadcastInDim S8192x8192 ![0, 1] bcast_S8192x1_S8192x8192_0_1 (broadcastInDim S8192x1 ![0] bcast_S8192_S8192x1_0 (rowmax L)))

/-- The row-wise log-softmax: the shifted entry minus the logarithm of its row's sum of exponentials of shifted entries. -/
def logp (L : A F S8192x8192) : A F S8192x8192 :=
  subf (shifted L) (broadcastInDim S8192x8192 ![0, 1] bcast_S8192x1_S8192x8192_0_1
    (Host.log (broadcastInDim S8192x1 ![0] bcast_S8192_S8192x1_0
      (Host.reduceAdd (Host.exp (shifted L)) (constant (F := F) S_ .f32 0x00000000#32) reducesTo_S8192x8192_S8192_d1 h_S_))))

/-- The sample number of each stacked row: 0 … 4095 twice. -/
def labels : (⟨S8192, .i32⟩ : BufTy).Contents (Elt F) :=
  concatenate S8192 0 [⟨S4096, (iotaInDim S4096 32 0)⟩, ⟨S4096, (iotaInDim S4096 32 0)⟩] concatenates_S4096_S4096_S8192_d0

/-- The mask of paired columns: 1 where the column's sample is the row's and the column is not the row, 0 elsewhere. -/
def mask : A F S8192x8192 :=
  uitofp .f32 (andi
    (cmpi .eq (broadcastInDim S8192x8192 ![0, 1] bcast_S1x8192_S8192x8192_0_1 (broadcastInDim S1x8192 ![1] bcast_S8192_S1x8192_1 (labels (F := F))))
      (broadcastInDim S8192x8192 ![0, 1] bcast_S8192x1_S8192x8192_0_1 (broadcastInDim S8192x1 ![0] bcast_S8192_S8192x1_0 (labels (F := F)))))
    (noti (cmpi .eq (addi (iotaInDim S8192x8192 32 0) (broadcastInDim S8192x8192 ![] bcast_S_S8192x8192 (constantI S_ 32 0#32)))
      (iotaInDim S8192x8192 32 1))))

/-- Each row's masked sum of log-probabilities divided by its masked count. -/
def rows (M P : A F S8192x8192) : A F S8192 :=
  Host.divf (Host.reduceAdd (mulf M P) (constant (F := F) S_ .f32 0x00000000#32) reducesTo_S8192x8192_S8192_d1 h_S_)
    (Host.reduceAdd M (constant (F := F) S_ .f32 0x00000000#32) reducesTo_S8192x8192_S8192_d1 h_S_)

/-- Minus the sum of the row values divided by the number of rows. -/
def negMean (R : A F S8192) : A F S_ :=
  Host.negf (Host.divf (Host.reduceAdd R (constant (F := F) S_ .f32 0x00000000#32) reducesTo_S8192_S_d0 h_S_)
    (constant (F := F) S_ .f32 0x46000000#32))

/-- The reference's result as a function of its six argument arrays. -/
def out (x1 x2 : A F S4096x256) (W1 : A F S256x256) (b1 : A F S256) (W2 : A F S256x128) (b2 : A F S128) : A F S_ :=
  negMean (rows (mask (F := F)) (logp (logits (feat x1 W1 b1 W2 b2) (feat x2 W1 b1 W2 b2))))

/-! ## The six stretches of the operation list -/

/-- The first input's rows projected and normalised (operations 1 to 21). -/
abbrev seg1 : List (HloOp τ sig (Elt F)) :=
  [ binary main_arg0 main_arg2 main_v0 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg3 main_v1 (broadcastInDim S1x256 ![1] bcast_S256_S1x256_1 : (⟨S256, .f32⟩ : BufTy).Contents (Elt F) → (⟨S1x256, .f32⟩ : BufTy).Contents (Elt F)),
    unary main_v1 main_v2 (broadcastInDim S4096x256 ![0, 1] bcast_S1x256_S4096x256_0_1 : (⟨S1x256, .f32⟩ : BufTy).Contents (Elt F) → (⟨S4096x256, .f32⟩ : BufTy).Contents (Elt F)),
    binary main_v0 main_v2 main_v3 (addf : (⟨S4096x256, .f32⟩ : BufTy).Contents (Elt F) → (⟨S4096x256, .f32⟩ : BufTy).Contents (Elt F) → (⟨S4096x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x256, .f32⟩) main_call0_v0) (broadcastInDim S4096x256 ![] bcast_S_S4096x256),
    TRef.binary (TRef.of (T := ⟨S4096x256, .f32⟩) main_v3) (TRef.of (T := ⟨S4096x256, .f32⟩) main_call0_v0) (TRef.of (T := ⟨S4096x256, .f32⟩) main_v4) maximumf,
    binary main_v4 main_arg4 main_v5 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg5 main_v6 (broadcastInDim S1x128 ![1] bcast_S128_S1x128_1 : (⟨S128, .f32⟩ : BufTy).Contents (Elt F) → (⟨S1x128, .f32⟩ : BufTy).Contents (Elt F)),
    unary main_v6 main_v7 (broadcastInDim S4096x128 ![0, 1] bcast_S1x128_S4096x128_0_1 : (⟨S1x128, .f32⟩ : BufTy).Contents (Elt F) → (⟨S4096x128, .f32⟩ : BufTy).Contents (Elt F)),
    binary main_v5 main_v7 main_v8 (addf : (⟨S4096x128, .f32⟩ : BufTy).Contents (Elt F) → (⟨S4096x128, .f32⟩ : BufTy).Contents (Elt F) → (⟨S4096x128, .f32⟩ : BufTy).Contents (Elt F)),
    binary main_v8 main_v8 main_v9 (mulf : (⟨S4096x128, .f32⟩ : BufTy).Contents (Elt F) → (⟨S4096x128, .f32⟩ : BufTy).Contents (Elt F) → (⟨S4096x128, .f32⟩ : BufTy).Contents (Elt F)),
    nullary main_cst (constant S_ .f32 0x00000000#32),
    binary main_v9 main_cst main_v10 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v10 main_v11 (broadcastInDim S4096x1 ![0] bcast_S4096_S4096x1_0 : (⟨S4096, .f32⟩ : BufTy).Contents (Elt F) → (⟨S4096x1, .f32⟩ : BufTy).Contents (Elt F)),
    unary main_v11 main_v12 (Host.sqrt : (⟨S4096x1, .f32⟩ : BufTy).Contents (Elt F) → (⟨S4096x1, .f32⟩ : BufTy).Contents (Elt F)),
    nullary main_cst_0 (constant S_ .f32 0x2B8CBCCC#32),
    unary main_cst_0 main_v13 (broadcastInDim S4096x1 ![] bcast_S_S4096x1 : (⟨S_, .f32⟩ : BufTy).Contents (Elt F) → (⟨S4096x1, .f32⟩ : BufTy).Contents (Elt F)),
    binary main_v12 main_v13 main_v14 (maximumf : (⟨S4096x1, .f32⟩ : BufTy).Contents (Elt F) → (⟨S4096x1, .f32⟩ : BufTy).Contents (Elt F) → (⟨S4096x1, .f32⟩ : BufTy).Contents (Elt F)),
    unary main_v14 main_v15 (broadcastInDim S4096x128 ![0, 1] bcast_S4096x1_S4096x128_0_1 : (⟨S4096x1, .f32⟩ : BufTy).Contents (Elt F) → (⟨S4096x128, .f32⟩ : BufTy).Contents (Elt F)),
    binary main_v8 main_v15 main_v16 (Host.divf : (⟨S4096x128, .f32⟩ : BufTy).Contents (Elt F) → (⟨S4096x128, .f32⟩ : BufTy).Contents (Elt F) → (⟨S4096x128, .f32⟩ : BufTy).Contents (Elt F)) ]

/-- The second input's rows projected and normalised (operations 22 to 42). -/
abbrev seg2 : List (HloOp τ sig (Elt F)) :=
  [ binary main_arg1 main_arg2 main_v17 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg3 main_v18 (broadcastInDim S1x256 ![1] bcast_S256_S1x256_1 : (⟨S256, .f32⟩ : BufTy).Contents (Elt F) → (⟨S1x256, .f32⟩ : BufTy).Contents (Elt F)),
    unary main_v18 main_v19 (broadcastInDim S4096x256 ![0, 1] bcast_S1x256_S4096x256_0_1 : (⟨S1x256, .f32⟩ : BufTy).Contents (Elt F) → (⟨S4096x256, .f32⟩ : BufTy).Contents (Elt F)),
    binary main_v17 main_v19 main_v20 (addf : (⟨S4096x256, .f32⟩ : BufTy).Contents (Elt F) → (⟨S4096x256, .f32⟩ : BufTy).Contents (Elt F) → (⟨S4096x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x256, .f32⟩) main_call1_v0) (broadcastInDim S4096x256 ![] bcast_S_S4096x256),
    TRef.binary (TRef.of (T := ⟨S4096x256, .f32⟩) main_v20) (TRef.of (T := ⟨S4096x256, .f32⟩) main_call1_v0) (TRef.of (T := ⟨S4096x256, .f32⟩) main_v21) maximumf,
    binary main_v21 main_arg4 main_v22 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg5 main_v23 (broadcastInDim S1x128 ![1] bcast_S128_S1x128_1 : (⟨S128, .f32⟩ : BufTy).Contents (Elt F) → (⟨S1x128, .f32⟩ : BufTy).Contents (Elt F)),
    unary main_v23 main_v24 (broadcastInDim S4096x128 ![0, 1] bcast_S1x128_S4096x128_0_1 : (⟨S1x128, .f32⟩ : BufTy).Contents (Elt F) → (⟨S4096x128, .f32⟩ : BufTy).Contents (Elt F)),
    binary main_v22 main_v24 main_v25 (addf : (⟨S4096x128, .f32⟩ : BufTy).Contents (Elt F) → (⟨S4096x128, .f32⟩ : BufTy).Contents (Elt F) → (⟨S4096x128, .f32⟩ : BufTy).Contents (Elt F)),
    binary main_v25 main_v25 main_v26 (mulf : (⟨S4096x128, .f32⟩ : BufTy).Contents (Elt F) → (⟨S4096x128, .f32⟩ : BufTy).Contents (Elt F) → (⟨S4096x128, .f32⟩ : BufTy).Contents (Elt F)),
    nullary main_cst_1 (constant S_ .f32 0x00000000#32),
    binary main_v26 main_cst_1 main_v27 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v27 main_v28 (broadcastInDim S4096x1 ![0] bcast_S4096_S4096x1_0 : (⟨S4096, .f32⟩ : BufTy).Contents (Elt F) → (⟨S4096x1, .f32⟩ : BufTy).Contents (Elt F)),
    unary main_v28 main_v29 (Host.sqrt : (⟨S4096x1, .f32⟩ : BufTy).Contents (Elt F) → (⟨S4096x1, .f32⟩ : BufTy).Contents (Elt F)),
    nullary main_cst_2 (constant S_ .f32 0x2B8CBCCC#32),
    unary main_cst_2 main_v30 (broadcastInDim S4096x1 ![] bcast_S_S4096x1 : (⟨S_, .f32⟩ : BufTy).Contents (Elt F) → (⟨S4096x1, .f32⟩ : BufTy).Contents (Elt F)),
    binary main_v29 main_v30 main_v31 (maximumf : (⟨S4096x1, .f32⟩ : BufTy).Contents (Elt F) → (⟨S4096x1, .f32⟩ : BufTy).Contents (Elt F) → (⟨S4096x1, .f32⟩ : BufTy).Contents (Elt F)),
    unary main_v31 main_v32 (broadcastInDim S4096x128 ![0, 1] bcast_S4096x1_S4096x128_0_1 : (⟨S4096x1, .f32⟩ : BufTy).Contents (Elt F) → (⟨S4096x128, .f32⟩ : BufTy).Contents (Elt F)),
    binary main_v25 main_v32 main_v33 (Host.divf : (⟨S4096x128, .f32⟩ : BufTy).Contents (Elt F) → (⟨S4096x128, .f32⟩ : BufTy).Contents (Elt F) → (⟨S4096x128, .f32⟩ : BufTy).Contents (Elt F)) ]

/-- The features stacked and their logits (operations 43 to 48). -/
abbrev seg3 : List (HloOp τ sig (Elt F)) :=
  [ binary main_v16 main_v33 main_v34 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    unary main_v34 main_v35 ((transpose S128x8192 [1, 0] · transposes_S8192x128_S128x8192_1_0) : (⟨S8192x128, .f32⟩ : BufTy).Contents (Elt F) → (⟨S128x8192, .f32⟩ : BufTy).Contents (Elt F)),
    binary main_v34 main_v35 main_v36 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_3 (constant S_ .f32 0x3D8F5C29#32),
    unary main_cst_3 main_v37 (broadcastInDim S8192x8192 ![] bcast_S_S8192x8192 : (⟨S_, .f32⟩ : BufTy).Contents (Elt F) → (⟨S8192x8192, .f32⟩ : BufTy).Contents (Elt F)),
    binary main_v36 main_v37 main_v38 (Host.divf : (⟨S8192x8192, .f32⟩ : BufTy).Contents (Elt F) → (⟨S8192x8192, .f32⟩ : BufTy).Contents (Elt F) → (⟨S8192x8192, .f32⟩ : BufTy).Contents (Elt F)) ]

/-- The row-wise log-softmax (operations 49 to 63). -/
abbrev seg4 : List (HloOp τ sig (Elt F)) :=
  [ TRef.nullary (TRef.of (T := ⟨S_, .f32⟩) main_call2_cst) (constant S_ .f32 0xFF800000#32),
    TRef.binary (TRef.of (T := ⟨S8192x8192, .f32⟩) main_v38) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v38) (TRef.of (T := ⟨S8192x8192, .f32⟩) main_call2_v4) (TRef.of (T := ⟨S8192x8192, .f32⟩) main_call2_v5) subf,
    TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v39) subf ]

/-- The mask of paired columns (operations 64 to 80). -/
abbrev seg5 : List (HloOp τ sig (Elt F)) :=
  [ nullary main_v40 (iotaInDim S4096 32 0),
    nullary main_v41 (iotaInDim S4096 32 0),
    binary main_v40 main_v41 main_v42 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)),
    unary main_v42 main_v43 (broadcastInDim S1x8192 ![1] bcast_S8192_S1x8192_1 : (⟨S8192, .i32⟩ : BufTy).Contents (Elt F) → (⟨S1x8192, .i32⟩ : BufTy).Contents (Elt F)),
    unary main_v42 main_v44 (broadcastInDim S8192x1 ![0] bcast_S8192_S8192x1_0 : (⟨S8192, .i32⟩ : BufTy).Contents (Elt F) → (⟨S8192x1, .i32⟩ : BufTy).Contents (Elt F)),
    unary main_v43 main_v45 (broadcastInDim S8192x8192 ![0, 1] bcast_S1x8192_S8192x8192_0_1 : (⟨S1x8192, .i32⟩ : BufTy).Contents (Elt F) → (⟨S8192x8192, .i32⟩ : BufTy).Contents (Elt F)),
    unary main_v44 main_v46 (broadcastInDim S8192x8192 ![0, 1] bcast_S8192x1_S8192x8192_0_1 : (⟨S8192x1, .i32⟩ : BufTy).Contents (Elt F) → (⟨S8192x8192, .i32⟩ : BufTy).Contents (Elt F)),
    binary main_v45 main_v46 main_v47 (cmpi .eq : (⟨S8192x8192, .i32⟩ : BufTy).Contents (Elt F) → (⟨S8192x8192, .i32⟩ : BufTy).Contents (Elt F) → (⟨S8192x8192, .i1⟩ : BufTy).Contents (Elt F)),
    nullary main_v48 (iotaInDim S8192x8192 32 0),
    nullary main_v49 (iotaInDim S8192x8192 32 1),
    nullary main_c (constantI S_ 32 0#32),
    unary main_c main_v50 (broadcastInDim S8192x8192 ![] bcast_S_S8192x8192 : (⟨S_, .i32⟩ : BufTy).Contents (Elt F) → (⟨S8192x8192, .i32⟩ : BufTy).Contents (Elt F)),
    binary main_v48 main_v50 main_v51 (addi : (⟨S8192x8192, .i32⟩ : BufTy).Contents (Elt F) → (⟨S8192x8192, .i32⟩ : BufTy).Contents (Elt F) → (⟨S8192x8192, .i32⟩ : BufTy).Contents (Elt F)),
    binary main_v51 main_v49 main_v52 (cmpi .eq : (⟨S8192x8192, .i32⟩ : BufTy).Contents (Elt F) → (⟨S8192x8192, .i32⟩ : BufTy).Contents (Elt F) → (⟨S8192x8192, .i1⟩ : BufTy).Contents (Elt F)),
    unary main_v52 main_v53 (noti : (⟨S8192x8192, .i1⟩ : BufTy).Contents (Elt F) → (⟨S8192x8192, .i1⟩ : BufTy).Contents (Elt F)),
    binary main_v47 main_v53 main_v54 (andi : (⟨S8192x8192, .i1⟩ : BufTy).Contents (Elt F) → (⟨S8192x8192, .i1⟩ : BufTy).Contents (Elt F) → (⟨S8192x8192, .i1⟩ : BufTy).Contents (Elt F)),
    unary main_v54 main_v55 (uitofp .f32 : (⟨S8192x8192, .i1⟩ : BufTy).Contents (Elt F) → (⟨S8192x8192, .f32⟩ : BufTy).Contents (Elt F)) ]

/-- The masked row means and minus their mean (operations 81 to 91). -/
abbrev seg6 : List (HloOp τ sig (Elt F)) :=
  [ binary main_v55 main_v39 main_v56 (mulf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x00000000#32),
    binary main_v56 main_cst_4 main_v57 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_5 (constant S_ .f32 0x00000000#32),
    binary main_v55 main_cst_5 main_v58 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v57 main_v58 main_v59 (Host.divf : (⟨S8192, .f32⟩ : BufTy).Contents (Elt F) → (⟨S8192, .f32⟩ : BufTy).Contents (Elt F) → (⟨S8192, .f32⟩ : BufTy).Contents (Elt F)),
    nullary main_cst_6 (constant S_ .f32 0x00000000#32),
    binary main_v59 main_cst_6 main_v60 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_7 (constant S_ .f32 0x46000000#32),
    binary main_v60 main_cst_7 main_v61 (Host.divf : (⟨S_, .f32⟩ : BufTy).Contents (Elt F) → (⟨S_, .f32⟩ : BufTy).Contents (Elt F) → (⟨S_, .f32⟩ : BufTy).Contents (Elt F)),
    unary main_v61 main_v62 (Host.negf : (⟨S_, .f32⟩ : BufTy).Contents (Elt F) → (⟨S_, .f32⟩ : BufTy).Contents (Elt F)) ]

/-- The operation list is its six stretches in order. -/
theorem ops_eq : (ops : List (HloOp τ sig (Elt F))) = seg1 ++ (seg2 ++ (seg3 ++ (seg4 ++ (seg5 ++ seg6)))) := rfl

/-- Running two lists one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The typed references of an inlined function

An inlined function's operations write and read their buffers through typed references; contents moved to a typed
reference's buffer type and back are the contents, and at a literal reference either move is the identity. -/

theorem ofBuf_toBuf {T : BufTy} (x : TRef sig T) (z : T.Contents (Elt F)) : x.ofBuf (Val := Elt F) (x.toBuf z) = z := by
  obtain ⟨r, h, h1, h2⟩ := x
  subst h
  rfl

theorem ofBuf_main_v38 (v : (⟨S8192x8192, .f32⟩ : BufTy).Contents (Elt F)) :
    (TRef.of (T := ⟨S8192x8192, .f32⟩) main_v38).ofBuf (Val := Elt F) v = v := rfl
theorem toBuf_main_v39 (v : (⟨S8192x8192, .f32⟩ : BufTy).Contents (Elt F)) :
    (TRef.of (T := ⟨S8192x8192, .f32⟩) main_v39).toBuf (Val := Elt F) v = v := rfl

/-! ## What each stretch leaves

Each equation is by computation: the fold unrolled, each operation's result read at its own buffer, any other buffer
keeping what it held. -/

section Stretches

variable (W : Valuation τ sig (Elt F))

theorem seg1_out : after (seg1 (F := F)) W (Proc.devRef .tc main_v16)
    = feat (W (Proc.devRef .tc main_arg0)) (W (Proc.devRef .tc main_arg2)) (W (Proc.devRef .tc main_arg3)) (W (Proc.devRef .tc main_arg4)) (W (Proc.devRef .tc main_arg5)) := by
  after_results_simp
  rfl

theorem seg1_keep_arg1 : after (seg1 (F := F)) W (Proc.devRef .tc main_arg1) = W (Proc.devRef .tc main_arg1) := by
  after_results_simp

theorem seg1_keep_arg2 : after (seg1 (F := F)) W (Proc.devRef .tc main_arg2) = W (Proc.devRef .tc main_arg2) := by
  after_results_simp

theorem seg1_keep_arg3 : after (seg1 (F := F)) W (Proc.devRef .tc main_arg3) = W (Proc.devRef .tc main_arg3) := by
  after_results_simp

theorem seg1_keep_arg4 : after (seg1 (F := F)) W (Proc.devRef .tc main_arg4) = W (Proc.devRef .tc main_arg4) := by
  after_results_simp

theorem seg1_keep_arg5 : after (seg1 (F := F)) W (Proc.devRef .tc main_arg5) = W (Proc.devRef .tc main_arg5) := by
  after_results_simp

theorem seg2_out : after (seg2 (F := F)) W (Proc.devRef .tc main_v33)
    = feat (W (Proc.devRef .tc main_arg1)) (W (Proc.devRef .tc main_arg2)) (W (Proc.devRef .tc main_arg3)) (W (Proc.devRef .tc main_arg4)) (W (Proc.devRef .tc main_arg5)) := by
  after_results_simp
  rfl

theorem seg2_keep_v16 : after (seg2 (F := F)) W (Proc.devRef .tc main_v16) = W (Proc.devRef .tc main_v16) := by
  after_results_simp

theorem seg3_out : after (seg3 (F := F)) W (Proc.devRef .tc main_v38)
    = logits (W (Proc.devRef .tc main_v16)) (W (Proc.devRef .tc main_v33)) := by
  after_results_simp
  rfl

theorem seg4_out : after (seg4 (F := F)) W (Proc.devRef .tc main_v39)
    = logp (W (Proc.devRef .tc main_v38)) := by
  after_results_simp
  simp only [ofBuf_toBuf]
  refine (toBuf_main_v39 _).trans ?_
  rw [ofBuf_main_v38]
  unfold logp shifted rowmax
  rfl

theorem seg5_out : after (seg5 (F := F)) W (Proc.devRef .tc main_v55)
    = mask (F := F) := by
  after_results_simp
  rfl

theorem seg5_keep_v39 : after (seg5 (F := F)) W (Proc.devRef .tc main_v39) = W (Proc.devRef .tc main_v39) := by
  after_results_simp

theorem seg6_out : after (seg6 (F := F)) W (Proc.devRef .tc main_v62)
    = negMean (rows (W (Proc.devRef .tc main_v55)) (W (Proc.devRef .tc main_v39))) := by
  after_results_simp
  rfl

end Stretches

/-- The result buffer after all 91 operations, from any contents: `out` of the argument buffers' contents. -/
theorem after_ops_out (V : Valuation τ sig (Elt F)) : after (ops (F := F)) V (Proc.devRef .tc main_v62)
    = out (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_eq, after_app, after_app, after_app, after_app, after_app, seg6_out, seg5_out, seg5_keep_v39, seg4_out, seg3_out,
    seg2_out, seg2_keep_v16, seg1_out, seg1_keep_arg1, seg1_keep_arg2, seg1_keep_arg3, seg1_keep_arg4, seg1_keep_arg5]
  rfl

set_option maxRecDepth 65536 in
set_option maxHeartbeats 36400000 in
/-- On every device, for any float values, from any memory with zero counters: every weakly fair execution of
    @main terminates with the result buffer at `out` of the launch contents of the six arguments, and the arguments
    unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v62).trans ((after_ops_out _).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«132639_j29025388987032_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.RefRead1.lean ====
/-
  The reference's projection stage read at an index, over the extended reals: a row of an input through the first dense
  layer with its bias (lifted to a row and repeated down the rows) and the rectification (the maximum with a broadcast
  zero), through the second dense layer with its bias, then divided by its Euclidean norm floored at the small constant
  (the row sum of squares taken into a zero initial value, kept as a column, its square root floored and broadcast back
  along the row). Entry (r, p) of the stage is the closed form's feature p of row r.
-/
import proofs.«132639_j29025388987032_1_alg».proof.Proof.RefValue
import proofs.«132639_j29025388987032_1_alg».proof.Proof.Spec
import proofs.«132639_j29025388987032_1_alg».proof.Proof.LibAffine
import proofs.«132639_j29025388987032_1_alg».proof.Proof.LibRowColumn
import Idealize.ShloMosaic.Lib.IdealHost

noncomputable section

namespace Cert.ReferenceIdeal.RefRead

open Cert.ReferenceIdeal Cert.ReferenceIdeal.Gen Cert.ReferenceIdeal.RefValue Idealize.ShloMosaic Idealize.ShloMosaic.ValueIdx

namespace Aux

/-! ## Broadcasts along a unit axis, read at coordinates -/

/-- A vector `[a]` kept as the column `[a, 1]` reads, at `(p, u)`, its entry `p`. -/
theorem bcast_a_a1 {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` repeated along its unit axis to `[a, b]` reads, at `(p, c)`, the column's row `p`. -/
theorem bcast_a1_ab {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The zero word, as the first element of the scalar constant a sum starts from, is zero. -/
theorem zero_init : (constant (F := Ideal) S_ .f32 0x00000000#32) (Shape.Idx.first h_S_) = (0 : EReal) :=
  Ideal.ofBits_zero_f32

/-- The host's sum along the rows of a matrix from the zero word, at row `r`: the sum of the row's entries. -/
theorem rowSum_apply {a b : ℕ} (x : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (r : Fin a) :
    Host.reduceAdd x (constant (F := Ideal) S_ .f32 0x00000000#32) h' h_S_ (ix1 r) = 0 + ∑ k : Fin b, x (ix2 r k) := by
  refine (hostReduceAdd_apply x _ h' h_S_ (ix1 r)).trans ?_
  refine (Ideal.hostReduceAdd_single h' h x _ (ix1 r)).trans ?_
  refine congrArg₂ (· + ·) zero_init (Finset.sum_congr rfl fun k _ => congrArg x (RowColumn.lift_cols h r k))

end Aux

open Aux

/-! ## The projection -/

/-- Both dense layers at `(r, p)`. -/
theorem proj_apply (x : A Ideal S4096x256) (W1 : A Ideal S256x256) (b1 : A Ideal S256) (W2 : A Ideal S256x128) (b2 : A Ideal S128)
    (r : Fin 4096) (p : Fin 128) :
    proj x W1 b1 W2 b2 (ix2 r p) = Spec.projected W1 b1 W2 b2 (fun k => x (ix2 r k)) p := by
  unfold proj Spec.projected
  refine (Affine.host_apply none .single _ W2 b2 bcast_S128_S1x128_1 bcast_S1x128_S4096x128_0_1 r p).trans ?_
  refine congrArg₂ (· + ·) (Finset.sum_congr rfl fun h _ => congrArg₂ (· * ·) ?_ rfl) rfl
  unfold Spec.hidden
  refine (maximumf_apply _ _ _).trans (congrArg₂ max ?_ ?_)
  · exact Affine.host_apply none .single x W1 b1 bcast_S256_S1x256_1 bcast_S1x256_S4096x256_0_1 r h
  · exact broadcastInDim_scalar_apply bcast_S_S4096x256 _ _

/-- The normalisation at `(r, p)`: the entry divided by the floored norm of its row. -/
theorem normalise_apply (z : A Ideal S4096x128) (r : Fin 4096) (p : Fin 128) :
    normalise z (ix2 r p)
      = Ideal.div (z (ix2 r p)) (max (Ideal.sqrt (∑ q : Fin 128, z (ix2 r q) * z (ix2 r q))) Spec.eps) := by
  unfold normalise
  refine (hostDivf_apply _ _ _).trans (congrArg (Ideal.div _) ?_)
  refine (bcast_a1_ab _ bcast_S4096x1_S4096x128_0_1 r p).trans ?_
  refine (maximumf_apply _ _ _).trans (congrArg₂ max ?_ ?_)
  · show Ideal.sqrt _ = _
    refine congrArg Ideal.sqrt ?_
    refine (bcast_a_a1 _ bcast_S4096_S4096x1_0 r 0).trans ?_
    refine (rowSum_apply _ reducesTo_S4096x128_S4096_d1 (by decide) r).trans ?_
    exact zero_add _
  · exact broadcastInDim_scalar_apply bcast_S_S4096x1 _ _

/-- One input's features at `(r, p)`: the closed form's feature `p` of the input's row `r`. -/
theorem feat_apply (x : A Ideal S4096x256) (W1 : A Ideal S256x256) (b1 : A Ideal S256) (W2 : A Ideal S256x128) (b2 : A Ideal S128)
    (r : Fin 4096) (p : Fin 128) :
    feat x W1 b1 W2 b2 (ix2 r p) = Spec.feature W1 b1 W2 b2 (fun k => x (ix2 r k)) p := by
  unfold feat Spec.feature
  rw [normalise_apply]
  simp only [proj_apply]

end Cert.ReferenceIdeal.RefRead

end
-- ==== Proof.RefRead2.lean ====
/-
  The stacked features and their logits read at an index, over the extended reals. The two feature blocks laid one after the
  other along the rows read, in the first 4096 rows, the first block and, in the last 4096, the second at the row less 4096;
  with each block the projected and normalised rows of its input this is the closed form's feature matrix. The logit of
  rows i and j is the product of the stacked matrix with its transpose at (i, j), the sum over the 128 features of the
  products of the two rows' entries, divided by the temperature word 9395241/134217728, that is multiplied by its
  reciprocal.
-/
import proofs.«132639_j29025388987032_1_alg».proof.Proof.RefRead1
import proofs.«132639_j29025388987032_1_alg».proof.Proof.LibRowReduce

noncomputable section

namespace Cert.ReferenceIdeal.RefRead

open Cert.ReferenceIdeal Cert.ReferenceIdeal.Gen Cert.ReferenceIdeal.RefValue Idealize.ShloMosaic Idealize.ShloMosaic.ValueIdx

/-! ## The two blocks stacked along the rows -/

/-- In the first 4096 rows the stacked matrix reads the first block. -/
theorem feats_apply_lo (f1 f2 : A Ideal S4096x128) (r : Fin 4096) (p : Fin 128) :
    feats f1 f2 (ix2 (⟨r.val, by have := r.isLt; omega⟩ : Fin 8192) p) = f1 (ix2 r p) := by
  unfold feats
  exact concatenate_pair_apply_left 0 f1 f2 concatenates_S4096x128_S4096x128_S8192x128_d0
    (ix2 (⟨r.val, by have := r.isLt; omega⟩ : Fin 8192) p) rfl (ix2 r p) fun b =>
      match b with
      | ⟨0, _⟩ => rfl
      | ⟨1, _⟩ => rfl

/-- In the last 4096 rows the stacked matrix reads the second block at the row less 4096. -/
theorem feats_apply_hi (f1 f2 : A Ideal S4096x128) (r : Fin 4096) (p : Fin 128) :
    feats f1 f2 (ix2 (⟨r.val + 4096, by have := r.isLt; omega⟩ : Fin 8192) p) = f2 (ix2 r p) := by
  unfold feats
  exact concatenate_pair_apply_right 0 f1 f2 concatenates_S4096x128_S4096x128_S8192x128_d0
    (ix2 (⟨r.val + 4096, by have := r.isLt; omega⟩ : Fin 8192) p) rfl rfl (ix2 r p)
    (fun b hb =>
      match b, hb with
      | ⟨0, _⟩, hb => absurd rfl hb
      | ⟨1, _⟩, _ => rfl)
    (show r.val + 4096 = r.val + 4096 from rfl)

/-- The stacked features of the two inputs at `(r, p)`: the closed form's feature matrix. -/
theorem feats_feat_apply (x1 x2 : A Ideal S4096x256) (W1 : A Ideal S256x256) (b1 : A Ideal S256) (W2 : A Ideal S256x128)
    (b2 : A Ideal S128) (r : Fin 8192) (p : Fin 128) :
    feats (feat x1 W1 b1 W2 b2) (feat x2 W1 b1 W2 b2) (ix2 r p) = Spec.features x1 x2 W1 b1 W2 b2 r p := by
  unfold Spec.features
  by_cases h : r.val < 4096
  · have hr : r = (⟨(⟨r.val, h⟩ : Fin 4096).val, by omega⟩ : Fin 8192) := Fin.ext rfl
    have hs : Spec.stacked x1 x2 r = fun k => x1 (ix2 (⟨r.val, h⟩ : Fin 4096) k) := by
      funext k; unfold Spec.stacked; rw [dif_pos h]
    rw [hs]
    refine (congrArg (fun q : Fin 8192 => feats (feat x1 W1 b1 W2 b2) (feat x2 W1 b1 W2 b2) (ix2 q p)) hr).trans ?_
    exact (feats_apply_lo _ _ (⟨r.val, h⟩ : Fin 4096) p).trans (feat_apply x1 W1 b1 W2 b2 _ p)
  · have hlt : r.val - 4096 < 4096 := by have := r.isLt; omega
    have hr : r = (⟨(⟨r.val - 4096, hlt⟩ : Fin 4096).val + 4096, by have := r.isLt; omega⟩ : Fin 8192) :=
      Fin.ext (by show r.val = r.val - 4096 + 4096; omega)
    have hs : Spec.stacked x1 x2 r = fun k => x2 (ix2 (⟨r.val - 4096, hlt⟩ : Fin 4096) k) := by
      funext k; unfold Spec.stacked; rw [dif_neg h]
    rw [hs]
    refine (congrArg (fun q : Fin 8192 => feats (feat x1 W1 b1 W2 b2) (feat x2 W1 b1 W2 b2) (ix2 q p)) hr).trans ?_
    exact (feats_apply_hi _ _ (⟨r.val - 4096, hlt⟩ : Fin 4096) p).trans (feat_apply x2 W1 b1 W2 b2 _ p)

/-! ## The logits -/

namespace Aux

/-- The temperature word is the real 9395241/134217728. -/
theorem temp_word : Ideal.ofBits .f32 0x3D8F5C29#32 = (((9395241 : ℝ) / 134217728 : ℝ) : EReal) := by
  simp [Ideal.ofBits, Ideal.ieee, -EReal.coe_mul]; norm_num

/-- Dividing by the temperature word is multiplying by the reciprocal temperature. -/
theorem div_temp (x : EReal) : Ideal.div x (Ideal.ofBits .f32 0x3D8F5C29#32) = x * Spec.cinv := by
  rw [temp_word, Ideal.div_coe (by norm_num : ((9395241 : ℝ) / 134217728) ≠ 0)]
  refine congrArg (fun q : ℝ => x * (q : EReal)) ?_
  norm_num

end Aux

/-- The logit of rows `i` and `j`: the inner product of the two stacked rows times the reciprocal temperature. -/
theorem logits_apply (f1 f2 : A Ideal S4096x128) (i j : Fin 8192) :
    logits f1 f2 (ix2 i j) = (∑ d : Fin 128, feats f1 f2 (ix2 i d) * feats f1 f2 (ix2 j d)) * Spec.cinv := by
  unfold logits
  refine (hostDivf_apply _ _ _).trans ?_
  refine (congrArg₂ Ideal.div ?_ (broadcastInDim_scalar_apply bcast_S_S8192x8192 _ _)).trans (Aux.div_temp _)
  refine (PlainDot.dotGeneral_apply_ix2 none .single _ _ i j).trans ?_
  exact Finset.sum_congr rfl fun d _ =>
    congrArg (feats f1 f2 (ix2 i d) * ·) (RowReduce.transpose_10_apply (feats f1 f2) transposes_S8192x128_S128x8192_1_0 d j)

/-- The same, as the closed form's logit of the matrix of stacked rows. -/
theorem logits_apply_spec (f1 f2 : A Ideal S4096x128) (i j : Fin 8192) :
    logits f1 f2 (ix2 i j) = Spec.logit (fun r d => feats f1 f2 (ix2 r d)) i j :=
  logits_apply f1 f2 i j

/-- The logits of the two inputs' features: the closed form's logits of its feature matrix. -/
theorem logits_feat_apply (x1 x2 : A Ideal S4096x256) (W1 : A Ideal S256x256) (b1 : A Ideal S256) (W2 : A Ideal S256x128)
    (b2 : A Ideal S128) (i j : Fin 8192) :
    logits (feat x1 W1 b1 W2 b2) (feat x2 W1 b1 W2 b2) (ix2 i j) = Spec.logit (Spec.features x1 x2 W1 b1 W2 b2) i j := by
  rw [logits_apply]
  unfold Spec.logit
  simp only [feats_feat_apply]

end Cert.ReferenceIdeal.RefRead

end
-- ==== Proof.LibHostRow.lean ====
/-
  The host's row-wise operations on a [a, b] matrix, read at indices given by coordinates, over the extended reals:
  • a vector [a] lifted to the column [a, 1] (broadcast_in_dim along axis 0) reads, at (p, u), the vector's entry p;
  • a column [a, 1] repeated along the rows to [a, b] (broadcast_in_dim along both axes) reads, at (p, q), the column's row p;
  • the two in a row read the vector's entry p;
  • the host's sum along row r from an initial value is the initial value plus Σ_{k < b} of the entries (r, k).
-/
import Idealize.ShloMosaic.PureOps.Ideal.Laws
import Idealize.ShloMosaic.Lib.Pipeline.Value
import Idealize.ShloMosaic.Lib.ValueIdx
import Idealize.ShloMosaic.Lib.IdealHost
import proofs.«132639_j29025388987032_1_alg».proof.Proof.LibRowColumn

open scoped BigOperators

namespace Idealize.ShloMosaic.HostRow

open Idealize.ShloMosaic Idealize.ShloMosaic.ValueIdx

variable {α : Type}

/-- A vector [a] lifted to the column [a, 1] reads, at (p, u), the vector's entry p. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  have hp := p.isLt
  refine broadcastInDim_apply _ h v (ix2 p u) (ix1 p) fun ax => ?_
  match ax with
  | ⟨0, _⟩ =>
    show p.val = if a = 1 then 0 else p.val
    split
    · omega
    · rfl

/-- A column [a, 1] repeated along the rows to [a, b] reads, at (p, q), the column's row p. -/
theorem bcast_a1_ab_apply {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  have hp := p.isLt
  refine broadcastInDim_apply _ h w (ix2 p q) (ix2 p (0 : Fin 1)) fun ax => ?_
  match ax with
  | ⟨0, _⟩ =>
    show p.val = if a = 1 then 0 else p.val
    split
    · omega
    · rfl
  | ⟨1, _⟩ => rfl

/-- A vector [a] lifted to [a, 1] and repeated to [a, b] reads, at (p, q), the vector's entry p. -/
theorem bcast_a_ab_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (bcast_a1_ab_apply _ h2 p q).trans (bcast_a_a1_apply v h1 p 0)

/-- The host's sum along row r of a [a, b] matrix from the initial value: the initial value plus the sum of the row's entries. -/
theorem hostReduceAdd_cols {a b : ℕ} {u : Shape} {φ : FTy} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduceAdd x init h' hu (ix1 r) = init (Shape.Idx.first hu) + ∑ k : Fin b, x (ix2 r k) := by
  refine (hostReduceAdd_apply x init h' hu (ix1 r)).trans ?_
  rw [Ideal.hostReduceAdd_single h' h]
  exact congrArg (init (Shape.Idx.first hu) + ·) (Finset.sum_congr rfl fun k _ => congrArg x (RowColumn.lift_cols h r k))

end Idealize.ShloMosaic.HostRow
-- ==== Proof.RefReadLogp.lean ====
/-
  The reference's row-wise log-softmax, read at an index on the extended reals.

  For the 8192 x 8192 matrix L of logits: each row's maximum is taken from −∞ (and once more against −∞), lifted to a column
  and repeated along the row; each entry has its row's maximum subtracted; each row's sum, from 0, of the exponentials of the
  shifted entries is lifted and repeated the same way, and its logarithm subtracted. So entry (i, j) of the result is
  (L(i, j) − M_i) − log(0 + Σ_k exp(L(i, k) − M_i)) with M_i the fold of max from −∞ over row i.
-/
import proofs.«132639_j29025388987032_1_alg».proof.Proof.RefValue
import proofs.«132639_j29025388987032_1_alg».proof.Proof.LibRowColumn
import proofs.«132639_j29025388987032_1_alg».proof.Proof.LibHostRow

noncomputable section

open scoped BigOperators

namespace Cert.ReferenceIdeal.RefRead

open Cert.ReferenceIdeal Cert.ReferenceIdeal.Gen Cert.ReferenceIdeal.RefValue Idealize.ShloMosaic Idealize.ShloMosaic.ValueIdx

/-- Row i's maximum: the fold of max from −∞ over the row's entries. -/
theorem rowmax_apply (L : A Ideal S8192x8192) (i : Fin 8192) :
    rowmax L (ix1 i) = (Finset.univ : Finset (Fin 8192)).fold max ⊥ (fun k => L (ix2 i k)) := by
  unfold rowmax
  refine (maximumf_apply _ _ _).trans ?_
  rw [broadcastInDim_scalar_apply]
  refine (congrArg₂ max RowColumn.ofBits_negInf
    (RowColumn.hostReduce_maximumf_cols (a := 8192) (b := 8192) L _ reducesTo_S8192x8192_S8192_d1 (by decide) h_S_ i)).trans ?_
  rw [max_bot_left]
  exact congrArg (fun z => (Finset.univ : Finset (Fin 8192)).fold max z (fun k => L (ix2 i k))) RowColumn.ofBits_negInf

/-- Entry (i, j) shifted by its row's maximum. -/
theorem shifted_apply (L : A Ideal S8192x8192) (i j : Fin 8192) :
    shifted L (ix2 i j) = L (ix2 i j) - (Finset.univ : Finset (Fin 8192)).fold max ⊥ (fun k => L (ix2 i k)) := by
  unfold shifted
  refine (subf_apply _ _ _).trans ?_
  rw [HostRow.bcast_a_ab_apply, rowmax_apply]

/-- Entry (i, j) of the row-wise log-softmax. -/
theorem logp_apply (L : A Ideal S8192x8192) (i j : Fin 8192) :
    logp L (ix2 i j) = (L (ix2 i j) - (Finset.univ : Finset (Fin 8192)).fold max ⊥ (fun k => L (ix2 i k)))
        - Ideal.log (0 + ∑ k : Fin 8192, Ideal.exp (L (ix2 i k) - (Finset.univ : Finset (Fin 8192)).fold max ⊥ (fun k => L (ix2 i k)))) := by
  unfold logp
  refine (subf_apply _ _ _).trans ?_
  refine congrArg₂ (· - ·) (shifted_apply L i j) ?_
  rw [HostRow.bcast_a1_ab_apply]
  show Ideal.log (broadcastInDim S8192x1 ![0] bcast_S8192_S8192x1_0
      (Host.reduceAdd (Host.exp (shifted L)) (constant (F := Ideal) S_ .f32 0x00000000#32) reducesTo_S8192x8192_S8192_d1 h_S_)
      (ix2 i (0 : Fin 1))) = _
  refine congrArg Ideal.log ?_
  rw [HostRow.bcast_a_a1_apply]
  refine (HostRow.hostReduceAdd_cols (a := 8192) (b := 8192) _ _ reducesTo_S8192x8192_S8192_d1 (by decide) h_S_ i).trans ?_
  refine congrArg₂ (· + ·) Ideal.ofBits_zero_f32 (Finset.sum_congr rfl fun k _ => ?_)
  show Ideal.exp (shifted L (ix2 i k)) = _
  rw [shifted_apply]

end Cert.ReferenceIdeal.RefRead

end
-- ==== Proof.RefReadMask.lean ====
/-
  The reference's last three stages read at an index, over the extended reals.
  The mask: the sample number of stacked row p is p mod 4096 (two runs of 0 … 4095 laid end to end); entry (i, j) of the
  mask is the number of the one-bit word "the samples of i and j agree, and i is not j", which for i, j below 8192 says
  that j is i's partner, i shifted by 4096 cyclically: so the entry is 1 at the partner column and 0 elsewhere.
  The masked row mean: row i's sum of mask times entry is then the entry at the partner column alone (0 times anything is
  0 and 1 times anything is itself on all extended reals, so nothing need be finite), the count is 1, and a quotient by 1
  is the dividend.
  The final mean: minus the sum of the 8192 row values, taken from a zero initial value, divided by the word for 8192.
-/
import proofs.«132639_j29025388987032_1_alg».proof.Proof.RefValue
import proofs.«132639_j29025388987032_1_alg».proof.Proof.Spec
import proofs.«132639_j29025388987032_1_alg».proof.Proof.LibRowColumn
import Idealize.ShloMosaic.Lib.IdealHost
import Idealize.ShloMosaic.Lib.Affine
import Idealize.ShloMosaic.Lib.ValueLayout

noncomputable section

namespace Cert.ReferenceIdeal.RefRead

open Cert.ReferenceIdeal Cert.ReferenceIdeal.Gen Cert.ReferenceIdeal.RefValue Idealize.ShloMosaic Idealize.ShloMosaic.ValueIdx

/-! ## Broadcasts of a vector to a matrix, read at coordinates -/

/-- A vector `[b]` kept as the row `[1, b]` reads, at `(u, c)`, its entry `c`. -/
theorem row_of_vec {α : Type} {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` repeated down `a` rows reads, at `(r, c)`, the row's entry `c`. -/
theorem rows_of_row {α : Type} {a b : ℕ} (v : (⟨2, ![1, b]⟩ : Shape).Idx → α)
    (h : (⟨2, ![1, b]⟩ : Shape).BroadcastsInDim ⟨2, ![a, b]⟩ ![0, 1]) (r : Fin a) (c : Fin b) :
    broadcastInDim ⟨2, ![a, b]⟩ ![0, 1] h v (ix2 r c) = v (ix2 (0 : Fin 1) c) := by
  refine broadcastInDim_apply _ h v (ix2 r c) (ix2 (0 : Fin 1) c) fun ax => ?_
  match ax with
  | ⟨0, _⟩ => rfl
  | ⟨1, _⟩ =>
    show c.val = if b = 1 then 0 else c.val
    split
    · have := c.isLt; omega
    · rfl

/-- A vector `[a]` kept as the column `[a, 1]` reads, at `(p, u)`, its entry `p`. -/
theorem col_of_vec {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` repeated along `b` columns reads, at `(p, c)`, the column's row `p`. -/
theorem cols_of_col {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## The mask -/

/-- The sample number of stacked row `p`: `p` modulo 4096, as a word. -/
theorem labels_apply (p : Fin 8192) : labels (F := Ideal) (ix1 p) = BitVec.ofNat 32 (p.val % 4096) := by
  unfold labels
  exact concatenate_replicate_apply (t := S8192) (s₁ := S4096) 0 2 (iotaInDim S4096 32 0) concatenates_S4096_S4096_S8192_d0 rfl
    (ix1 p) (ix1 (⟨p.val % 4096, Nat.mod_lt _ (by norm_num)⟩ : Fin 4096)) rfl
    (fun b hb => absurd (Subsingleton.elim _ _) hb)

/-- Words of numbers below 2^32 are equal only when the numbers are. -/
theorem ofNat32_inj {a b : ℕ} (ha : a < 2 ^ 32) (hb : b < 2 ^ 32) : BitVec.ofNat 32 a = BitVec.ofNat 32 b ↔ a = b := by
  constructor
  · intro h
    have e := congrArg BitVec.toNat h
    rwa [BitVec.toNat_ofNat, BitVec.toNat_ofNat, Nat.mod_eq_of_lt ha, Nat.mod_eq_of_lt hb] at e
  · rintro rfl; rfl

/-- For rows and columns below 8192: the samples agree and the column is not the row exactly at the partner column. -/
theorem partner_iff (i j : Fin 8192) : (j.val % 4096 = i.val % 4096 ∧ ¬i.val = j.val) ↔ j = Spec.pair i := by
  have hi := i.isLt; have hj := j.isLt
  rw [Fin.ext_iff]
  show _ ↔ j.val = (i.val + 4096) % 8192
  omega

/-- Entry `(i, j)` of the mask: 1 at row `i`'s partner column, 0 elsewhere. -/
theorem mask_apply (i j : Fin 8192) : mask (F := Ideal) (ix2 i j) = if j = Spec.pair i then (1 : EReal) else 0 := by
  have e1 : (broadcastInDim S8192x8192 ![0, 1] bcast_S1x8192_S8192x8192_0_1 (broadcastInDim S1x8192 ![1] bcast_S8192_S1x8192_1 (labels (F := Ideal)))) (ix2 i j)
      = BitVec.ofNat 32 (j.val % 4096) :=
    (rows_of_row _ bcast_S1x8192_S8192x8192_0_1 i j).trans ((row_of_vec _ bcast_S8192_S1x8192_1 0 j).trans (labels_apply j))
  have e2 : (broadcastInDim S8192x8192 ![0, 1] bcast_S8192x1_S8192x8192_0_1 (broadcastInDim S8192x1 ![0] bcast_S8192_S8192x1_0 (labels (F := Ideal)))) (ix2 i j)
      = BitVec.ofNat 32 (i.val % 4096) :=
    (cols_of_col _ bcast_S8192x1_S8192x8192_0_1 i j).trans ((col_of_vec _ bcast_S8192_S8192x1_0 i 0).trans (labels_apply i))
  have e3 : (broadcastInDim S8192x8192 ![] bcast_S_S8192x8192 (constantI S_ 32 0#32)) (ix2 i j) = 0#32 :=
    broadcastInDim_scalar_apply bcast_S_S8192x8192 _ _
  unfold mask
  show (((IntOp.andi (IntOp.cmpi .eq
        ((broadcastInDim S8192x8192 ![0, 1] bcast_S1x8192_S8192x8192_0_1 (broadcastInDim S1x8192 ![1] bcast_S8192_S1x8192_1 (labels (F := Ideal)))) (ix2 i j))
        ((broadcastInDim S8192x8192 ![0, 1] bcast_S8192x1_S8192x8192_0_1 (broadcastInDim S8192x1 ![0] bcast_S8192_S8192x1_0 (labels (F := Ideal)))) (ix2 i j)))
      (~~~(IntOp.cmpi .eq (IntOp.addi (BitVec.ofNat 32 i.val) ((broadcastInDim S8192x8192 ![] bcast_S_S8192x8192 (constantI S_ 32 0#32)) (ix2 i j)))
        (BitVec.ofNat 32 j.val)))).toNat : ℝ) : EReal) = _
  rw [e1, e2, e3]
  have hi := i.isLt; have hj := j.isLt
  have hc : IntOp.cmpi .eq (BitVec.ofNat 32 (j.val % 4096)) (BitVec.ofNat 32 (i.val % 4096)) = 1#1 ↔ j.val % 4096 = i.val % 4096 :=
    IntOp.cmpi_eq.trans (ofNat32_inj (by omega) (by omega))
  have hd : IntOp.cmpi .eq (IntOp.addi (BitVec.ofNat 32 i.val) 0#32) (BitVec.ofNat 32 j.val) = 1#1 ↔ i.val = j.val := by
    rw [show IntOp.addi (BitVec.ofNat 32 i.val) 0#32 = BitVec.ofNat 32 i.val from BitVec.add_zero _]
    exact IntOp.cmpi_eq.trans (ofNat32_inj (by omega) (by omega))
  by_cases hp : j = Spec.pair i
  · have h := (partner_iff i j).mpr hp
    rw [if_pos hp, IntOp.andi_eq_one.mpr ⟨hc.mpr h.1, IntOp.not_eq_one.mpr fun hh => h.2 (hd.mp hh)⟩]
    show (((1 : ℕ) : ℝ) : EReal) = 1
    rw [Nat.cast_one, EReal.coe_one]
  · rw [if_neg hp, eq_zero_of_ne_one fun hh => hp ((partner_iff i j).mp
      ⟨hc.mp (IntOp.andi_eq_one.mp hh).1, fun e => IntOp.not_eq_one.mp (IntOp.andi_eq_one.mp hh).2 (hd.mpr e)⟩)]
    show (((0 : ℕ) : ℝ) : EReal) = 0
    rw [Nat.cast_zero, EReal.coe_zero]

/-! ## The masked row mean -/

/-- The zero word a sum starts from is zero. -/
theorem zero_word_first : (constant (F := Ideal) S_ .f32 0x00000000#32) (Shape.Idx.first h_S_) = (0 : EReal) :=
  Ideal.ofBits_zero_f32

/-- The host's sum along the rows of a matrix from the zero word, at row `r`: zero plus the sum of the row's entries. -/
theorem sum_row_apply {a b : ℕ} (x : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (r : Fin a) :
    Host.reduceAdd x (constant (F := Ideal) S_ .f32 0x00000000#32) h' h_S_ (ix1 r) = 0 + ∑ k : Fin b, x (ix2 r k) := by
  refine (hostReduceAdd_apply x _ h' h_S_ (ix1 r)).trans ?_
  refine (Ideal.hostReduceAdd_single h' h x _ (ix1 r)).trans ?_
  refine congrArg₂ (· + ·) zero_word_first (Finset.sum_congr rfl fun k _ => congrArg x (RowColumn.lift_cols h r k))

/-- A quotient by 1 is the dividend, at the infinities too. -/
theorem div_one_real (y : EReal) : Ideal.div y 1 = y := by
  rw [← EReal.coe_one, Ideal.div_coe (by norm_num : (1 : ℝ) ≠ 0)]
  norm_num

/-- Row `i`'s masked mean of any matrix is the matrix's entry at the partner column. -/
theorem rows_mask_apply (P : A Ideal S8192x8192) (i : Fin 8192) :
    rows (mask (F := Ideal)) P (ix1 i) = P (ix2 i (Spec.pair i)) := by
  unfold rows
  refine (hostDivf_apply _ _ _).trans ?_
  rw [sum_row_apply (mulf (mask (F := Ideal)) P) reducesTo_S8192x8192_S8192_d1 (by decide) i,
    sum_row_apply (mask (F := Ideal)) reducesTo_S8192x8192_S8192_d1 (by decide) i]
  have hnum : (∑ k : Fin 8192, ((mulf (mask (F := Ideal)) P : FVec Ideal S8192x8192 .f32) (ix2 i k) : EReal)) = P (ix2 i (Spec.pair i)) := by
    rw [Finset.sum_eq_single (Spec.pair i)]
    · show mask (F := Ideal) (ix2 i (Spec.pair i)) * P (ix2 i (Spec.pair i)) = _
      rw [mask_apply, if_pos rfl, one_mul]
    · intro k _ hk
      show mask (F := Ideal) (ix2 i k) * P (ix2 i k) = 0
      rw [mask_apply, if_neg hk, zero_mul]
    · intro h; exact absurd (Finset.mem_univ _) h
  have hden : (∑ k : Fin 8192, (mask (F := Ideal) (ix2 i k) : EReal)) = 1 := by
    rw [Finset.sum_eq_single (Spec.pair i)]
    · rw [mask_apply, if_pos rfl]
    · intro k _ hk; rw [mask_apply, if_neg hk]
    · intro h; exact absurd (Finset.mem_univ _) h
  rw [hnum, hden, zero_add, zero_add, div_one_real]

/-! ## The final mean -/

/-- The indices of a vector `[n]` are the numbers below `n`. -/
def idx1Equiv (n : ℕ) : (⟨1, ![n]⟩ : Shape).Idx ≃ Fin n where
  toFun j := j 0
  invFun := ix1
  left_inv j := (eq_ix1 j).symm
  right_inv _ := rfl

/-- Minus the mean of the row values: minus the quotient, by the word for the number of rows, of zero plus their sum. -/
theorem negMean_apply (R : A Ideal S8192) (j : S_.Idx) :
    negMean R j = -(Ideal.div (0 + ∑ i : Fin 8192, R (ix1 i)) Spec.nrows) := by
  unfold negMean
  show -(Ideal.div (Host.reduceAdd R (constant (F := Ideal) S_ .f32 0x00000000#32) reducesTo_S8192_S_d0 h_S_ j) Spec.nrows) = _
  refine congrArg (fun y => -(Ideal.div y Spec.nrows)) ?_
  refine (hostReduceAdd_apply R _ reducesTo_S8192_S_d0 h_S_ j).trans ?_
  refine (Ideal.hostReduceAdd_total reducesTo_S8192_S_d0 (fun b => b.elim0) R _ j).trans ?_
  refine congrArg₂ (· + ·) zero_word_first ?_
  exact (Equiv.sum_comp (idx1Equiv 8192).symm (fun j => R j)).symm

end Cert.ReferenceIdeal.RefRead

end
-- ==== Proof.RefResult.lean ====
/-
  The reference's result is the closed form. The result buffer is minus the mean of the masked row means of the row-wise
  log-softmax of the logits of the stacked features. Read stage by stage at an index: the mean is minus the quotient, by the
  word for the number of rows, of zero plus the sum of the row values; row i's masked mean is the log-softmax entry at the
  partner column; that entry is the logit there less the row's maximum, less the logarithm of zero plus the row's sum of
  exponentials of logits less the maximum; and each logit is the closed form's logit of its feature matrix.
-/
import proofs.«132639_j29025388987032_1_alg».proof.Proof.RefRead2
import proofs.«132639_j29025388987032_1_alg».proof.Proof.RefReadLogp
import proofs.«132639_j29025388987032_1_alg».proof.Proof.RefReadMask

noncomputable section

namespace Cert.ReferenceIdeal.RefRead

open Cert.ReferenceIdeal Cert.ReferenceIdeal.RefValue Idealize.ShloMosaic Idealize.ShloMosaic.ValueIdx

theorem out_eq (x1 x2 : A Ideal S4096x256) (W1 : A Ideal S256x256) (b1 : A Ideal S256) (W2 : A Ideal S256x128) (b2 : A Ideal S128) :
    out x1 x2 W1 b1 W2 b2 = fun _ => Cert.Spec.result x1 x2 W1 b1 W2 b2 := by
  funext j
  unfold out
  refine (negMean_apply _ j).trans ?_
  unfold Spec.result Spec.loss
  refine congrArg (fun s : EReal => -(Ideal.div (0 + s) Spec.nrows)) (Finset.sum_congr rfl fun i _ => ?_)
  refine (rows_mask_apply _ i).trans ?_
  refine (logp_apply _ i (Spec.pair i)).trans ?_
  unfold Spec.rowValue Spec.rowMax
  simp only [logits_feat_apply]

end Cert.ReferenceIdeal.RefRead

end
-- ==== Proof.lean ====
/-
  The claim of this certificate: a two-layer projection (dense, rectify, dense) of 8192 rows followed by division of
  each row by its Euclidean norm floored at a small constant, then the normalised-temperature cross-entropy of the
  resulting 8192 x 128 feature rows: with S = F·Fᵀ scaled by the reciprocal temperature, the loss is minus the mean over
  rows i of S(i, i ± 4096) − (maxⱼ S(i,j) + log Σⱼ exp (S(i,j) − maxⱼ S(i,j))).
  The kernel never forms S: per row tile it walks the column tiles keeping a running maximum m and a running sum l of
  exponentials shifted by m, rescaling l by exp (m_old − m_new) at each tile, and picks the paired logit off the
  diagonal of the one column tile that holds it; the reference forms S, takes the log-softmax of each row in one
  shot and selects the paired column by a 0/1 mask. For real (finite) logits the two agree: the running pair after the
  last tile is (maxⱼ S(i,j), Σⱼ exp (S(i,j) − maxⱼ S(i,j))) by exp (a + b) = exp a · exp b and distributivity, which
  is where finiteness of the inputs is used (the features of finite inputs are real: the norm's floor is positive).
  The kernel multiplies by the reciprocal temperature, a constant named here as the exact reciprocal of the
  reference's divisor 9395241/134217728, so that the product is the reference's quotient on every extended real.
  Both programs' results are read down to one closed form of the six argument arrays (Spec.lean).
-/
import proofs.«132639_j29025388987032_1_alg».proof.Defs
import proofs.«132639_j29025388987032_1_alg».proof.Proof.Gen.Kernel
import proofs.«132639_j29025388987032_1_alg».proof.Proof.Gen.KernelIdeal
import proofs.«132639_j29025388987032_1_alg».proof.Proof.Gen.ReferenceIdeal
import proofs.«132639_j29025388987032_1_alg».proof.Proof.Gen.Pre_finite_inputs
import proofs.«132639_j29025388987032_1_alg».proof.Proof.KInst
import proofs.«132639_j29025388987032_1_alg».proof.Proof.Inst
import proofs.«132639_j29025388987032_1_alg».proof.Proof.KernelValue
import proofs.«132639_j29025388987032_1_alg».proof.Proof.RefResult
import Idealize.ShloMosaic.Adequacy
import Idealize.ShloMosaic.Init

noncomputable section

namespace Cert.Proof

open Idealize.ShloMosaic Idealize.SL.Sem

/-- The kernel runs to the end, faults nowhere and leaves its arguments unchanged. -/
theorem frame_kernel : Cert.frame_Kernel := fun m ρ _ => Cert.Kernel.Inst.frame (F := Bits) m ρ

/-- So does its idealization. -/
theorem frame_kernelIdeal : Cert.frame_KernelIdeal := fun m ρ _ => Cert.KernelIdeal.Inst.frame (F := Ideal) m ρ

/-- The reference is a straight line of host operations none of which writes an argument's buffer. -/
theorem frame_reference : Cert.frame_ReferenceIdeal :=
  fun m ρ _ => Cert.ReferenceIdeal.HandRun.run_frame (F := Ideal) m ρ

/-- The reciprocal temperature the kernel multiplies by denotes, at the exact instance, the reciprocal
    134217728/9395241 of the reference's divisor: the one rewrite of the idealization. -/
theorem preserves : Cert.preserves_Kernel_KernelIdeal :=
  IdealRules.named_const.statement Cert.KernelIdeal.κ "inv_temp" .f32 0x41649249#32 ((134217728 / 9395241 : ℝ) : EReal) rfl

/-- From memories agreeing on the arguments both idealized programs end at the closed form of the arguments. -/
theorem algebraic : Cert.algebraic_KernelIdeal_ReferenceIdeal := by
  intro m ρ m' ρ' hpre hagree
  refine ⟨fun c => fun _ => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Run.run_value (F := Ideal) m ρ (Cert.KernelIdeal.Inst.dat1 m ρ) (Cert.KernelIdeal.Inst.facts1 m ρ))
    exact Cert.KernelIdeal.KernelValue.kernel_result m ρ (Cert.KernelIdeal.Inst.dat1 m ρ)
      (fun c t => Cert.KernelIdeal.Region1.after2 (Cert.KernelIdeal.Run.V2 m ρ) Cert.KernelIdeal.Inst.qs c t) hpre c
  · refine (θ_run Cert.ReferenceIdeal.defs _ _).mono (fun r h c => ⟨(h c).1.trans ?_, (h c).2⟩)
      (Cert.ReferenceIdeal.RefValue.run_value (F := Ideal) m' ρ')
    rw [Cert.ReferenceIdeal.RefRead.out_eq, (hagree c).1, (hagree c).2.1, (hagree c).2.2.1, (hagree c).2.2.2.1,
      (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
